-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x3072 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x16x3x64 : Shape := ⟨4, ![1024, 16, 3, 64]⟩
abbrev S1024x3x16x64 : Shape := ⟨4, ![1024, 3, 16, 64]⟩
abbrev S16x3x64 : Shape := ⟨3, ![16, 3, 64]⟩
abbrev S3x16x64 : Shape := ⟨3, ![3, 16, 64]⟩
abbrev S8192x1024 : Shape := ⟨2, ![8192, 1024]⟩
abbrev S1x3072 : Shape := ⟨2, ![1, 3072]⟩
abbrev S8192x3072 : Shape := ⟨2, ![8192, 3072]⟩
abbrev S1x1024 : Shape := ⟨2, ![1, 1024]⟩
abbrev S4x2048x3072 : Shape := ⟨3, ![4, 2048, 3072]⟩
abbrev S4x16x2048x2048 : Shape := ⟨4, ![4, 16, 2048, 2048]⟩
abbrev S1x256x128 : Shape := ⟨3, ![1, 256, 128]⟩
abbrev S1x2048x128 : Shape := ⟨3, ![1, 2048, 128]⟩
abbrev S1x2x256x2048 : Shape := ⟨4, ![1, 2, 256, 2048]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1x256x2048 : Shape := ⟨4, ![1, 1, 256, 2048]⟩
abbrev S1x256x64 : Shape := ⟨3, ![1, 256, 64]⟩

abbrev nBuf : Space → Nat
  | .hbm => 24
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .bf16⟩
  | .hbm, ⟨6, _⟩ => ⟨S1024x16x3x64, .bf16⟩
  | .hbm, ⟨7, _⟩ => ⟨S1024x3x16x64, .bf16⟩
  | .hbm, ⟨8, _⟩ => ⟨S1024x3072, .bf16⟩
  | .hbm, ⟨9, _⟩ => ⟨S16x3x64, .f32⟩
  | .hbm, ⟨10, _⟩ => ⟨S3x16x64, .f32⟩
  | .hbm, ⟨11, _⟩ => ⟨S3072, .f32⟩
  | .hbm, ⟨12, _⟩ => ⟨S8192x1024, .f32⟩
  | .hbm, ⟨13, _⟩ => ⟨S8192x1024, .bf16⟩
  | .hbm, ⟨14, _⟩ => ⟨S1x3072, .f32⟩
  | .hbm, ⟨15, _⟩ => ⟨S8192x3072, .bf16⟩
  | .hbm, ⟨16, _⟩ => ⟨S4x2048x3072, .bf16⟩
  | .hbm, ⟨17, _⟩ => ⟨S4x2048x1024, .bf16⟩
  | .hbm, ⟨18, _⟩ => ⟨S4x16x2048x2048, .f32⟩
  | .hbm, ⟨19, _⟩ => ⟨S1024x1024, .bf16⟩
  | .hbm, ⟨20, _⟩ => ⟨S8192x1024, .bf16⟩
  | .hbm, ⟨21, _⟩ => ⟨S1x1024, .f32⟩
  | .hbm, ⟨22, _⟩ => ⟨S8192x1024, .f32⟩
  | .hbm, ⟨23, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x2x256x2048, .f32⟩
  | .local _ .vmem, ⟨17, _⟩ => ⟨S1x2x256x2048, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x2x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  shapeCasts_S1024x3072_S1024x16x3x64 : S1024x3072.ShapeCasts S1024x16x3x64
  transposes_S1024x16x3x64_S1024x3x16x64_0_2_1_3 : S1024x16x3x64.Transposes [0, 2, 1, 3] S1024x3x16x64
  shapeCasts_S1024x3x16x64_S1024x3072 : S1024x3x16x64.ShapeCasts S1024x3072
  shapeCasts_S3072_S16x3x64 : S3072.ShapeCasts S16x3x64
  transposes_S16x3x64_S3x16x64_1_0_2 : S16x3x64.Transposes [1, 0, 2] S3x16x64
  shapeCasts_S3x16x64_S3072 : S3x16x64.ShapeCasts S3072
  shapeCasts_S4x2048x1024_S8192x1024 : S4x2048x1024.ShapeCasts S8192x1024
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x3072_S4x2048x3072 : S8192x3072.ShapeCasts S4x2048x3072
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  inb_S1x2x256x2048_S1x1x256x2048_0_0_0_0 : ∀ a, (![0, 0, 0, 0] : Fin 4 → Nat) a + S1x1x256x2048.size a ≤ S1x2x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  shapeCasts_S256x64_S1x256x64 : S256x64.ShapeCasts S1x256x64
  packedbf16_S1x256x128_S1x256x64_0_0_0 : (Rect.unit (s := S1x256x128) ![0, 0, 0] S1x256x64.size inb_S1x256x128_S1x256x64_0_0_0).PackedRows (EltTy.packing .bf16)
  slices_S256x128_o0_64_S256x64 : S256x128.Slices ![0, 64] S256x64
  slices_S2048x128_o0_64_S2048x64 : S2048x128.Slices ![0, 64] S2048x64
  inb_S1x2x256x2048_S1x1x256x2048_0_1_0_0 : ∀ a, (![0, 1, 0, 0] : Fin 4 → Nat) a + S1x1x256x2048.size a ≤ S1x2x256x2048.size a
  inb_S1x256x128_S1x256x64_0_0_64 : ∀ a, (![0, 0, 64] : Fin 3 → Nat) a + S1x256x64.size a ≤ S1x256x128.size a
  packedbf16_S1x256x128_S1x256x64_0_0_64 : (Rect.unit (s := S1x256x128) ![0, 0, 64] S1x256x64.size inb_S1x256x128_S1x256x64_0_0_64).PackedRows (EltTy.packing .bf16)
  shapeCasts_S1024_S1x1024 : S1024.ShapeCasts S1x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x3072.size a
  hwx0_3 : ∀ i : grid0.Coords, EltTy.bits .bf16 = 32 ∨ (Rect.block (s := S8192x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x2048x3072.size a
  hwx1_0 : ∀ i : grid1.Coords, EltTy.bits .bf16 = 32 ∨ (Rect.block (s := S4x2048x3072) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S4x2048x1024.size a
  hwx1_3 : ∀ i : grid1.Coords, EltTy.bits .bf16 = 32 ∨ (Rect.block (s := S4x2048x1024) S1x256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2x256x2048.size a ≤ S4x16x2048x2048.size a
  hwx1_4 : ∀ i : grid1.Coords, EltTy.bits .f32 = 32 ∨ (Rect.block (s := S4x16x2048x2048) S1x2x256x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S1x256x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S1x2x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x16x192, .f32⟩
  | .hbm, ⟨10, _⟩ => ⟨S4x16x2048x192, .f32⟩
  | .hbm, ⟨11, _⟩ => ⟨S4x16x2048x64, .f32⟩
  | .hbm, ⟨12, _⟩ => ⟨S4x16x2048x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | .hbm, ⟨33, _⟩ => ⟨S4x2048x16x64, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.BitsRegion0.lean ====
import proofs.«157239_j88802743812872_2_alg».proof.Proof.Gen.Kernel.Launch
import proofs.«157239_j88802743812872_2_alg».proof.Proof.Gen.Kernel.Skeleton
import proofs.«157239_j88802743812872_2_alg».proof.Proof.Gen.Kernel.Points
import Idealize.ShloMosaic.Lib.Pipeline.FrameBody
import Idealize.ShloMosaic.Lib.Ring
import Idealize.ShloMosaic.Lib.Tactic

/-! # Grid region 0: a row block of the left matrix times a column block of the right matrix, plus a bias row

At every grid point the body reads three whole blocks (a 1024 by 1024 block of the left operand, a 1024 by 1024 block
of the right operand and a 1 by 1024 block of the bias) and overwrites the whole 1024 by 1024 output block with
left times right plus bias, the bias row repeated down the rows. This module states, for any contents V of the
arrays when the region is entered and at any float model, what the body leaves in the output block as a function
of the three input blocks, proves the body's specification by symbolic execution, and packages the per-point data
the pipeline's launch rule needs. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the array at every grid point, whether or not the
    block was fetched at that point (when it was not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block of the array at every grid point, whether or not the
    block was fetched at that point (when it was not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block of the array at every grid point, whether or not the
    block was fetched at that point (when it was not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 by 1024 block and the whole 1 by 1024 block, as rectangles. -/
abbrev r0_m : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-- The output block after the body: its one store, of the product-plus-bias of the three loaded blocks. -/
def out0_3 (x0 : Vec F S1024x1024 .bf16) (x1 : Vec F S1024x1024 .bf16) (x2 : Vec F S1x1024 .f32) : Vec F S1024x1024 .bf16 :=
  View.canon [⟨r0_m, k0_pay1 (View.ld x0 r0_m) (View.ld x1 r0_m) (View.ld x2 r0_b)⟩]

/-- The one store covers the whole block. -/
theorem cover0_3 (p0 : Vec F S1024x1024 .bf16) (y : S1024x1024.Idx) :
    ∃ pc ∈ ([⟨r0_m, p0⟩] : List (View.Piece (Elt F) S1024x1024 .bf16)), y ∈ pc.1.set :=
  View.cover_of_tiled [⟨r0_m, p0⟩] S1024x1024.size (by rfl) y

set_option maxHeartbeats 1000000 in
/-- The body's specification: from the three input blocks held at x0, x1, x2 and the output block held at anything,
    it terminates without fault holding the inputs unchanged and the output at the product-plus-bias of the inputs. -/
theorem sound_kernel0 (c : Dev nD) (E : Set ℕ) (i : grid0.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's per-point data on a core: the arrays as the region finds them; after the body at a point each input
    block unchanged and the output block at the product-plus-bias of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at a grid point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsRegion1.lean ====
import proofs.«157239_j88802743812872_2_alg».proof.Proof.Gen.Kernel.Launch
import proofs.«157239_j88802743812872_2_alg».proof.Proof.Gen.Kernel.Skeleton
import proofs.«157239_j88802743812872_2_alg».proof.Proof.Gen.Kernel.Points
import Idealize.ShloMosaic.Lib.Pipeline.FrameBody
import Idealize.ShloMosaic.Lib.Ring
import Idealize.ShloMosaic.Lib.Tactic

/-! # Grid region 1: scaled dot-product attention for two heads at a time

At every grid point the body reads a 256-row block of queries and the whole 2048-row blocks of keys and of values,
each 128 columns wide: two heads of width 64 side by side. For each of the two heads it takes the 64 columns of
that head, forms the 256 by 2048 scores (queries times keys transposed, times 1/8), turns every row into
probabilities (exponential of the score minus the row maximum, divided by the row sum), stores the probabilities
into that head's half of the probability output block, multiplies them with the head's values and stores the
256 by 64 result into that head's half of the value output block. This module states, for any contents V of
the arrays when the region is entered and at any float model, what the body leaves in the two output blocks as a
function of the three input blocks, proves the body's specification by symbolic execution, and packages the
per-point data the pipeline's launch rule needs. The three input windows look at one array, which is only read:
each holds it at a third of the full permission. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the array at every grid point, whether or not the
    block was fetched at that point (when it was not, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block of the array at every grid point, whether or not the
    block was fetched at that point (when it was not, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block of the array at every grid point, whether or not the
    block was fetched at that point (when it was not, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole query block, the whole key or value block, the two halves of the probability block (one head each)
    and the two halves of the value output block (64 columns each), as rectangles. -/
abbrev r1_q : Rect S1x256x128 := Rect.unit (s := S1x256x128) ![0, 0, 0] S1x256x128.size inb_S1x256x128_S1x256x128_0_0_0
abbrev r1_k : Rect S1x2048x128 := Rect.unit (s := S1x2048x128) ![0, 0, 0] S1x2048x128.size inb_S1x2048x128_S1x2048x128_0_0_0
abbrev r1_a0 : Rect S1x2x256x2048 := Rect.unit (s := S1x2x256x2048) ![0, 0, 0, 0] S1x1x256x2048.size inb_S1x2x256x2048_S1x1x256x2048_0_0_0_0
abbrev r1_a1 : Rect S1x2x256x2048 := Rect.unit (s := S1x2x256x2048) ![0, 1, 0, 0] S1x1x256x2048.size inb_S1x2x256x2048_S1x1x256x2048_0_1_0_0
abbrev r1_v0 : Rect S1x256x128 := Rect.unit (s := S1x256x128) ![0, 0, 0] S1x256x64.size inb_S1x256x128_S1x256x64_0_0_0
abbrev r1_v1 : Rect S1x256x128 := Rect.unit (s := S1x256x128) ![0, 0, 64] S1x256x64.size inb_S1x256x128_S1x256x64_0_0_64

/-- The value output block after the body: the second head's 64 columns, then the first head's (last store first). -/
def out1_3 (x0 : Vec F S1x256x128 .bf16) (x1 : Vec F S1x2048x128 .bf16) (x2 : Vec F S1x2048x128 .bf16) : Vec F S1x256x128 .bf16 :=
  View.canon [⟨r1_v1, k1_pay3 (k1_pay10 (View.ld x0 r1_q)) (k1_pay11 (View.ld x1 r1_k)) (k1_pay12 (View.ld x2 r1_k)) (constant S256x2048 .f32 0x00000000#32)⟩,
    ⟨r1_v0, k1_pay9 (View.ld x0 r1_q) (View.ld x1 r1_k) (View.ld x2 r1_k)⟩]

/-- The probability output block after the body: the second head's half, then the first head's (last store first). -/
def out1_4 (x0 : Vec F S1x256x128 .bf16) (x1 : Vec F S1x2048x128 .bf16) : Vec F S1x2x256x2048 .f32 :=
  View.canon [⟨r1_a1, k1_pay2 (k1_pay10 (View.ld x0 r1_q)) (k1_pay11 (View.ld x1 r1_k)) (constant S256x2048 .f32 0x00000000#32)⟩,
    ⟨r1_a0, k1_pay8 (View.ld x0 r1_q) (View.ld x1 r1_k)⟩]

/-- The two stores of each output tile its block, so they cover it. -/
theorem cover1_3 (p0 : Vec F S1x256x64 .bf16) (p1 : Vec F S1x256x64 .bf16) (y : S1x256x128.Idx) :
    ∃ pc ∈ ([⟨r1_v1, p0⟩, ⟨r1_v0, p1⟩] : List (View.Piece (Elt F) S1x256x128 .bf16)), y ∈ pc.1.set :=
  View.cover_of_tiled [⟨r1_v1, p0⟩, ⟨r1_v0, p1⟩] S1x256x64.size (by rfl) y
theorem cover1_4 (p0 : Vec F S1x1x256x2048 .f32) (p1 : Vec F S1x1x256x2048 .f32) (y : S1x2x256x2048.Idx) :
    ∃ pc ∈ ([⟨r1_a1, p0⟩, ⟨r1_a0, p1⟩] : List (View.Piece (Elt F) S1x2x256x2048 .f32)), y ∈ pc.1.set :=
  View.cover_of_tiled [⟨r1_a1, p0⟩, ⟨r1_a0, p1⟩] S1x1x256x2048.size (by rfl) y

set_option maxHeartbeats 2000000 in
/-- The body's specification: from the three input blocks held at x0, x1, x2 and the two output blocks held at
    anything, it terminates without fault holding the inputs unchanged and the outputs at out1_3 and out1_4 of them. -/
theorem sound_kernel1 (c : Dev nD) (E : Set ℕ) (i : grid1.Coords) (arg0 : Memref sig .tc .vmem S1x256x128 .bf16) (harg0 : arg0.IsWhole) (arg1 : Memref sig .tc .vmem S1x2048x128 .bf16) (harg1 : arg1.IsWhole) (arg2 : Memref sig .tc .vmem S1x2048x128 .bf16) (harg2 : arg2.IsWhole) (arg3 : Memref sig .tc .vmem S1x256x128 .bf16) (harg3 : arg3.IsWhole) (arg4 : Memref sig .tc .vmem S1x2x256x2048 .f32) (harg4 : arg4.IsWhole)
    (x0 : Vec F S1x256x128 .bf16) (x1 : Vec F S1x2048x128 .bf16) (x2 : Vec F S1x2048x128 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1)) -∗ K ⟨⟩))
      ⊢ wp frame (wpE (defs₀ (F := F)) Variants.none c none) E (cc1__fused_attn_kernel i arg0 harg0 arg1 harg1 arg2 harg2 arg3 harg3 arg4 harg4) K := by
  simp only [cc1__fused_attn_kernel_eq_skeleton]; unfold cc1__fused_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover1_3 _ _)
  iexists _; isplitr
  swap; · iexact H4
  ipureintro
  try dsimp only
  exact View.read_writes_eq_canon _ _ _ (cover1_4 _ _)

/-- A third of the full permission, three times: how the three reading windows share their one array. -/
abbrev shA : PosShare TreeShare := fullShare.left
abbrev shB : PosShare TreeShare := fullShare.right.left
abbrev shC : PosShare TreeShare := fullShare.right.right

/-- The region's per-point data on a core: the arrays as the region finds them; after the body at a point each input
    block unchanged and each output block at its function of the input blocks; nothing owed; the three readers of the
    shared array at their thirds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => shA
    | ⟨1, _⟩ => shB
    | ⟨2, _⟩ => shC
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at a grid point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BitsRegion2.lean ====
import proofs.«157239_j88802743812872_2_alg».proof.Proof.Gen.Kernel.Launch
import proofs.«157239_j88802743812872_2_alg».proof.Proof.Gen.Kernel.Skeleton
import proofs.«157239_j88802743812872_2_alg».proof.Proof.Gen.Kernel.Points
import Idealize.ShloMosaic.Lib.Pipeline.FrameBody
import Idealize.ShloMosaic.Lib.Ring
import Idealize.ShloMosaic.Lib.Tactic

/-! # Grid region 2: a row block of the left matrix times a column block of the right matrix, plus a bias row

At every grid point the body reads three whole blocks (a 1024 by 1024 block of the left operand, a 1024 by 1024 block
of the right operand and a 1 by 1024 block of the bias) and overwrites the whole 1024 by 1024 output block with
left times right plus bias, the bias row repeated down the rows. This module states, for any contents V of the
arrays when the region is entered and at any float model, what the body leaves in the output block as a function
of the three input blocks, proves the body's specification by symbolic execution, and packages the per-point data
the pipeline's launch rule needs. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block of the array at every grid point, whether or not the
    block was fetched at that point (when it was not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block of the array at every grid point, whether or not the
    block was fetched at that point (when it was not, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block of the array at every grid point, whether or not the
    block was fetched at that point (when it was not, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 by 1024 block and the whole 1 by 1024 block, as rectangles. -/
abbrev r2_m : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store, of the product-plus-bias of the three loaded blocks. -/
def out2_3 (x0 : Vec F S1024x1024 .bf16) (x1 : Vec F S1024x1024 .bf16) (x2 : Vec F S1x1024 .f32) : Vec F S1024x1024 .f32 :=
  View.canon [⟨r2_m, k2_pay1 (View.ld x0 r2_m) (View.ld x1 r2_m) (View.ld x2 r2_b)⟩]

/-- The one store covers the whole block. -/
theorem cover2_3 (p0 : Vec F S1024x1024 .f32) (y : S1024x1024.Idx) :
    ∃ pc ∈ ([⟨r2_m, p0⟩] : List (View.Piece (Elt F) S1024x1024 .f32)), y ∈ pc.1.set :=
  View.cover_of_tiled [⟨r2_m, p0⟩] S1024x1024.size (by rfl) y

set_option maxHeartbeats 1000000 in
/-- The body's specification: from the three input blocks held at x0, x1, x2 and the output block held at anything,
    it terminates without fault holding the inputs unchanged and the output at the product-plus-bias of the inputs. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's per-point data on a core: the arrays as the region finds them; after the body at a point each input
    block unchanged and the output block at the product-plus-bias of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a grid point, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.BitsRun.lean ====
import proofs.«157239_j88802743812872_2_alg».proof.Proof.BitsRegion0
import proofs.«157239_j88802743812872_2_alg».proof.Proof.BitsRegion1
import proofs.«157239_j88802743812872_2_alg».proof.Proof.BitsRegion2
import proofs.«157239_j88802743812872_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole program's run: three grid regions among four stretches of host operations

The program casts and re-lays the weights and the input (host stretch 0), multiplies the input by the projection
matrix and adds the bias (region 0), re-lays the result (stretch 1), runs the attention (region 1), casts and
re-lays for the output projection (stretch 2), multiplies by the output matrix and adds its bias (region 2), and
re-lays the result (stretch 3). This module names the contents of every unscoped buffer at each of the eight
boundaries as a fold from the launch memory, states each region as a segment entered at one boundary's contents
and left at the next one's, and concludes that every weakly fair execution terminates without fault with every
unscoped buffer at the last boundary's contents. Region 1's three reading windows look at one array: on entry its
full permission is cut into three thirds, one per window, and on exit the thirds, which still hold the entry
contents, are joined again. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1's entry and exit: one array read through three windows -/

section SharedArray

variable (V : (c : Dev nD) → (b : Ref sig .tc) → Buf (Elt F) ((c : Thread nD τ).loc b))

theorem img1 : Finset.univ.image (Pipeline.arrRef spec1) = ({main_v11, main_v12_0, main_v12_1} : Finset (Ref sig .tc)) := by decide

/-- ENTRY of region 1. A core's unscoped buffers, each whole at the full permission, give the region its five windows'
    arrays — the one array its three reading windows share cut into three thirds — beside the buffers no window looks at. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  classical
  have hA : Finset.univ.image (Pipeline.arrRef spec1) ⊆ Finset.univ.filter fun b : Ref sig .tc => ¬ b.isScoped := by decide
  unfold unscopedBufs Pipeline.unscopedRest
  rw [bigSep_sdiff_split hA]
  refine BI.sep_mono ?_ (BI.Entails.refl _)
  rw [img1, bigSep_insert (by decide), bigSep_insert (by decide), bigSep_singleton]
  unfold Dat.arrays
  rw [bigSep_W1]
  have hs : ∀ w : Fin 5, (cfg1.win w).arr.view.set = Finset.univ := fun w => (arr_whole1 w).set_eq_univ
  rw [hs 0, hs 3, hs 4]
  rw [show (dat1 V c).share 0 = shA from rfl, show (dat1 V c).share 1 = shB from rfl, show (dat1 V c).share 2 = shC from rfl,
    show (dat1 V c).share 3 = fullShare from rfl, show (dat1 V c).share 4 = fullShare from rfl]
  show iprop((c.tc.loc main_v11 ↦{fullShare} V c main_v11) ∗ (c.tc.loc main_v12_0 ↦{fullShare} V c main_v12_0) ∗ (c.tc.loc main_v12_1 ↦{fullShare} V c main_v12_1))
    ⊢ iprop((c.tc.loc main_v11 ↦{shA} V c main_v11) ∗ (c.tc.loc main_v11 ↦{shB} V c main_v11) ∗ (c.tc.loc main_v11 ↦{shC} V c main_v11) ∗ (c.tc.loc main_v12_0 ↦{fullShare} V c main_v12_0) ∗ (c.tc.loc main_v12_1 ↦{fullShare} V c main_v12_1))
  have hsp1 : (c.tc.loc main_v11 ↦{fullShare} V c main_v11 : sProp 𝕄)
      ⊢ iprop((c.tc.loc main_v11 ↦{shA} V c main_v11) ∗ (c.tc.loc main_v11 ↦{fullShare.right} V c main_v11)) :=
    (pointsTo_share (PosShare.mem_left_op_right fullShare)).1
  have hsp2 : (c.tc.loc main_v11 ↦{fullShare.right} V c main_v11 : sProp 𝕄)
      ⊢ iprop((c.tc.loc main_v11 ↦{shB} V c main_v11) ∗ (c.tc.loc main_v11 ↦{shC} V c main_v11)) :=
    (pointsTo_share (PosShare.mem_left_op_right fullShare.right)).1
  have hmid : (iprop(((c.tc.loc main_v11 ↦{shA} V c main_v11) ∗ (c.tc.loc main_v11 ↦{shB} V c main_v11) ∗ (c.tc.loc main_v11 ↦{shC} V c main_v11)) ∗ (c.tc.loc main_v12_0 ↦{fullShare} V c main_v12_0) ∗ (c.tc.loc main_v12_1 ↦{fullShare} V c main_v12_1)) : sProp 𝕄)
      ⊢ iprop((c.tc.loc main_v11 ↦{shA} V c main_v11) ∗ (c.tc.loc main_v11 ↦{shB} V c main_v11) ∗ (c.tc.loc main_v11 ↦{shC} V c main_v11) ∗ (c.tc.loc main_v12_0 ↦{fullShare} V c main_v12_0) ∗ (c.tc.loc main_v12_1 ↦{fullShare} V c main_v12_1)) := by
    iintro ⟨⟨Ha, Hb, Hc⟩, H120, H121⟩
    isplitl [Ha]; · iexact Ha
    isplitl [Hb]; · iexact Hb
    isplitl [Hc]; · iexact Hc
    isplitl [H120]; · iexact H120
    iexact H121
  exact (BI.sep_mono (hsp1.trans (BI.sep_mono (BI.Entails.refl _) hsp2)) (BI.Entails.refl _)).trans hmid

/-- EXIT of region 1. The five windows' arrays as the pipeline leaves them — the three thirds of the shared array
    still at its entry contents — and the buffers no window looks at are the core's unscoped buffers at any contents
    that have the two outputs as left, the shared array as entered, and agree elsewhere. -/
theorem exit1 (c : Dev nD) (V' : (c : Dev nD) → (b : Ref sig .tc) → Buf (Elt F) ((c : Thread nD τ).loc b))
    (hF3 : (dat1 V c).arrAt 3 cfg1.N = V' c (Pipeline.arrRef spec1 3)) (hF4 : (dat1 V c).arrAt 4 cfg1.N = V' c (Pipeline.arrRef spec1 4))
    (h11 : V' c main_v11 = V c main_v11) (hrest : ∀ b, b ∉ Finset.univ.image (Pipeline.arrRef spec1) → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  classical
  have hA : Finset.univ.image (Pipeline.arrRef spec1) ⊆ Finset.univ.filter fun b : Ref sig .tc => ¬ b.isScoped := by decide
  unfold unscopedBufs Pipeline.unscopedRest
  rw [bigSep_sdiff_split hA]
  refine BI.sep_mono ?_ (Entails.of_eq (bigSep_congr fun b hb => by rw [hrest b (Finset.mem_sdiff.mp hb).2]))
  rw [img1, bigSep_insert (by decide), bigSep_insert (by decide), bigSep_singleton]
  unfold Dat.arrays
  rw [bigSep_W1]
  have hs : ∀ w : Fin 5, (cfg1.win w).arr.view.set = Finset.univ := fun w => (arr_whole1 w).set_eq_univ
  rw [hs 0, hs 3, hs 4]
  rw [show (dat1 V c).share 0 = shA from rfl, show (dat1 V c).share 1 = shB from rfl, show (dat1 V c).share 2 = shC from rfl,
    show (dat1 V c).share 3 = fullShare from rfl, show (dat1 V c).share 4 = fullShare from rfl]
  beta_reduce
  rw [show (dat1 V c).arrAt 0 cfg1.N = V c main_v11 from ((dat1 V c).arrAt_in 0 rfl _).trans (A_eq1 V c 0),
    show (dat1 V c).arrAt 1 cfg1.N = V c main_v11 from ((dat1 V c).arrAt_in 1 rfl _).trans (A_eq1 V c 1),
    show (dat1 V c).arrAt 2 cfg1.N = V c main_v11 from ((dat1 V c).arrAt_in 2 rfl _).trans (A_eq1 V c 2), hF3, hF4, h11]
  show iprop((c.tc.loc main_v11 ↦{shA} V c main_v11) ∗ (c.tc.loc main_v11 ↦{shB} V c main_v11) ∗ (c.tc.loc main_v11 ↦{shC} V c main_v11) ∗ (c.tc.loc main_v12_0 ↦{fullShare} V' c main_v12_0) ∗ (c.tc.loc main_v12_1 ↦{fullShare} V' c main_v12_1))
    ⊢ iprop((c.tc.loc main_v11 ↦{fullShare} V c main_v11) ∗ (c.tc.loc main_v12_0 ↦{fullShare} V' c main_v12_0) ∗ (c.tc.loc main_v12_1 ↦{fullShare} V' c main_v12_1))
  have hj1 : iprop((c.tc.loc main_v11 ↦{shA} V c main_v11) ∗ (c.tc.loc main_v11 ↦{fullShare.right} V c main_v11))
      ⊢ (c.tc.loc main_v11 ↦{fullShare} V c main_v11 : sProp 𝕄) :=
    (pointsTo_share (PosShare.mem_left_op_right fullShare)).2
  have hj2 : iprop((c.tc.loc main_v11 ↦{shB} V c main_v11) ∗ (c.tc.loc main_v11 ↦{shC} V c main_v11))
      ⊢ (c.tc.loc main_v11 ↦{fullShare.right} V c main_v11 : sProp 𝕄) :=
    (pointsTo_share (PosShare.mem_left_op_right fullShare.right)).2
  have hmid : iprop((c.tc.loc main_v11 ↦{shA} V c main_v11) ∗ (c.tc.loc main_v11 ↦{shB} V c main_v11) ∗ (c.tc.loc main_v11 ↦{shC} V c main_v11) ∗ (c.tc.loc main_v12_0 ↦{fullShare} V' c main_v12_0) ∗ (c.tc.loc main_v12_1 ↦{fullShare} V' c main_v12_1))
      ⊢ (iprop(((c.tc.loc main_v11 ↦{shA} V c main_v11) ∗ (c.tc.loc main_v11 ↦{shB} V c main_v11) ∗ (c.tc.loc main_v11 ↦{shC} V c main_v11)) ∗ (c.tc.loc main_v12_0 ↦{fullShare} V' c main_v12_0) ∗ (c.tc.loc main_v12_1 ↦{fullShare} V' c main_v12_1)) : sProp 𝕄) := by
    iintro ⟨Ha, Hb, Hc, H120, H121⟩
    isplitl [Ha Hb Hc]
    · isplitl [Ha]; · iexact Ha
      isplitl [Hb]; · iexact Hb
      iexact Hc
    isplitl [H120]; · iexact H120
    iexact H121
  exact hmid.trans (BI.sep_mono ((BI.sep_mono (BI.Entails.refl _) hj2).trans hj1) (BI.Entails.refl _))

end SharedArray

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves (an input as entered, the output with every point's block
    written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1: its two output arrays at what the pipeline leaves, every other buffer (the array its three
    input windows read among them) as entered. -/
def W4 (c : Dev nD) : Valuation τ sig (Elt F) :=
  Function.update (Function.update (W3 m ρ c) (Proc.devRef .tc (Pipeline.arrRef spec1 3)) ((dat1 (V3 m ρ) c).arrAt 3 cfg1.N))
    (Proc.devRef .tc (Pipeline.arrRef spec1 4)) ((dat1 (V3 m ρ) c).arrAt 4 cfg1.N)
abbrev V4 : (c : Dev nD) → (b : Ref sig .tc) → Buf (Elt F) ((c : Thread nD τ).loc b) := fun c b => W4 m ρ c b
theorem W4_out3 (c : Dev nD) : W4 m ρ c (Proc.devRef .tc (Pipeline.arrRef spec1 3)) = (dat1 (V3 m ρ) c).arrAt 3 cfg1.N := by
  unfold W4
  rw [Function.update_of_ne (show (Proc.devRef .tc (Pipeline.arrRef spec1 3) : DevRef τ sig) ≠ Proc.devRef .tc (Pipeline.arrRef spec1 4) from StableHlo.devRef_ne_of_ne (by decide)), Function.update_self]
theorem W4_out4 (c : Dev nD) : W4 m ρ c (Proc.devRef .tc (Pipeline.arrRef spec1 4)) = (dat1 (V3 m ρ) c).arrAt 4 cfg1.N := by
  unfold W4; rw [Function.update_self]
theorem W4_of_ne (c : Dev nD) (b : Ref sig .tc) (h3 : b ≠ Pipeline.arrRef spec1 3) (h4 : b ≠ Pipeline.arrRef spec1 4) :
    W4 m ρ c (Proc.devRef .tc b) = W3 m ρ c (Proc.devRef .tc b) := by
  unfold W4
  rw [Function.update_of_ne (StableHlo.devRef_ne_of_ne h4), Function.update_of_ne (StableHlo.devRef_ne_of_ne h3)]

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After region 2: its arrays at what the pipeline leaves (an input as entered, the output with every point's block
    written back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: the end. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every region's per-point data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the core's random-generator register at some state and its
    debts, which are none. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 as a segment of the program: entered from every unscoped buffer at the contents before it, left at the
    contents after it. Its arrays are split out of the unscoped buffers on entry and put back on exit; the
    random-generator register passes through the region's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. Its three input windows read one array: on entry the array's full permission is cut in
    three, on exit the three parts (still at the entry contents) are joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V3 m ρ c)) :=
      entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs (Ix := Unit) (Name := ℕ) (U := UR sig nD τ) (Lvl := ℕ) c (V4 m ρ c) : sProp 𝕄) :=
      exit1 (V3 m ρ) c (V4 m ρ) (W4_out3 m ρ c).symm (W4_out4 m ρ c).symm (W4_of_ne m ρ c main_v11 (by decide) (by decide))
        (fun b hb => W4_of_ne m ρ c b (fun e => hb (Finset.mem_image.mpr ⟨3, Finset.mem_univ _, e.symm⟩))
          (fun e => hb (Finset.mem_image.mpr ⟨4, Finset.mem_univ _, e.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program: entered from every unscoped buffer at the contents before it, left at the
    contents after it. Its arrays are split out of the unscoped buffers on entry and put back on exit; the
    random-generator register passes through the region's invariant; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## A buffer no host stretch writes and no region stages ends as launched -/

theorem W7_unwritten (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a13 : b ≠ Pipeline.arrRef spec1 3) (a14 : b ≠ Pipeline.arrRef spec1 4)
    (a2 : ∀ w, Pipeline.arrRef spec2 w ≠ b) :
    W7 m ρ c (Proc.devRef .tc b) = m ((c : Thread nD τ).loc b) :=
  (StableHlo.after_of_writes_sub hostOps3 _ hostOps3_writes h3).trans <|
  (W6_of_ne m ρ c b a2).trans <|
  (StableHlo.after_of_writes_sub hostOps2 _ hostOps2_writes h2).trans <|
  (W4_of_ne m ρ c b a13 a14).trans <|
  (StableHlo.after_of_writes_sub hostOps1 _ hostOps1_writes h1).trans <|
  (W2_of_ne m ρ c b a0).trans <|
  (StableHlo.after_of_writes_sub hostOps0 _ hostOps0_writes h0).trans rfl

theorem W7_main_arg0 (c : Dev nD) : W7 m ρ c (Proc.devRef .tc main_arg0) = m ((c : Thread nD τ).loc main_arg0) :=
  W7_unwritten m ρ c main_arg0 (by decide) (by decide) (by decide) (by decide) (by decide) (by decide) (by decide) (by decide)
theorem W7_main_arg1 (c : Dev nD) : W7 m ρ c (Proc.devRef .tc main_arg1) = m ((c : Thread nD τ).loc main_arg1) :=
  W7_unwritten m ρ c main_arg1 (by decide) (by decide) (by decide) (by decide) (by decide) (by decide) (by decide) (by decide)
theorem W7_main_arg2 (c : Dev nD) : W7 m ρ c (Proc.devRef .tc main_arg2) = m ((c : Thread nD τ).loc main_arg2) :=
  W7_unwritten m ρ c main_arg2 (by decide) (by decide) (by decide) (by decide) (by decide) (by decide) (by decide) (by decide)
theorem W7_main_arg3 (c : Dev nD) : W7 m ρ c (Proc.devRef .tc main_arg3) = m ((c : Thread nD τ).loc main_arg3) :=
  W7_unwritten m ρ c main_arg3 (by decide) (by decide) (by decide) (by decide) (by decide) (by decide) (by decide) (by decide)
theorem W7_main_arg4 (c : Dev nD) : W7 m ρ c (Proc.devRef .tc main_arg4) = m ((c : Thread nD τ).loc main_arg4) :=
  W7_unwritten m ρ c main_arg4 (by decide) (by decide) (by decide) (by decide) (by decide) (by decide) (by decide) (by decide)

/-- THE FRAME: every weakly fair execution terminates, nothing faulting, with the five argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.Kernel.Fr

end
-- ==== Proof.IdealRegion0.lean ====
import proofs.«157239_j88802743812872_2_alg».proof.Proof.Gen.KernelIdeal.Launch
import proofs.«157239_j88802743812872_2_alg».proof.Proof.Gen.KernelIdeal.Skeleton
import proofs.«157239_j88802743812872_2_alg».proof.Proof.Gen.KernelIdeal.Points
import Idealize.ShloMosaic.Lib.Pipeline.FrameBody
import Idealize.ShloMosaic.Lib.Ring
import Idealize.ShloMosaic.Lib.Tactic

/-! # Grid region 0: a row block of the left matrix times a column block of the right matrix, plus a bias row

At every grid point the body reads three whole blocks (a 1024 by 1024 block of the left operand, a 1024 by 1024 block
of the right operand and a 1 by 1024 block of the bias) and overwrites the whole 1024 by 1024 output block with
left times right plus bias, the bias row repeated down the rows. This module states, for any contents V of the
arrays when the region is entered and at any float model, what the body leaves in the output block as a function
of the three input blocks, proves the body's specification by symbolic execution, and packages the per-point data
the pipeline's launch rule needs. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the array at every grid point, whether or not the
    block was fetched at that point (when it was not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block of the array at every grid point, whether or not the
    block was fetched at that point (when it was not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block of the array at every grid point, whether or not the
    block was fetched at that point (when it was not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 by 1024 block and the whole 1 by 1024 block, as rectangles. -/
abbrev r0_m : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-- The output block after the body: its one store, of the product-plus-bias of the three loaded blocks. -/
def out0_3 (x0 : Vec F S1024x1024 .bf16) (x1 : Vec F S1024x1024 .bf16) (x2 : Vec F S1x1024 .f32) : Vec F S1024x1024 .bf16 :=
  View.canon [⟨r0_m, k0_pay1 (View.ld x0 r0_m) (View.ld x1 r0_m) (View.ld x2 r0_b)⟩]

/-- The one store covers the whole block. -/
theorem cover0_3 (p0 : Vec F S1024x1024 .bf16) (y : S1024x1024.Idx) :
    ∃ pc ∈ ([⟨r0_m, p0⟩] : List (View.Piece (Elt F) S1024x1024 .bf16)), y ∈ pc.1.set :=
  View.cover_of_tiled [⟨r0_m, p0⟩] S1024x1024.size (by rfl) y

set_option maxHeartbeats 1000000 in
/-- The body's specification: from the three input blocks held at x0, x1, x2 and the output block held at anything,
    it terminates without fault holding the inputs unchanged and the output at the product-plus-bias of the inputs. -/
theorem sound_kernel0 (c : Dev nD) (E : Set ℕ) (i : grid0.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .bf16) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's per-point data on a core: the arrays as the region finds them; after the body at a point each input
    block unchanged and the output block at the product-plus-bias of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at a grid point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealRegion1.lean ====
import proofs.«157239_j88802743812872_2_alg».proof.Proof.Gen.KernelIdeal.Launch
import proofs.«157239_j88802743812872_2_alg».proof.Proof.Gen.KernelIdeal.Skeleton
import proofs.«157239_j88802743812872_2_alg».proof.Proof.Gen.KernelIdeal.Points
import Idealize.ShloMosaic.Lib.Pipeline.FrameBody
import Idealize.ShloMosaic.Lib.Ring
import Idealize.ShloMosaic.Lib.Tactic

/-! # Grid region 1: scaled dot-product attention for two heads at a time

At every grid point the body reads a 256-row block of queries and the whole 2048-row blocks of keys and of values,
each 128 columns wide: two heads of width 64 side by side. For each of the two heads it takes the 64 columns of
that head, forms the 256 by 2048 scores (queries times keys transposed, times 1/8), turns every row into
probabilities (exponential of the score minus the row maximum, divided by the row sum), stores the probabilities
into that head's half of the probability output block, multiplies them with the head's values and stores the
256 by 64 result into that head's half of the value output block. This module states, for any contents V of
the arrays when the region is entered and at any float model, what the body leaves in the two output blocks as a
function of the three input blocks, proves the body's specification by symbolic execution, and packages the
per-point data the pipeline's launch rule needs. The three input windows look at one array, which is only read:
each holds it at a third of the full permission. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the array at every grid point, whether or not the
    block was fetched at that point (when it was not, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block of the array at every grid point, whether or not the
    block was fetched at that point (when it was not, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block of the array at every grid point, whether or not the
    block was fetched at that point (when it was not, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole query block, the whole key or value block, the two halves of the probability block (one head each)
    and the two halves of the value output block (64 columns each), as rectangles. -/
abbrev r1_q : Rect S1x256x128 := Rect.unit (s := S1x256x128) ![0, 0, 0] S1x256x128.size inb_S1x256x128_S1x256x128_0_0_0
abbrev r1_k : Rect S1x2048x128 := Rect.unit (s := S1x2048x128) ![0, 0, 0] S1x2048x128.size inb_S1x2048x128_S1x2048x128_0_0_0
abbrev r1_a0 : Rect S1x2x256x2048 := Rect.unit (s := S1x2x256x2048) ![0, 0, 0, 0] S1x1x256x2048.size inb_S1x2x256x2048_S1x1x256x2048_0_0_0_0
abbrev r1_a1 : Rect S1x2x256x2048 := Rect.unit (s := S1x2x256x2048) ![0, 1, 0, 0] S1x1x256x2048.size inb_S1x2x256x2048_S1x1x256x2048_0_1_0_0
abbrev r1_v0 : Rect S1x256x128 := Rect.unit (s := S1x256x128) ![0, 0, 0] S1x256x64.size inb_S1x256x128_S1x256x64_0_0_0
abbrev r1_v1 : Rect S1x256x128 := Rect.unit (s := S1x256x128) ![0, 0, 64] S1x256x64.size inb_S1x256x128_S1x256x64_0_0_64

/-- The value output block after the body: the second head's 64 columns, then the first head's (last store first). -/
def out1_3 (x0 : Vec F S1x256x128 .bf16) (x1 : Vec F S1x2048x128 .bf16) (x2 : Vec F S1x2048x128 .bf16) : Vec F S1x256x128 .bf16 :=
  View.canon [⟨r1_v1, k1_pay3 (k1_pay10 (View.ld x0 r1_q)) (k1_pay11 (View.ld x1 r1_k)) (k1_pay12 (View.ld x2 r1_k)) (constant S256x2048 .f32 0x00000000#32)⟩,
    ⟨r1_v0, k1_pay9 (View.ld x0 r1_q) (View.ld x1 r1_k) (View.ld x2 r1_k)⟩]

/-- The probability output block after the body: the second head's half, then the first head's (last store first). -/
def out1_4 (x0 : Vec F S1x256x128 .bf16) (x1 : Vec F S1x2048x128 .bf16) : Vec F S1x2x256x2048 .f32 :=
  View.canon [⟨r1_a1, k1_pay2 (k1_pay10 (View.ld x0 r1_q)) (k1_pay11 (View.ld x1 r1_k)) (constant S256x2048 .f32 0x00000000#32)⟩,
    ⟨r1_a0, k1_pay8 (View.ld x0 r1_q) (View.ld x1 r1_k)⟩]

/-- The two stores of each output tile its block, so they cover it. -/
theorem cover1_3 (p0 : Vec F S1x256x64 .bf16) (p1 : Vec F S1x256x64 .bf16) (y : S1x256x128.Idx) :
    ∃ pc ∈ ([⟨r1_v1, p0⟩, ⟨r1_v0, p1⟩] : List (View.Piece (Elt F) S1x256x128 .bf16)), y ∈ pc.1.set :=
  View.cover_of_tiled [⟨r1_v1, p0⟩, ⟨r1_v0, p1⟩] S1x256x64.size (by rfl) y
theorem cover1_4 (p0 : Vec F S1x1x256x2048 .f32) (p1 : Vec F S1x1x256x2048 .f32) (y : S1x2x256x2048.Idx) :
    ∃ pc ∈ ([⟨r1_a1, p0⟩, ⟨r1_a0, p1⟩] : List (View.Piece (Elt F) S1x2x256x2048 .f32)), y ∈ pc.1.set :=
  View.cover_of_tiled [⟨r1_a1, p0⟩, ⟨r1_a0, p1⟩] S1x1x256x2048.size (by rfl) y

set_option maxHeartbeats 2000000 in
/-- The body's specification: from the three input blocks held at x0, x1, x2 and the two output blocks held at
    anything, it terminates without fault holding the inputs unchanged and the outputs at out1_3 and out1_4 of them. -/
theorem sound_kernel1 (c : Dev nD) (E : Set ℕ) (i : grid1.Coords) (arg0 : Memref sig .tc .vmem S1x256x128 .bf16) (harg0 : arg0.IsWhole) (arg1 : Memref sig .tc .vmem S1x2048x128 .bf16) (harg1 : arg1.IsWhole) (arg2 : Memref sig .tc .vmem S1x2048x128 .bf16) (harg2 : arg2.IsWhole) (arg3 : Memref sig .tc .vmem S1x256x128 .bf16) (harg3 : arg3.IsWhole) (arg4 : Memref sig .tc .vmem S1x2x256x2048 .f32) (harg4 : arg4.IsWhole)
    (x0 : Vec F S1x256x128 .bf16) (x1 : Vec F S1x2048x128 .bf16) (x2 : Vec F S1x2048x128 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1)) -∗ K ⟨⟩))
      ⊢ wp frame (wpE (defs₀ (F := F)) Variants.none c none) E (cc1__fused_attn_kernel i arg0 harg0 arg1 harg1 arg2 harg2 arg3 harg3 arg4 harg4) K := by
  simp only [cc1__fused_attn_kernel_eq_skeleton]; unfold cc1__fused_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover1_3 _ _)
  iexists _; isplitr
  swap; · iexact H4
  ipureintro
  try dsimp only
  exact View.read_writes_eq_canon _ _ _ (cover1_4 _ _)

/-- A third of the full permission, three times: how the three reading windows share their one array. -/
abbrev shA : PosShare TreeShare := fullShare.left
abbrev shB : PosShare TreeShare := fullShare.right.left
abbrev shC : PosShare TreeShare := fullShare.right.right

/-- The region's per-point data on a core: the arrays as the region finds them; after the body at a point each input
    block unchanged and each output block at its function of the input blocks; nothing owed; the three readers of the
    shared array at their thirds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => shA
    | ⟨1, _⟩ => shB
    | ⟨2, _⟩ => shC
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at a grid point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IdealRegion2.lean ====
import proofs.«157239_j88802743812872_2_alg».proof.Proof.Gen.KernelIdeal.Launch
import proofs.«157239_j88802743812872_2_alg».proof.Proof.Gen.KernelIdeal.Skeleton
import proofs.«157239_j88802743812872_2_alg».proof.Proof.Gen.KernelIdeal.Points
import Idealize.ShloMosaic.Lib.Pipeline.FrameBody
import Idealize.ShloMosaic.Lib.Ring
import Idealize.ShloMosaic.Lib.Tactic

/-! # Grid region 2: a row block of the left matrix times a column block of the right matrix, plus a bias row

At every grid point the body reads three whole blocks (a 1024 by 1024 block of the left operand, a 1024 by 1024 block
of the right operand and a 1 by 1024 block of the bias) and overwrites the whole 1024 by 1024 output block with
left times right plus bias, the bias row repeated down the rows. This module states, for any contents V of the
arrays when the region is entered and at any float model, what the body leaves in the output block as a function
of the three input blocks, proves the body's specification by symbolic execution, and packages the per-point data
the pipeline's launch rule needs. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block of the array at every grid point, whether or not the
    block was fetched at that point (when it was not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block of the array at every grid point, whether or not the
    block was fetched at that point (when it was not, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block of the array at every grid point, whether or not the
    block was fetched at that point (when it was not, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 by 1024 block and the whole 1 by 1024 block, as rectangles. -/
abbrev r2_m : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-- The output block after the body: its one store, of the product-plus-bias of the three loaded blocks. -/
def out2_3 (x0 : Vec F S1024x1024 .bf16) (x1 : Vec F S1024x1024 .bf16) (x2 : Vec F S1x1024 .f32) : Vec F S1024x1024 .f32 :=
  View.canon [⟨r2_m, k2_pay1 (View.ld x0 r2_m) (View.ld x1 r2_m) (View.ld x2 r2_b)⟩]

/-- The one store covers the whole block. -/
theorem cover2_3 (p0 : Vec F S1024x1024 .f32) (y : S1024x1024.Idx) :
    ∃ pc ∈ ([⟨r2_m, p0⟩] : List (View.Piece (Elt F) S1024x1024 .f32)), y ∈ pc.1.set :=
  View.cover_of_tiled [⟨r2_m, p0⟩] S1024x1024.size (by rfl) y

set_option maxHeartbeats 1000000 in
/-- The body's specification: from the three input blocks held at x0, x1, x2 and the output block held at anything,
    it terminates without fault holding the inputs unchanged and the output at the product-plus-bias of the inputs. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's per-point data on a core: the arrays as the region finds them; after the body at a point each input
    block unchanged and the output block at the product-plus-bias of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a grid point, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.IdealRun.lean ====
import proofs.«157239_j88802743812872_2_alg».proof.Proof.IdealRegion0
import proofs.«157239_j88802743812872_2_alg».proof.Proof.IdealRegion1
import proofs.«157239_j88802743812872_2_alg».proof.Proof.IdealRegion2
import proofs.«157239_j88802743812872_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole program's run: three grid regions among four stretches of host operations

The program casts and re-lays the weights and the input (host stretch 0), multiplies the input by the projection
matrix and adds the bias (region 0), re-lays the result (stretch 1), runs the attention (region 1), casts and
re-lays for the output projection (stretch 2), multiplies by the output matrix and adds its bias (region 2), and
re-lays the result (stretch 3). This module names the contents of every unscoped buffer at each of the eight
boundaries as a fold from the launch memory, states each region as a segment entered at one boundary's contents
and left at the next one's, and concludes that every weakly fair execution terminates without fault with every
unscoped buffer at the last boundary's contents. Region 1's three reading windows look at one array: on entry its
full permission is cut into three thirds, one per window, and on exit the thirds, which still hold the entry
contents, are joined again. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1's entry and exit: one array read through three windows -/

section SharedArray

variable (V : (c : Dev nD) → (b : Ref sig .tc) → Buf (Elt F) ((c : Thread nD τ).loc b))

theorem img1 : Finset.univ.image (Pipeline.arrRef spec1) = ({main_v11, main_v12_0, main_v12_1} : Finset (Ref sig .tc)) := by decide

/-- ENTRY of region 1. A core's unscoped buffers, each whole at the full permission, give the region its five windows'
    arrays — the one array its three reading windows share cut into three thirds — beside the buffers no window looks at. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  classical
  have hA : Finset.univ.image (Pipeline.arrRef spec1) ⊆ Finset.univ.filter fun b : Ref sig .tc => ¬ b.isScoped := by decide
  unfold unscopedBufs Pipeline.unscopedRest
  rw [bigSep_sdiff_split hA]
  refine BI.sep_mono ?_ (BI.Entails.refl _)
  rw [img1, bigSep_insert (by decide), bigSep_insert (by decide), bigSep_singleton]
  unfold Dat.arrays
  rw [bigSep_W1]
  have hs : ∀ w : Fin 5, (cfg1.win w).arr.view.set = Finset.univ := fun w => (arr_whole1 w).set_eq_univ
  rw [hs 0, hs 3, hs 4]
  rw [show (dat1 V c).share 0 = shA from rfl, show (dat1 V c).share 1 = shB from rfl, show (dat1 V c).share 2 = shC from rfl,
    show (dat1 V c).share 3 = fullShare from rfl, show (dat1 V c).share 4 = fullShare from rfl]
  show iprop((c.tc.loc main_v11 ↦{fullShare} V c main_v11) ∗ (c.tc.loc main_v12_0 ↦{fullShare} V c main_v12_0) ∗ (c.tc.loc main_v12_1 ↦{fullShare} V c main_v12_1))
    ⊢ iprop((c.tc.loc main_v11 ↦{shA} V c main_v11) ∗ (c.tc.loc main_v11 ↦{shB} V c main_v11) ∗ (c.tc.loc main_v11 ↦{shC} V c main_v11) ∗ (c.tc.loc main_v12_0 ↦{fullShare} V c main_v12_0) ∗ (c.tc.loc main_v12_1 ↦{fullShare} V c main_v12_1))
  have hsp1 : (c.tc.loc main_v11 ↦{fullShare} V c main_v11 : sProp 𝕄)
      ⊢ iprop((c.tc.loc main_v11 ↦{shA} V c main_v11) ∗ (c.tc.loc main_v11 ↦{fullShare.right} V c main_v11)) :=
    (pointsTo_share (PosShare.mem_left_op_right fullShare)).1
  have hsp2 : (c.tc.loc main_v11 ↦{fullShare.right} V c main_v11 : sProp 𝕄)
      ⊢ iprop((c.tc.loc main_v11 ↦{shB} V c main_v11) ∗ (c.tc.loc main_v11 ↦{shC} V c main_v11)) :=
    (pointsTo_share (PosShare.mem_left_op_right fullShare.right)).1
  have hmid : (iprop(((c.tc.loc main_v11 ↦{shA} V c main_v11) ∗ (c.tc.loc main_v11 ↦{shB} V c main_v11) ∗ (c.tc.loc main_v11 ↦{shC} V c main_v11)) ∗ (c.tc.loc main_v12_0 ↦{fullShare} V c main_v12_0) ∗ (c.tc.loc main_v12_1 ↦{fullShare} V c main_v12_1)) : sProp 𝕄)
      ⊢ iprop((c.tc.loc main_v11 ↦{shA} V c main_v11) ∗ (c.tc.loc main_v11 ↦{shB} V c main_v11) ∗ (c.tc.loc main_v11 ↦{shC} V c main_v11) ∗ (c.tc.loc main_v12_0 ↦{fullShare} V c main_v12_0) ∗ (c.tc.loc main_v12_1 ↦{fullShare} V c main_v12_1)) := by
    iintro ⟨⟨Ha, Hb, Hc⟩, H120, H121⟩
    isplitl [Ha]; · iexact Ha
    isplitl [Hb]; · iexact Hb
    isplitl [Hc]; · iexact Hc
    isplitl [H120]; · iexact H120
    iexact H121
  exact (BI.sep_mono (hsp1.trans (BI.sep_mono (BI.Entails.refl _) hsp2)) (BI.Entails.refl _)).trans hmid

/-- EXIT of region 1. The five windows' arrays as the pipeline leaves them — the three thirds of the shared array
    still at its entry contents — and the buffers no window looks at are the core's unscoped buffers at any contents
    that have the two outputs as left, the shared array as entered, and agree elsewhere. -/
theorem exit1 (c : Dev nD) (V' : (c : Dev nD) → (b : Ref sig .tc) → Buf (Elt F) ((c : Thread nD τ).loc b))
    (hF3 : (dat1 V c).arrAt 3 cfg1.N = V' c (Pipeline.arrRef spec1 3)) (hF4 : (dat1 V c).arrAt 4 cfg1.N = V' c (Pipeline.arrRef spec1 4))
    (h11 : V' c main_v11 = V c main_v11) (hrest : ∀ b, b ∉ Finset.univ.image (Pipeline.arrRef spec1) → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  classical
  have hA : Finset.univ.image (Pipeline.arrRef spec1) ⊆ Finset.univ.filter fun b : Ref sig .tc => ¬ b.isScoped := by decide
  unfold unscopedBufs Pipeline.unscopedRest
  rw [bigSep_sdiff_split hA]
  refine BI.sep_mono ?_ (Entails.of_eq (bigSep_congr fun b hb => by rw [hrest b (Finset.mem_sdiff.mp hb).2]))
  rw [img1, bigSep_insert (by decide), bigSep_insert (by decide), bigSep_singleton]
  unfold Dat.arrays
  rw [bigSep_W1]
  have hs : ∀ w : Fin 5, (cfg1.win w).arr.view.set = Finset.univ := fun w => (arr_whole1 w).set_eq_univ
  rw [hs 0, hs 3, hs 4]
  rw [show (dat1 V c).share 0 = shA from rfl, show (dat1 V c).share 1 = shB from rfl, show (dat1 V c).share 2 = shC from rfl,
    show (dat1 V c).share 3 = fullShare from rfl, show (dat1 V c).share 4 = fullShare from rfl]
  beta_reduce
  rw [show (dat1 V c).arrAt 0 cfg1.N = V c main_v11 from ((dat1 V c).arrAt_in 0 rfl _).trans (A_eq1 V c 0),
    show (dat1 V c).arrAt 1 cfg1.N = V c main_v11 from ((dat1 V c).arrAt_in 1 rfl _).trans (A_eq1 V c 1),
    show (dat1 V c).arrAt 2 cfg1.N = V c main_v11 from ((dat1 V c).arrAt_in 2 rfl _).trans (A_eq1 V c 2), hF3, hF4, h11]
  show iprop((c.tc.loc main_v11 ↦{shA} V c main_v11) ∗ (c.tc.loc main_v11 ↦{shB} V c main_v11) ∗ (c.tc.loc main_v11 ↦{shC} V c main_v11) ∗ (c.tc.loc main_v12_0 ↦{fullShare} V' c main_v12_0) ∗ (c.tc.loc main_v12_1 ↦{fullShare} V' c main_v12_1))
    ⊢ iprop((c.tc.loc main_v11 ↦{fullShare} V c main_v11) ∗ (c.tc.loc main_v12_0 ↦{fullShare} V' c main_v12_0) ∗ (c.tc.loc main_v12_1 ↦{fullShare} V' c main_v12_1))
  have hj1 : iprop((c.tc.loc main_v11 ↦{shA} V c main_v11) ∗ (c.tc.loc main_v11 ↦{fullShare.right} V c main_v11))
      ⊢ (c.tc.loc main_v11 ↦{fullShare} V c main_v11 : sProp 𝕄) :=
    (pointsTo_share (PosShare.mem_left_op_right fullShare)).2
  have hj2 : iprop((c.tc.loc main_v11 ↦{shB} V c main_v11) ∗ (c.tc.loc main_v11 ↦{shC} V c main_v11))
      ⊢ (c.tc.loc main_v11 ↦{fullShare.right} V c main_v11 : sProp 𝕄) :=
    (pointsTo_share (PosShare.mem_left_op_right fullShare.right)).2
  have hmid : iprop((c.tc.loc main_v11 ↦{shA} V c main_v11) ∗ (c.tc.loc main_v11 ↦{shB} V c main_v11) ∗ (c.tc.loc main_v11 ↦{shC} V c main_v11) ∗ (c.tc.loc main_v12_0 ↦{fullShare} V' c main_v12_0) ∗ (c.tc.loc main_v12_1 ↦{fullShare} V' c main_v12_1))
      ⊢ (iprop(((c.tc.loc main_v11 ↦{shA} V c main_v11) ∗ (c.tc.loc main_v11 ↦{shB} V c main_v11) ∗ (c.tc.loc main_v11 ↦{shC} V c main_v11)) ∗ (c.tc.loc main_v12_0 ↦{fullShare} V' c main_v12_0) ∗ (c.tc.loc main_v12_1 ↦{fullShare} V' c main_v12_1)) : sProp 𝕄) := by
    iintro ⟨Ha, Hb, Hc, H120, H121⟩
    isplitl [Ha Hb Hc]
    · isplitl [Ha]; · iexact Ha
      isplitl [Hb]; · iexact Hb
      iexact Hc
    isplitl [H120]; · iexact H120
    iexact H121
  exact hmid.trans (BI.sep_mono ((BI.sep_mono (BI.Entails.refl _) hj2).trans hj1) (BI.Entails.refl _))

end SharedArray

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves (an input as entered, the output with every point's block
    written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After region 1: its two output arrays at what the pipeline leaves, every other buffer (the array its three
    input windows read among them) as entered. -/
def W4 (c : Dev nD) : Valuation τ sig (Elt F) :=
  Function.update (Function.update (W3 m ρ c) (Proc.devRef .tc (Pipeline.arrRef spec1 3)) ((dat1 (V3 m ρ) c).arrAt 3 cfg1.N))
    (Proc.devRef .tc (Pipeline.arrRef spec1 4)) ((dat1 (V3 m ρ) c).arrAt 4 cfg1.N)
abbrev V4 : (c : Dev nD) → (b : Ref sig .tc) → Buf (Elt F) ((c : Thread nD τ).loc b) := fun c b => W4 m ρ c b
theorem W4_out3 (c : Dev nD) : W4 m ρ c (Proc.devRef .tc (Pipeline.arrRef spec1 3)) = (dat1 (V3 m ρ) c).arrAt 3 cfg1.N := by
  unfold W4
  rw [Function.update_of_ne (show (Proc.devRef .tc (Pipeline.arrRef spec1 3) : DevRef τ sig) ≠ Proc.devRef .tc (Pipeline.arrRef spec1 4) from StableHlo.devRef_ne_of_ne (by decide)), Function.update_self]
theorem W4_out4 (c : Dev nD) : W4 m ρ c (Proc.devRef .tc (Pipeline.arrRef spec1 4)) = (dat1 (V3 m ρ) c).arrAt 4 cfg1.N := by
  unfold W4; rw [Function.update_self]
theorem W4_of_ne (c : Dev nD) (b : Ref sig .tc) (h3 : b ≠ Pipeline.arrRef spec1 3) (h4 : b ≠ Pipeline.arrRef spec1 4) :
    W4 m ρ c (Proc.devRef .tc b) = W3 m ρ c (Proc.devRef .tc b) := by
  unfold W4
  rw [Function.update_of_ne (StableHlo.devRef_ne_of_ne h4), Function.update_of_ne (StableHlo.devRef_ne_of_ne h3)]

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After region 2: its arrays at what the pipeline leaves (an input as entered, the output with every point's block
    written back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: the end. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every region's per-point data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the core's random-generator register at some state and its
    debts, which are none. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 as a segment of the program: entered from every unscoped buffer at the contents before it, left at the
    contents after it. Its arrays are split out of the unscoped buffers on entry and put back on exit; the
    random-generator register passes through the region's invariant; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. Its three input windows read one array: on entry the array's full permission is cut in
    three, on exit the three parts (still at the entry contents) are joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V3 m ρ c)) :=
      entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs (Ix := Unit) (Name := ℕ) (U := UR sig nD τ) (Lvl := ℕ) c (V4 m ρ c) : sProp 𝕄) :=
      exit1 (V3 m ρ) c (V4 m ρ) (W4_out3 m ρ c).symm (W4_out4 m ρ c).symm (W4_of_ne m ρ c main_v11 (by decide) (by decide))
        (fun b hb => W4_of_ne m ρ c b (fun e => hb (Finset.mem_image.mpr ⟨3, Finset.mem_univ _, e.symm⟩))
          (fun e => hb (Finset.mem_image.mpr ⟨4, Finset.mem_univ _, e.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program: entered from every unscoped buffer at the contents before it, left at the
    contents after it. Its arrays are split out of the unscoped buffers on entry and put back on exit; the
    random-generator register passes through the region's invariant; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## A buffer no host stretch writes and no region stages ends as launched -/

theorem W7_unwritten (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a13 : b ≠ Pipeline.arrRef spec1 3) (a14 : b ≠ Pipeline.arrRef spec1 4)
    (a2 : ∀ w, Pipeline.arrRef spec2 w ≠ b) :
    W7 m ρ c (Proc.devRef .tc b) = m ((c : Thread nD τ).loc b) :=
  (StableHlo.after_of_writes_sub hostOps3 _ hostOps3_writes h3).trans <|
  (W6_of_ne m ρ c b a2).trans <|
  (StableHlo.after_of_writes_sub hostOps2 _ hostOps2_writes h2).trans <|
  (W4_of_ne m ρ c b a13 a14).trans <|
  (StableHlo.after_of_writes_sub hostOps1 _ hostOps1_writes h1).trans <|
  (W2_of_ne m ρ c b a0).trans <|
  (StableHlo.after_of_writes_sub hostOps0 _ hostOps0_writes h0).trans rfl

theorem W7_main_arg0 (c : Dev nD) : W7 m ρ c (Proc.devRef .tc main_arg0) = m ((c : Thread nD τ).loc main_arg0) :=
  W7_unwritten m ρ c main_arg0 (by decide) (by decide) (by decide) (by decide) (by decide) (by decide) (by decide) (by decide)
theorem W7_main_arg1 (c : Dev nD) : W7 m ρ c (Proc.devRef .tc main_arg1) = m ((c : Thread nD τ).loc main_arg1) :=
  W7_unwritten m ρ c main_arg1 (by decide) (by decide) (by decide) (by decide) (by decide) (by decide) (by decide) (by decide)
theorem W7_main_arg2 (c : Dev nD) : W7 m ρ c (Proc.devRef .tc main_arg2) = m ((c : Thread nD τ).loc main_arg2) :=
  W7_unwritten m ρ c main_arg2 (by decide) (by decide) (by decide) (by decide) (by decide) (by decide) (by decide) (by decide)
theorem W7_main_arg3 (c : Dev nD) : W7 m ρ c (Proc.devRef .tc main_arg3) = m ((c : Thread nD τ).loc main_arg3) :=
  W7_unwritten m ρ c main_arg3 (by decide) (by decide) (by decide) (by decide) (by decide) (by decide) (by decide) (by decide)
theorem W7_main_arg4 (c : Dev nD) : W7 m ρ c (Proc.devRef .tc main_arg4) = m ((c : Thread nD τ).loc main_arg4) :=
  W7_unwritten m ρ c main_arg4 (by decide) (by decide) (by decide) (by decide) (by decide) (by decide) (by decide) (by decide)

/-- THE FRAME: every weakly fair execution terminates, nothing faulting, with the five argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Fr

end
-- ==== Proof.Spec.lean ====
import Idealize.ShloMosaic.PureOps.Ideal
import Idealize.ShloMosaic.Lib.ValueIdx

/-! # Multi-head self-attention over the extended reals, entry by entry

Batch 4, sequence length 2048, model width 1024, 16 heads of width 64. From an input x, a projection matrix Wq
(1024 by 3072) with bias bq, and an output matrix Wo (1024 by 1024) with bias bo:

* the projected activations: proj b s f = (sum over e of x[b,s,e] * Wq[e,f]) + bq[f];
* the projection's 3072 columns are grouped head by head, each head owning 192 consecutive columns: 64 of queries,
  then 64 of keys, then 64 of values, so column (h, ty, d) is h*192 + ty*64 + d;
* the score of query position q against key position k in head h is the dot product of the two 64-vectors, times 1/8;
* each row of scores is turned into weights exp(score - rowmax), and divided by the row's sum of weights;
* the attended values are the weighted sums of the value vectors, laid back side by side, head after head, into
  1024 columns, and sent through the output matrix and bias.

Sums are finite sums in the extended reals, which are commutative and associative without any finiteness
assumption, so the order and grouping of a sum never matters here. -/

noncomputable section

namespace Cert.Spec

open Idealize.ShloMosaic Idealize.ShloMosaic.ValueIdx

variable (x : (⟨3, ![4, 2048, 1024]⟩ : Shape).Idx → EReal) (Wq : (⟨2, ![1024, 3072]⟩ : Shape).Idx → EReal)
  (bq : (⟨1, ![3072]⟩ : Shape).Idx → EReal) (Wo : (⟨2, ![1024, 1024]⟩ : Shape).Idx → EReal)
  (bo : (⟨1, ![1024]⟩ : Shape).Idx → EReal)

/-- The projected activations. -/
def proj (b : Fin 4) (s : Fin 2048) (f : Fin 3072) : EReal :=
  (∑ e : Fin 1024, x (ix3 b s e) * Wq (ix2 e f)) + bq (ix1 f)

/-- The projection column of head h, kind ty (0 query, 1 key, 2 value), component d. -/
def col (h : Fin 16) (ty : Fin 3) (d : Fin 64) : Fin 3072 := ⟨h.val * 192 + ty.val * 64 + d.val, by omega⟩

/-- The scaled score of query position q against key position k. -/
def score (b : Fin 4) (h : Fin 16) (q k : Fin 2048) : EReal :=
  (∑ d : Fin 64, proj x Wq bq b q (col h 0 d) * proj x Wq bq b k (col h 1 d)) * ((1 / 8 : ℝ) : EReal)

/-- The largest score of a row, as the fold of max from minus infinity. -/
def rowmax (b : Fin 4) (h : Fin 16) (q : Fin 2048) : EReal :=
  (Finset.univ : Finset (Fin 2048)).fold max ⊥ (fun k => score x Wq bq b h q k)

/-- The unnormalised weight. -/
def weight (b : Fin 4) (h : Fin 16) (q k : Fin 2048) : EReal :=
  Ideal.exp (score x Wq bq b h q k - rowmax x Wq bq b h q)

/-- The attention probability. -/
def attn (b : Fin 4) (h : Fin 16) (q k : Fin 2048) : EReal :=
  Ideal.div (weight x Wq bq b h q k) (∑ k' : Fin 2048, weight x Wq bq b h q k')

/-- The attended value vector's component d. -/
def vals (b : Fin 4) (h : Fin 16) (q : Fin 2048) (d : Fin 64) : EReal :=
  ∑ k : Fin 2048, attn x Wq bq b h q k * proj x Wq bq b k (col h 2 d)

/-- The output projection; column e of the merged values belongs to head e / 64, component e % 64. -/
def out (b : Fin 4) (s : Fin 2048) (f : Fin 1024) : EReal :=
  (∑ e : Fin 1024, vals x Wq bq b ⟨e.val / 64, by omega⟩ s ⟨e.val % 64, by omega⟩ * Wo (ix2 e f)) + bo (ix1 f)

/-- The two results as whole arrays. -/
def attnArr : (⟨4, ![4, 16, 2048, 2048]⟩ : Shape).Idx → EReal := fun i => attn x Wq bq (i 0) (i 1) (i 2) (i 3)
def outArr : (⟨3, ![4, 2048, 1024]⟩ : Shape).Idx → EReal := fun i => out x Wq bq Wo bo (i 0) (i 1) (i 2)

end Cert.Spec

end
-- ==== Proof.KSpec.lean ====
import Idealize.ShloMosaic.PureOps.Ideal
import Idealize.ShloMosaic.Lib.ValueIdx

/-! # What the three grid regions compute, block by block and array by array, over the extended reals

Region 0 and region 2 compute a matrix product plus a bias row. Region 1 reads an activation array whose 3072
columns are laid out kind by kind: the 1024 query columns, then the 1024 key columns, then the 1024 value columns,
each kind head by head (64 columns per head). For head h of batch b, the score of query position q against key
position k is the dot product of the 64 query columns and the 64 key columns of that head, times 1/8; the
probabilities are exp(score - row maximum) divided by the row's sum; the attended values are the probabilities
times the head's 64 value columns. -/

noncomputable section

namespace Cert.KSpec

open Idealize.ShloMosaic Idealize.ShloMosaic.ValueIdx

/-! ## One block of region 1: two heads side by side in 128 columns -/

section Block
variable (x0 : (⟨3, ![1, 256, 128]⟩ : Shape).Idx → EReal) (x1 x2 : (⟨3, ![1, 2048, 128]⟩ : Shape).Idx → EReal)

/-- Column d of head j (0 or 1) inside a 128-column block. -/
def bcol (j : Fin 2) (d : Fin 64) : Fin 128 := ⟨j.val * 64 + d.val, by omega⟩

def bscore (j : Fin 2) (p : Fin 256) (k : Fin 2048) : EReal :=
  (∑ d : Fin 64, x0 (ix3 0 p (bcol j d)) * x1 (ix3 0 k (bcol j d))) * ((1 / 8 : ℝ) : EReal)
def bmax (j : Fin 2) (p : Fin 256) : EReal :=
  (Finset.univ : Finset (Fin 2048)).fold max ⊥ (fun k => bscore x0 x1 j p k)
def bweight (j : Fin 2) (p : Fin 256) (k : Fin 2048) : EReal := Ideal.exp (bscore x0 x1 j p k - bmax x0 x1 j p)
def battn (j : Fin 2) (p : Fin 256) (k : Fin 2048) : EReal :=
  Ideal.div (bweight x0 x1 j p k) (∑ k' : Fin 2048, bweight x0 x1 j p k')
/-- The attended values of a block: column e belongs to head e / 64. -/
def bvals (p : Fin 256) (e : Fin 128) : EReal :=
  ∑ k : Fin 2048, battn x0 x1 ⟨e.val / 64, by omega⟩ p k * x2 (ix3 0 k e)
end Block

/-! ## Whole arrays -/

/-- A matrix product plus a bias row, entry by entry (any sizes). -/
def mmArr {M K N : Nat} (a : (⟨2, ![M, K]⟩ : Shape).Idx → EReal) (w : (⟨2, ![K, N]⟩ : Shape).Idx → EReal)
    (bias : (⟨2, ![1, N]⟩ : Shape).Idx → EReal) : (⟨2, ![M, N]⟩ : Shape).Idx → EReal :=
  fun i => (∑ e : Fin K, a (ix2 (i 0) e) * w (ix2 e (i 1))) + bias (ix2 0 (i 1))

section Arr
variable (Q : (⟨3, ![4, 2048, 3072]⟩ : Shape).Idx → EReal)

/-- Column d of head h of kind ty (0 query, 1 key, 2 value) in the kind-major layout. -/
def kcol (ty : Fin 3) (h : Fin 16) (d : Fin 64) : Fin 3072 := ⟨ty.val * 1024 + h.val * 64 + d.val, by omega⟩

def kscore (b : Fin 4) (h : Fin 16) (q k : Fin 2048) : EReal :=
  (∑ d : Fin 64, Q (ix3 b q (kcol 0 h d)) * Q (ix3 b k (kcol 1 h d))) * ((1 / 8 : ℝ) : EReal)
def kmax (b : Fin 4) (h : Fin 16) (q : Fin 2048) : EReal :=
  (Finset.univ : Finset (Fin 2048)).fold max ⊥ (fun k => kscore Q b h q k)
def kweight (b : Fin 4) (h : Fin 16) (q k : Fin 2048) : EReal := Ideal.exp (kscore Q b h q k - kmax Q b h q)
def kattn (b : Fin 4) (h : Fin 16) (q k : Fin 2048) : EReal :=
  Ideal.div (kweight Q b h q k) (∑ k' : Fin 2048, kweight Q b h q k')
def kvals (b : Fin 4) (q : Fin 2048) (e : Fin 1024) : EReal :=
  ∑ k : Fin 2048, kattn Q b ⟨e.val / 64, by omega⟩ q k * Q (ix3 b k (kcol 2 ⟨e.val / 64, by omega⟩ ⟨e.val % 64, by omega⟩))

/-- The two outputs of region 1 as whole arrays. -/
def attnArrK : (⟨4, ![4, 16, 2048, 2048]⟩ : Shape).Idx → EReal := fun i => kattn Q (i 0) (i 1) (i 2) (i 3)
def valsArrK : (⟨3, ![4, 2048, 1024]⟩ : Shape).Idx → EReal := fun i => kvals Q (i 0) (i 1) (i 2)
end Arr

end Cert.KSpec

end
-- ==== Proof.Bridge.lean ====
import proofs.«157239_j88802743812872_2_alg».proof.Proof.Spec
import proofs.«157239_j88802743812872_2_alg».proof.Proof.KSpec

/-! # The two column layouts give the same attention

The specification keeps the projection's 3072 columns head by head (column h*192 + ty*64 + d); the kernel's
activation array keeps them kind by kind (column ty*1024 + h*64 + d). If the kernel's array Q holds, in its own
layout, exactly the specification's projected activations, then scores, row maxima, weights, probabilities and
attended values agree entry by entry: every step is a congruence of finite sums or of a fold of max. The same for
the two matrix products, whose rows are the flattened (batch, position) pairs. -/

noncomputable section

namespace Cert.Bridge

open Idealize.ShloMosaic Idealize.ShloMosaic.ValueIdx Cert.Spec Cert.KSpec

variable (x : (⟨3, ![4, 2048, 1024]⟩ : Shape).Idx → EReal) (Wq : (⟨2, ![1024, 3072]⟩ : Shape).Idx → EReal)
  (bq : (⟨1, ![3072]⟩ : Shape).Idx → EReal) (Wo : (⟨2, ![1024, 1024]⟩ : Shape).Idx → EReal)
  (bo : (⟨1, ![1024]⟩ : Shape).Idx → EReal)
  (Q : (⟨3, ![4, 2048, 3072]⟩ : Shape).Idx → EReal)

/-- The flattened row of batch b, position s. -/
def row (b : Fin 4) (s : Fin 2048) : Fin 8192 := ⟨b.val * 2048 + s.val, by omega⟩

section
variable (hQ : ∀ (b : Fin 4) (s : Fin 2048) (ty : Fin 3) (h : Fin 16) (d : Fin 64),
  Q (ix3 b s (kcol ty h d)) = proj x Wq bq b s (col h ty d))
include hQ

theorem kscore_eq (b : Fin 4) (h : Fin 16) (q k : Fin 2048) : kscore Q b h q k = score x Wq bq b h q k := by
  unfold kscore score
  refine congrArg (· * (((1 / 8 : ℝ) : EReal))) (Finset.sum_congr rfl fun d _ => ?_)
  rw [hQ b q 0 h d, hQ b k 1 h d]

theorem kmax_eq (b : Fin 4) (h : Fin 16) (q : Fin 2048) : kmax Q b h q = rowmax x Wq bq b h q := by
  unfold kmax rowmax
  exact congrArg (fun f => Finset.fold max (⊥ : EReal) f (Finset.univ : Finset (Fin 2048))) (funext fun k => kscore_eq x Wq bq Q hQ b h q k)

theorem kweight_eq (b : Fin 4) (h : Fin 16) (q k : Fin 2048) : kweight Q b h q k = weight x Wq bq b h q k := by
  unfold kweight weight
  rw [kscore_eq x Wq bq Q hQ, kmax_eq x Wq bq Q hQ]

theorem kattn_eq (b : Fin 4) (h : Fin 16) (q k : Fin 2048) : kattn Q b h q k = attn x Wq bq b h q k := by
  unfold kattn attn
  rw [kweight_eq x Wq bq Q hQ]
  exact congrArg (Ideal.div _) (Finset.sum_congr rfl fun k' _ => kweight_eq x Wq bq Q hQ b h q k')

/-- The probabilities, as whole arrays. -/
theorem attnArr_eq : attnArrK Q = attnArr x Wq bq := by
  funext i
  exact kattn_eq x Wq bq Q hQ (i 0) (i 1) (i 2) (i 3)

theorem kvals_eq (b : Fin 4) (q : Fin 2048) (e : Fin 1024) :
    kvals Q b q e = vals x Wq bq b ⟨e.val / 64, by omega⟩ q ⟨e.val % 64, by omega⟩ := by
  unfold kvals vals
  refine Finset.sum_congr rfl fun k _ => ?_
  rw [kattn_eq x Wq bq Q hQ, hQ b k 2 ⟨e.val / 64, by omega⟩ ⟨e.val % 64, by omega⟩]

end

/-- The first product: if the left matrix is the input with its (batch, position) pairs flattened into rows, and the
    right matrix and the bias hold the projection's columns in the kind-major order, the product holds the
    specification's projected activations in that order. -/
theorem proj_of_product (X : (⟨2, ![8192, 1024]⟩ : Shape).Idx → EReal) (Wp : (⟨2, ![1024, 3072]⟩ : Shape).Idx → EReal)
    (Bp : (⟨2, ![1, 3072]⟩ : Shape).Idx → EReal)
    (hX : ∀ (b : Fin 4) (s : Fin 2048) (e : Fin 1024), X (ix2 (row b s) e) = x (ix3 b s e))
    (hW : ∀ (e : Fin 1024) (ty : Fin 3) (h : Fin 16) (d : Fin 64), Wp (ix2 e (kcol ty h d)) = Wq (ix2 e (col h ty d)))
    (hB : ∀ (ty : Fin 3) (h : Fin 16) (d : Fin 64), Bp (ix2 0 (kcol ty h d)) = bq (ix1 (col h ty d)))
    (b : Fin 4) (s : Fin 2048) (ty : Fin 3) (h : Fin 16) (d : Fin 64) :
    mmArr X Wp Bp (ix2 (row b s) (kcol ty h d)) = proj x Wq bq b s (col h ty d) := by
  unfold mmArr proj
  show (∑ e : Fin 1024, X (ix2 (row b s) e) * Wp (ix2 e (kcol ty h d))) + Bp (ix2 0 (kcol ty h d)) = _
  rw [hB]
  exact congrArg (· + bq (ix1 (col h ty d))) (Finset.sum_congr rfl fun e _ => by rw [hX, hW])

/-- The last product: if the left matrix is the attended values with their (batch, position) pairs flattened into
    rows, the product with the output matrix plus its bias is the specification's output. -/
theorem out_of_product (hQ : ∀ (b : Fin 4) (s : Fin 2048) (ty : Fin 3) (h : Fin 16) (d : Fin 64),
      Q (ix3 b s (kcol ty h d)) = proj x Wq bq b s (col h ty d))
    (A : (⟨2, ![8192, 1024]⟩ : Shape).Idx → EReal) (Wt : (⟨2, ![1024, 1024]⟩ : Shape).Idx → EReal)
    (Bt : (⟨2, ![1, 1024]⟩ : Shape).Idx → EReal)
    (hA : ∀ (b : Fin 4) (s : Fin 2048) (e : Fin 1024), A (ix2 (row b s) e) = kvals Q b s e)
    (hW : ∀ (e f : Fin 1024), Wt (ix2 e f) = Wo (ix2 e f))
    (hB : ∀ f : Fin 1024, Bt (ix2 0 f) = bo (ix1 f))
    (b : Fin 4) (s : Fin 2048) (f : Fin 1024) :
    mmArr A Wt Bt (ix2 (row b s) f) = out x Wq bq Wo bo b s f := by
  unfold mmArr out
  show (∑ e : Fin 1024, A (ix2 (row b s) e) * Wt (ix2 e f)) + Bt (ix2 0 f) = _
  rw [hB]
  exact congrArg (· + bo (ix1 f)) (Finset.sum_congr rfl fun e _ => by rw [hA, hW, kvals_eq x Wq bq Q hQ])

end Cert.Bridge

end
-- ==== Proof.IdealHost.lean ====
import proofs.«157239_j88802743812872_2_alg».proof.Proof.IdealRun
import proofs.«157239_j88802743812872_2_alg».proof.Proof.Bridge
import Idealize.ShloMosaic.Lib.StableHlo.Run
import Idealize.ShloMosaic.Lib.Pipeline.Value
import Idealize.ShloMosaic.Lib.ValueIdx

/-! # What the host stretches hand to the regions, read at an index over the extended reals

Before region 0 the host flattens the input's (batch, position) pairs into 8192 rows, and re-lays the projection
matrix's columns and the bias from head-major order (column h*192 + ty*64 + d) to kind-major order
(column ty*1024 + h*64 + d): a reshape to [.., 16, 3, 64], a swap of the two middle axes, a reshape back. Casts to a
narrower float format are the identity here. Between the regions it only re-reads the same entries under a
flattened or unflattened row index. Each lemma says which entry of which earlier buffer an entry is. -/

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem Idealize.ShloMosaic.StableHlo
open Cert.Bridge (row)
open Cert.KSpec (kcol)
open Cert.Spec (col)

variable (m : (ℓ : Loc nD τ sig) → Buf (Elt Ideal) ℓ) (ρ : Dev nD → PrngReg)

/-! ## The stretches' results as terms -/

theorem W1_v8 (c : Dev nD) : Fr.W1 (F := Ideal) m ρ c (Proc.devRef .tc main_v8)
    = truncf (F := Ideal) .bf16 (shapeCast S8192x1024 (m ((c : Thread nD τ).loc main_arg0)) shapeCasts_S4x2048x1024_S8192x1024) bitsLt_bf16_f32 := by
  show StableHlo.after hostOps0 _ (Proc.devRef .tc main_v8) = _
  after_results <;> rfl

theorem W1_v3 (c : Dev nD) : Fr.W1 (F := Ideal) m ρ c (Proc.devRef .tc main_v3)
    = shapeCast S1024x3072 (transpose S1024x3x16x64 [0, 2, 1, 3] (shapeCast S1024x16x3x64 (truncf (F := Ideal) .bf16 (m ((c : Thread nD τ).loc main_arg1)) bitsLt_bf16_f32) shapeCasts_S1024x3072_S1024x16x3x64) transposes_S1024x16x3x64_S1024x3x16x64_0_2_1_3) shapeCasts_S1024x3x16x64_S1024x3072 := by
  show StableHlo.after hostOps0 _ (Proc.devRef .tc main_v3) = _
  after_results <;> rfl

theorem W1_v9 (c : Dev nD) : Fr.W1 (F := Ideal) m ρ c (Proc.devRef .tc main_v9)
    = shapeCast S1x3072 (shapeCast S3072 (transpose S3x16x64 [1, 0, 2] (shapeCast S16x3x64 (m ((c : Thread nD τ).loc main_arg2)) shapeCasts_S3072_S16x3x64) transposes_S16x3x64_S3x16x64_1_0_2) shapeCasts_S3x16x64_S3072) shapeCasts_S3072_S1x3072 := by
  show StableHlo.after hostOps0 _ (Proc.devRef .tc main_v9) = _
  after_results <;> rfl

theorem W3_v11 (c : Dev nD) : Fr.W3 (F := Ideal) m ρ c (Proc.devRef .tc main_v11)
    = shapeCast S4x2048x3072 (Fr.W2 (F := Ideal) m ρ c (Proc.devRef .tc main_v10)) shapeCasts_S8192x3072_S4x2048x3072 := by
  show StableHlo.after hostOps1 _ (Proc.devRef .tc main_v11) = _
  after_results <;> rfl

theorem W5_v13 (c : Dev nD) : Fr.W5 (F := Ideal) m ρ c (Proc.devRef .tc main_v13)
    = truncf (F := Ideal) .bf16 (Fr.W4 (F := Ideal) m ρ c (Proc.devRef .tc main_arg3)) bitsLt_bf16_f32 := by
  show StableHlo.after hostOps2 _ (Proc.devRef .tc main_v13) = _
  after_results <;> rfl

theorem W5_v14 (c : Dev nD) : Fr.W5 (F := Ideal) m ρ c (Proc.devRef .tc main_v14)
    = shapeCast S8192x1024 (Fr.W4 (F := Ideal) m ρ c (Proc.devRef .tc main_v12_0)) shapeCasts_S4x2048x1024_S8192x1024 := by
  show StableHlo.after hostOps2 _ (Proc.devRef .tc main_v14) = _
  after_results <;> rfl

theorem W5_v15 (c : Dev nD) : Fr.W5 (F := Ideal) m ρ c (Proc.devRef .tc main_v15)
    = shapeCast S1x1024 (Fr.W4 (F := Ideal) m ρ c (Proc.devRef .tc main_arg4)) shapeCasts_S1024_S1x1024 := by
  show StableHlo.after hostOps2 _ (Proc.devRef .tc main_v15) = _
  after_results <;> rfl

theorem W7_v17 (c : Dev nD) : Fr.W7 (F := Ideal) m ρ c (Proc.devRef .tc main_v17)
    = shapeCast S4x2048x1024 (Fr.W6 (F := Ideal) m ρ c (Proc.devRef .tc main_v16)) shapeCasts_S8192x1024_S4x2048x1024 := by
  show StableHlo.after hostOps3 _ (Proc.devRef .tc main_v17) = _
  after_results <;> rfl

/-- A buffer that neither of the first two stretches writes and neither of the first two regions stages holds its
    launch contents after region 1. -/
theorem W4_unwritten (c : Dev nD) (b : Ref sig .tc) (h0 : b ∉ hostOps0_W) (h1 : b ∉ hostOps1_W)
    (a0 : ∀ w, Pipeline.arrRef spec0 w ≠ b) (a13 : b ≠ Pipeline.arrRef spec1 3) (a14 : b ≠ Pipeline.arrRef spec1 4) :
    Fr.W4 (F := Ideal) m ρ c (Proc.devRef .tc b) = m ((c : Thread nD τ).loc b) :=
  (Fr.W4_of_ne m ρ c b a13 a14).trans <|
  (StableHlo.after_of_writes_sub hostOps1 _ hostOps1_writes h1).trans <|
  (Fr.W2_of_ne m ρ c b a0).trans <|
  (StableHlo.after_of_writes_sub hostOps0 _ hostOps0_writes h0).trans rfl

/-- The probability array is not touched after region 1. -/
theorem W7_v12_1 (c : Dev nD) : Fr.W7 (F := Ideal) m ρ c (Proc.devRef .tc main_v12_1) = Fr.W4 (F := Ideal) m ρ c (Proc.devRef .tc main_v12_1) :=
  (StableHlo.after_of_writes_sub hostOps3 _ hostOps3_writes (by decide)).trans <|
  (Fr.W6_of_ne m ρ c main_v12_1 (by decide)).trans <|
  (StableHlo.after_of_writes_sub hostOps2 _ hostOps2_writes (by decide))

/-! ## The same, entry by entry -/

/-- The flattened input: row (b, s), column e is the input's entry (b, s, e). -/
theorem v8_apply (c : Dev nD) (b : Fin 4) (s : Fin 2048) (e : Fin 1024) :
    Fr.W1 (F := Ideal) m ρ c (Proc.devRef .tc main_v8) (ix2 (row b s) e) = m ((c : Thread nD τ).loc main_arg0) (ix3 b s e) := by
  rw [W1_v8]
  exact shapeCast_apply (m ((c : Thread nD τ).loc main_arg0)) shapeCasts_S4x2048x1024_S8192x1024 (ix2 (row b s) e) (ix3 b s e)
    (by show (S4x2048x1024.rowMajor (ix3 b s e)).val = (S8192x1024.rowMajor (ix2 (row b s) e)).val
        rewrite [Shape.rowMajor_val_three, Shape.rowMajor_val_two]; rfl)

/-- The re-laid projection matrix: its kind-major column (ty, h, d) is the original head-major column (h, ty, d). -/
theorem v3_apply (c : Dev nD) (e : Fin 1024) (ty : Fin 3) (h : Fin 16) (d : Fin 64) :
    Fr.W1 (F := Ideal) m ρ c (Proc.devRef .tc main_v3) (ix2 e (kcol ty h d)) = m ((c : Thread nD τ).loc main_arg1) (ix2 e (col h ty d)) := by
  rw [W1_v3]
  refine (shapeCast_apply _ shapeCasts_S1024x3x16x64_S1024x3072 (ix2 e (kcol ty h d)) (ix4 e ty h d)
    (by rewrite [Shape.rowMajor_val_four, Shape.rowMajor_val_two]
        show ((e.val * 3 + ty.val) * 16 + h.val) * 64 + d.val = e.val * 3072 + (ty.val * 1024 + h.val * 64 + d.val); omega)).trans ?_
  refine (transpose_apply [0, 2, 1, 3] _ transposes_S1024x16x3x64_S1024x3x16x64_0_2_1_3 (ix4 e ty h d) (ix4 e h ty d) (fun a => match a with
    | ⟨0, _⟩ => rfl
    | ⟨1, _⟩ => rfl
    | ⟨2, _⟩ => rfl
    | ⟨3, _⟩ => rfl)).trans ?_
  exact shapeCast_apply (m ((c : Thread nD τ).loc main_arg1)) shapeCasts_S1024x3072_S1024x16x3x64 (ix4 e h ty d) (ix2 e (col h ty d))
    (by show (S1024x3072.rowMajor (ix2 e (col h ty d))).val = (S1024x16x3x64.rowMajor (ix4 e h ty d)).val
        rewrite [Shape.rowMajor_val_two, Shape.rowMajor_val_four]
        show e.val * 3072 + (h.val * 192 + ty.val * 64 + d.val) = ((e.val * 16 + h.val) * 3 + ty.val) * 64 + d.val; omega)

/-- The re-laid projection bias likewise. -/
theorem v9_apply (c : Dev nD) (ty : Fin 3) (h : Fin 16) (d : Fin 64) :
    Fr.W1 (F := Ideal) m ρ c (Proc.devRef .tc main_v9) (ix2 0 (kcol ty h d)) = m ((c : Thread nD τ).loc main_arg2) (ix1 (col h ty d)) := by
  rw [W1_v9]
  refine (shapeCast_apply _ shapeCasts_S3072_S1x3072 (ix2 0 (kcol ty h d)) (ix1 (kcol ty h d))
    (by rewrite [Shape.rowMajor_val_one, Shape.rowMajor_val_two]
        show ty.val * 1024 + h.val * 64 + d.val = 0 * 3072 + (ty.val * 1024 + h.val * 64 + d.val); omega)).trans ?_
  refine (shapeCast_apply _ shapeCasts_S3x16x64_S3072 (ix1 (kcol ty h d)) (ix3 ty h d)
    (by rewrite [Shape.rowMajor_val_three, Shape.rowMajor_val_one]
        show (ty.val * 16 + h.val) * 64 + d.val = ty.val * 1024 + h.val * 64 + d.val; omega)).trans ?_
  refine (transpose_apply [1, 0, 2] _ transposes_S16x3x64_S3x16x64_1_0_2 (ix3 ty h d) (ix3 h ty d) (fun a => match a with
    | ⟨0, _⟩ => rfl
    | ⟨1, _⟩ => rfl
    | ⟨2, _⟩ => rfl)).trans ?_
  exact shapeCast_apply (m ((c : Thread nD τ).loc main_arg2)) shapeCasts_S3072_S16x3x64 (ix3 h ty d) (ix1 (col h ty d))
    (by show (S3072.rowMajor (ix1 (col h ty d))).val = (S16x3x64.rowMajor (ix3 h ty d)).val
        rewrite [Shape.rowMajor_val_one, Shape.rowMajor_val_three]
        show h.val * 192 + ty.val * 64 + d.val = (h.val * 3 + ty.val) * 64 + d.val; omega)

/-- The activations entering region 1: entry (b, s, f) is row (b, s), column f of region 0's result. -/
theorem v11_apply (c : Dev nD) (b : Fin 4) (s : Fin 2048) (f : Fin 3072) :
    Fr.W3 (F := Ideal) m ρ c (Proc.devRef .tc main_v11) (ix3 b s f) = Fr.W2 (F := Ideal) m ρ c (Proc.devRef .tc main_v10) (ix2 (row b s) f) := by
  rw [W3_v11]
  exact shapeCast_apply _ shapeCasts_S8192x3072_S4x2048x3072 (ix3 b s f) (ix2 (row b s) f)
    (by rewrite [Shape.rowMajor_val_two, Shape.rowMajor_val_three]; rfl)

/-- The output matrix entering region 2 is the argument. -/
theorem v13_apply (c : Dev nD) (e f : Fin 1024) :
    Fr.W5 (F := Ideal) m ρ c (Proc.devRef .tc main_v13) (ix2 e f) = m ((c : Thread nD τ).loc main_arg3) (ix2 e f) := by
  rw [W5_v13, W4_unwritten m ρ c main_arg3 (by decide) (by decide) (by decide) (by decide) (by decide)]
  rfl

/-- The attended values entering region 2: row (b, s), column e is region 1's entry (b, s, e). -/
theorem v14_apply (c : Dev nD) (b : Fin 4) (s : Fin 2048) (e : Fin 1024) :
    Fr.W5 (F := Ideal) m ρ c (Proc.devRef .tc main_v14) (ix2 (row b s) e) = Fr.W4 (F := Ideal) m ρ c (Proc.devRef .tc main_v12_0) (ix3 b s e) := by
  rw [W5_v14]
  exact shapeCast_apply _ shapeCasts_S4x2048x1024_S8192x1024 (ix2 (row b s) e) (ix3 b s e)
    (by rewrite [Shape.rowMajor_val_three, Shape.rowMajor_val_two]; rfl)

/-- The output bias entering region 2 is the argument, as one row. -/
theorem v15_apply (c : Dev nD) (f : Fin 1024) :
    Fr.W5 (F := Ideal) m ρ c (Proc.devRef .tc main_v15) (ix2 0 f) = m ((c : Thread nD τ).loc main_arg4) (ix1 f) := by
  rw [W5_v15, W4_unwritten m ρ c main_arg4 (by decide) (by decide) (by decide) (by decide) (by decide)]
  exact shapeCast_apply _ shapeCasts_S1024_S1x1024 (ix2 0 f) (ix1 f)
    (by rewrite [Shape.rowMajor_val_one, Shape.rowMajor_val_two]; show f.val = 0 * 1024 + f.val; omega)

/-- The program's first result: entry (b, s, f) is row (b, s), column f of region 2's result. -/
theorem v17_apply (c : Dev nD) (b : Fin 4) (s : Fin 2048) (f : Fin 1024) :
    Fr.W7 (F := Ideal) m ρ c (Proc.devRef .tc main_v17) (ix3 b s f) = Fr.W6 (F := Ideal) m ρ c (Proc.devRef .tc main_v16) (ix2 (row b s) f) := by
  rw [W7_v17]
  exact shapeCast_apply _ shapeCasts_S8192x1024_S4x2048x1024 (ix3 b s f) (ix2 (row b s) f)
    (by rewrite [Shape.rowMajor_val_two, Shape.rowMajor_val_three]; rfl)

end Cert.KernelIdeal.Val

end
-- ==== Proof.IdealPayMatmul.lean ====
import proofs.«157239_j88802743812872_2_alg».proof.Proof.Gen.KernelIdeal.Skeleton
import Idealize.ShloMosaic.PureOps.Ideal.Laws
import Idealize.ShloMosaic.Lib.ValueIdx

/-! # The three matrix products of the kernels, read at an index over the extended reals

Into a zero accumulator a matrix product at (p, q) is the sum over the contraction coordinate of the operands'
products: left at (p, e) times right at (e, q) for the two plain products, left at (p, d) times right at (k, d) for
the product against the transposed key block. -/

noncomputable section

namespace Cert.KernelIdeal.Val

open Cert.KernelIdeal Cert.KernelIdeal.Gen Idealize.ShloMosaic Idealize.ShloMosaic.ValueIdx

/-! ## The 1024 by 1024 product of regions 0 and 2 -/

theorem lhsA_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsA_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsA_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsA_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product at (p, q) is the sum over e of left (p, e) times right (e, q). -/
theorem matmulA_apply {φ₁ φ₂ : FTy} (l : FVec Ideal S1024x1024 φ₁) (r : FVec Ideal S1024x1024 φ₂) (p : Fin 1024) (q : Fin 1024) :
    matmul (F := Ideal) dot_S1024x1024_S1024x1024_S1024x1024_1_0_0_1_n_n none l r (constant (F := Ideal) S1024x1024 .f32 0x00000000#32) (ix2 p q)
      = ∑ e : Fin 1024, l (ix2 p e) * r (ix2 e q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhsA_0 _ _
    | ⟨1, _⟩ => exact (lhsA_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhsA_0 _ _).trans hk
    | ⟨1, _⟩ => exact rhsA_1 _ _)
  rw [el, er]

/-! ## Queries against the transposed keys -/

theorem lhsB_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhsB_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhsB_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhsB_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The product at (p, k) is the sum over d of left (p, d) times right (k, d). -/
theorem matmulB_apply {φ₁ φ₂ : FTy} (l : FVec Ideal S256x64 φ₁) (r : FVec Ideal S2048x64 φ₂) (p : Fin 256) (k : Fin 2048) :
    matmul (F := Ideal) dot_S256x64_S2048x64_S256x2048_1_1_0_0_n_n none l r (constant (F := Ideal) S256x2048 .f32 0x00000000#32) (ix2 p k)
      = ∑ d : Fin 64, l (ix2 p d) * r (ix2 k d) := by
  simp only [matmul]
  rw [Ideal.matmul_constant_zero_apply, ← Equiv.sum_comp (contrEquiv1 dot_S256x64_S2048x64_S256x2048_1_1_0_0_n_n 64 rfl rfl).symm]
  refine Finset.sum_congr rfl fun d _ => ?_
  have hd := contrEquiv1_symm_val dot_S256x64_S2048x64_S256x2048_1_1_0_0_n_n 64 rfl rfl d
  have el : dot_S256x64_S2048x64_S256x2048_1_1_0_0_n_n.lhsIdx (ix2 p k) ((contrEquiv1 dot_S256x64_S2048x64_S256x2048_1_1_0_0_n_n 64 rfl rfl).symm d) = ix2 p d := funext fun a => Fin.ext (by
    match a with
    | ⟨0, _⟩ => exact lhsB_0 _ _
    | ⟨1, _⟩ => exact (lhsB_1 _ _).trans hd)
  have er : dot_S256x64_S2048x64_S256x2048_1_1_0_0_n_n.rhsIdx (ix2 p k) ((contrEquiv1 dot_S256x64_S2048x64_S256x2048_1_1_0_0_n_n 64 rfl rfl).symm d) = ix2 k d := funext fun a => Fin.ext (by
    match a with
    | ⟨0, _⟩ => exact rhsB_0 _ _
    | ⟨1, _⟩ => exact (rhsB_1 _ _).trans hd)
  rw [el, er]

/-! ## Probabilities times values -/

theorem lhsC_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhsC_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhsC_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhsC_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product at (p, q) is the sum over e of left (p, e) times right (e, q). -/
theorem matmulC_apply {φ₁ φ₂ : FTy} (l : FVec Ideal S256x2048 φ₁) (r : FVec Ideal S2048x64 φ₂) (p : Fin 256) (q : Fin 64) :
    matmul (F := Ideal) dot_S256x2048_S2048x64_S256x64_1_0_0_1_n_n none l r (constant (F := Ideal) S256x64 .f32 0x00000000#32) (ix2 p q)
      = ∑ e : Fin 2048, l (ix2 p e) * r (ix2 e q) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p q) ((contrEquiv1 dot_S256x2048_S2048x64_S256x64_1_0_0_1_n_n 2048 rfl rfl).symm k) = ix2 p k := funext fun a => Fin.ext (by
    match a with
    | ⟨0, _⟩ => exact lhsC_0 _ _
    | ⟨1, _⟩ => exact (lhsC_1 _ _).trans hk)
  have er : dot_S256x2048_S2048x64_S256x64_1_0_0_1_n_n.rhsIdx (ix2 p q) ((contrEquiv1 dot_S256x2048_S2048x64_S256x64_1_0_0_1_n_n 2048 rfl rfl).symm k) = ix2 k q := funext fun a => Fin.ext (by
    match a with
    | ⟨0, _⟩ => exact (rhsC_0 _ _).trans hk
    | ⟨1, _⟩ => exact rhsC_1 _ _)
  rw [el, er]

end Cert.KernelIdeal.Val

end
-- ==== Proof.IdealPayMM.lean ====
import proofs.«157239_j88802743812872_2_alg».proof.Proof.IdealPayMatmul
import Idealize.ShloMosaic.Lib.Pipeline.Value
import Idealize.ShloMosaic.Lib.ValueLayout

/-! # The product-plus-bias payload of regions 0 and 2, read at an index

Both bodies compute, from the three loaded blocks, the matrix product into a zero accumulator plus the one bias row
repeated down the rows; region 0 then narrows the result to sixteen bits, which changes nothing over the extended
reals. At (p, q) the value is the sum over e of left (p, e) times right (e, q), plus bias (0, q). -/

noncomputable section

namespace Cert.KernelIdeal.Val

open Cert.KernelIdeal Cert.KernelIdeal.Gen Idealize.ShloMosaic Idealize.ShloMosaic.ValueIdx

/-- Region 2's payload at (p, q). -/
theorem k2_pay1_apply (v0 v2 : Vec Ideal S1024x1024 .bf16) (v5 : Vec Ideal S1x1024 .f32) (p q : Fin 1024) :
    k2_pay1 (F := Ideal) v0 v2 v5 (ix2 p q)
      = (∑ e : Fin 1024, (v0 (ix2 p e) : EReal) * v2 (ix2 e q)) + v5 (ix2 0 q) := by
  unfold k2_pay1
  refine (addf_apply _ _ _).trans ?_
  refine congrArg₂ (· + ·) ?_ ?_
  · refine (matmulA_apply _ _ p q).trans ?_
    rw [shapeCast_self, shapeCast_self]
  · refine (broadcastTo_1b_ab_apply _ _ p q).trans ?_
    rw [shapeCast_self]

/-- Region 0's payload at (p, q): the same value, the final narrowing being the identity. -/
theorem k0_pay1_apply (v0 v2 : Vec Ideal S1024x1024 .bf16) (v5 : Vec Ideal S1x1024 .f32) (p q : Fin 1024) :
    k0_pay1 (F := Ideal) v0 v2 v5 (ix2 p q)
      = (∑ e : Fin 1024, (v0 (ix2 p e) : EReal) * v2 (ix2 e q)) + v5 (ix2 0 q) := by
  unfold k0_pay1
  refine (truncf_apply (ψ := .bf16) (φ := .f32) _ _ _).trans ?_
  refine (addf_apply _ _ _).trans ?_
  refine congrArg₂ (· + ·) ?_ ?_
  · refine (matmulA_apply _ _ p q).trans ?_
    rw [shapeCast_self, shapeCast_self]
  · refine (broadcastTo_1b_ab_apply _ _ p q).trans ?_
    rw [shapeCast_self]

end Cert.KernelIdeal.Val

end
-- ==== Proof.IdealPaySoft.lean ====
import proofs.«157239_j88802743812872_2_alg».proof.Proof.IdealPayMatmul
import Idealize.ShloMosaic.Lib.Pipeline.Value
import Idealize.ShloMosaic.Lib.ValueLayout

/-! # One head of region 1: scores, row softmax, read at an index

From a 256 by 64 block of queries and a 2048 by 64 block of keys the body takes the product against the transposed
keys, scales it by the literal 0.125, and normalises every row: the row's maximum (a reduction of the last axis with a
maximum body from minus infinity, kept as a column and repeated along the row), the exponential of the difference, the
row's sum (likewise kept and repeated), the quotient. Over the extended reals the value at (p, k) is the row softmax of
the function k' ↦ (sum over d of query (p, d) times key (k', d)) times 1/8, evaluated at k. -/

noncomputable section

namespace Cert.KernelIdeal.Val

open Cert.KernelIdeal Cert.KernelIdeal.Gen Idealize.ShloMosaic Idealize.ShloMosaic.ValueIdx

/-- The softmax of a row f at position k: exp (f k - max f) over the sum of exp (f k' - max f), the maximum as the fold of max
    from minus infinity. -/
def softRow (f : Fin 2048 → EReal) (k : Fin 2048) : EReal :=
  Ideal.div (Ideal.exp (f k - (Finset.univ : Finset (Fin 2048)).fold max ⊥ f))
    (∑ k' : Fin 2048, Ideal.exp (f k' - (Finset.univ : Finset (Fin 2048)).fold max ⊥ f))

/-! ## Constants -/

/-- The pattern 0xFF800000 denotes minus infinity. -/
theorem ofBits_neg_inf : Ideal.ofBits .f32 0xFF800000#32 = (⊥ : EReal) := by
  simp [Ideal.ofBits, Ideal.ieee]

/-- The pattern 0x3E000000 denotes the real 1/8. -/
theorem ofBits_eighth : Ideal.ofBits .f32 0x3E000000#32 = ((1 / 8 : ℝ) : EReal) := by
  simp [Ideal.ofBits, Ideal.ieee, -EReal.coe_mul]; norm_num

/-! ## A column kept from a reduction, and repeated along the rows -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exponential of a vector at an index. -/
theorem exp_apply {s : Shape} {φ : FTy} (a : FVec Ideal s φ) (i : s.Idx) : exp a i = Ideal.exp (a i) := rfl

/-- Row p with column k put back on the reduced axis is (p, k). -/
theorem lift_row (p : Fin 256) (k : Fin (S256x2048.size 1)) :
    reduces_S256x2048_S256.lift (ix1 p) k = ix2 p (⟨k.val, k.isLt⟩ : Fin 2048) := by
  funext c; apply Fin.ext
  fin_cases c <;> rfl

/-- A row's maximum, kept as a column and repeated along the row, is at (p, k) the fold of max from minus infinity over row p. -/
theorem rowmax_bcast (s : FVec Ideal S256x2048 .f32) (hφ : FKind.Formats .f32)
    (hacc : (0xFF800000#32 : BitVec FTy.f32.bits) = FKind.maximumf.neutral .f32 hφ) (p : Fin 256) (k : Fin 2048) :
    broadcastTo S256x2048 (shapeCast S256x1 (multiReduction (F := Ideal) .maximumf [1] S256 s 0xFF800000#32 reduces_S256x2048_S256 hφ hacc)
        shapeCasts_S256_S256x1) broadcasts_S256x1_S256x2048 (ix2 p k)
      = (Finset.univ : Finset (Fin 2048)).fold max (⊥ : EReal) (fun k' => s (ix2 p k')) := by
  refine (broadcastTo_a1_ab_apply _ _ p k).trans ?_
  refine (shapeCast_a_a1_apply _ _ p 0).trans ?_
  refine (Ideal.multiReduction_maximumf_single s _ reduces_S256x2048_S256 hφ hacc (ix1 p)).trans ?_
  rw [Ideal.ofBits_def, ofBits_neg_inf]
  exact congrArg (fun f => Finset.fold max (⊥ : EReal) f (Finset.univ : Finset (Fin 2048)))
    (funext fun k' => congrArg s (lift_row p k'))

/-- A row's sum, kept as a column and repeated along the row, is at (p, k) the sum over row p. -/
theorem rowsum_bcast (s : FVec Ideal S256x2048 .f32) (hφ : FKind.Formats .f32)
    (hacc : (0x00000000#32 : BitVec FTy.f32.bits) = FKind.add.neutral .f32 hφ) (p : Fin 256) (k : Fin 2048) :
    broadcastTo S256x2048 (shapeCast S256x1 (multiReduction (F := Ideal) .add [1] S256 s 0x00000000#32 reduces_S256x2048_S256 hφ hacc)
        shapeCasts_S256_S256x1) broadcasts_S256x1_S256x2048 (ix2 p k)
      = ∑ k' : Fin 2048, s (ix2 p k') := by
  refine (broadcastTo_a1_ab_apply _ _ p k).trans ?_
  refine (shapeCast_a_a1_apply _ _ p 0).trans ?_
  refine (Ideal.multiReduction_add_single s _ reduces_S256x2048_S256 hφ hacc (ix1 p)).trans ?_
  exact Finset.sum_congr rfl fun k' _ => congrArg s (lift_row p k')

/-! ## The scaled scores and the softmax payload -/

/-- The product against the transposed keys times the literal 0.125, at (p, k). -/
theorem score_apply (q : FVec Ideal S256x64 .bf16) (kk : FVec Ideal S2048x64 .bf16) (p : Fin 256) (k : Fin 2048) :
    mulf (matmul (F := Ideal) dot_S256x64_S2048x64_S256x2048_1_1_0_0_n_n none q kk (constant (F := Ideal) S256x2048 .f32 0x00000000#32))
        (broadcast S256x2048 (Scalar.ofBits (F := Ideal) .f32 0x3E000000#32)) (ix2 p k)
      = (∑ d : Fin 64, (q (ix2 p d) : EReal) * kk (ix2 k d)) * ((1 / 8 : ℝ) : EReal) := by
  refine (mulf_apply _ _ _).trans ?_
  refine congrArg₂ (· * ·) (matmulB_apply q kk p k) ?_
  exact ofBits_eighth

/-- The head's probabilities at (p, k): the softmax of row p of the scaled scores. -/
theorem k1_pay1_apply (q : FVec Ideal S256x64 .bf16) (kk : FVec Ideal S2048x64 .bf16) (p : Fin 256) (k : Fin 2048) :
    k1_pay1 (F := Ideal) q kk (constant (F := Ideal) S256x2048 .f32 0x00000000#32) (ix2 p k)
      = softRow (fun k' => (∑ d : Fin 64, (q (ix2 p d) : EReal) * kk (ix2 k' d)) * ((1 / 8 : ℝ) : EReal)) k := by
  unfold k1_pay1
  refine (divf_apply _ _ _).trans ?_
  have hw : ∀ k' : Fin 2048, exp (subf
        (mulf (matmul (F := Ideal) dot_S256x64_S2048x64_S256x2048_1_1_0_0_n_n none q kk (constant (F := Ideal) S256x2048 .f32 0x00000000#32))
          (broadcast S256x2048 (Scalar.ofBits (F := Ideal) .f32 0x3E000000#32)))
        (broadcastTo S256x2048 (shapeCast S256x1 (multiReduction (F := Ideal) .maximumf [1] S256
          (mulf (matmul (F := Ideal) dot_S256x64_S2048x64_S256x2048_1_1_0_0_n_n none q kk (constant (F := Ideal) S256x2048 .f32 0x00000000#32))
            (broadcast S256x2048 (Scalar.ofBits (F := Ideal) .f32 0x3E000000#32)))
          0xFF800000#32 reduces_S256x2048_S256 (.inl rfl) rfl) shapeCasts_S256_S256x1) broadcasts_S256x1_S256x2048)) (ix2 p k')
      = Ideal.exp ((∑ d : Fin 64, (q (ix2 p d) : EReal) * kk (ix2 k' d)) * ((1 / 8 : ℝ) : EReal)
          - (Finset.univ : Finset (Fin 2048)).fold max ⊥
              (fun k'' => (∑ d : Fin 64, (q (ix2 p d) : EReal) * kk (ix2 k'' d)) * ((1 / 8 : ℝ) : EReal))) := fun k' => by
    refine (exp_apply _ _).trans (congrArg Ideal.exp ?_)
    refine (subf_apply _ _ _).trans ?_
    refine congrArg₂ (· - ·) (score_apply q kk p k') ?_
    refine (rowmax_bcast _ _ _ p k').trans ?_
    exact congrArg (fun f => Finset.fold max (⊥ : EReal) f (Finset.univ : Finset (Fin 2048)))
      (funext fun k'' => score_apply q kk p k'')
  unfold softRow
  refine congrArg₂ Ideal.div (hw k) ?_
  refine (rowsum_bcast _ _ _ p k).trans ?_
  exact Finset.sum_congr rfl fun k' _ => hw k'

end Cert.KernelIdeal.Val

end
-- ==== Proof.IdealPayHead.lean ====
import proofs.«157239_j88802743812872_2_alg».proof.Proof.IdealPaySoft
import proofs.«157239_j88802743812872_2_alg».proof.Proof.KSpec

/-! # The two heads of a block of region 1

A block holds two heads side by side: head j owns columns j*64 .. j*64 + 63 of the 128. The body cuts each head's 64
columns out of the query, key and value blocks (after dropping the blocks' leading unit axis), computes the head's
probabilities and its attended values, and stores them with a leading unit axis (two for the probabilities) put back.
Here each stored payload is read at an index and identified with the block-level specification. -/

noncomputable section

namespace Cert.KernelIdeal.Val

open Cert.KernelIdeal Cert.KernelIdeal.Gen Idealize.ShloMosaic Idealize.ShloMosaic.ValueIdx

/-! ## The heads' columns -/

/-- Head 0's query columns. -/
theorem qslice0 (x0 : Vec Ideal S1x256x128 .bf16) (r : Fin 256) (d : Fin 64) :
    extractStridedSlice S256x64 ![0, 0] (k1_pay4 (F := Ideal) x0) slices_S256x128_o0_0_S256x64 (ix2 r d) = x0 (ix3 0 r (Cert.KSpec.bcol 0 d)) := by
  refine (slice2_axis1_apply 0 _ _ r d (Cert.KSpec.bcol 0 d) (by show 0 * 64 + d.val = 0 + d.val; omega)).trans ?_
  unfold k1_pay4
  exact shapeCast_1ab_ab_apply _ _ r _

/-- Head 0's key columns. -/
theorem kslice0 (x1 : Vec Ideal S1x2048x128 .bf16) (r : Fin 2048) (d : Fin 64) :
    extractStridedSlice S2048x64 ![0, 0] (k1_pay5 (F := Ideal) x1) slices_S2048x128_o0_0_S2048x64 (ix2 r d) = x1 (ix3 0 r (Cert.KSpec.bcol 0 d)) := by
  refine (slice2_axis1_apply 0 _ _ r d (Cert.KSpec.bcol 0 d) (by show 0 * 64 + d.val = 0 + d.val; omega)).trans ?_
  unfold k1_pay5
  exact shapeCast_1ab_ab_apply _ _ r _

/-- Head 0's value columns. -/
theorem vslice0 (x2 : Vec Ideal S1x2048x128 .bf16) (r : Fin 2048) (d : Fin 64) :
    extractStridedSlice S2048x64 ![0, 0] (k1_pay6 (F := Ideal) x2) slices_S2048x128_o0_0_S2048x64 (ix2 r d) = x2 (ix3 0 r (Cert.KSpec.bcol 0 d)) := by
  refine (slice2_axis1_apply 0 _ _ r d (Cert.KSpec.bcol 0 d) (by show 0 * 64 + d.val = 0 + d.val; omega)).trans ?_
  unfold k1_pay6
  exact shapeCast_1ab_ab_apply _ _ r _

/-- Head 1's query columns. -/
theorem qslice1 (x0 : Vec Ideal S1x256x128 .bf16) (r : Fin 256) (d : Fin 64) :
    extractStridedSlice S256x64 ![0, 64] (k1_pay4 (F := Ideal) x0) slices_S256x128_o0_64_S256x64 (ix2 r d) = x0 (ix3 0 r (Cert.KSpec.bcol 1 d)) := by
  refine (slice2_axis1_apply 64 _ _ r d (Cert.KSpec.bcol 1 d) (by show 1 * 64 + d.val = 64 + d.val; omega)).trans ?_
  unfold k1_pay4
  exact shapeCast_1ab_ab_apply _ _ r _

/-- Head 1's key columns. -/
theorem kslice1 (x1 : Vec Ideal S1x2048x128 .bf16) (r : Fin 2048) (d : Fin 64) :
    extractStridedSlice S2048x64 ![0, 64] (k1_pay5 (F := Ideal) x1) slices_S2048x128_o0_64_S2048x64 (ix2 r d) = x1 (ix3 0 r (Cert.KSpec.bcol 1 d)) := by
  refine (slice2_axis1_apply 64 _ _ r d (Cert.KSpec.bcol 1 d) (by show 1 * 64 + d.val = 64 + d.val; omega)).trans ?_
  unfold k1_pay5
  exact shapeCast_1ab_ab_apply _ _ r _

/-- Head 1's value columns. -/
theorem vslice1 (x2 : Vec Ideal S1x2048x128 .bf16) (r : Fin 2048) (d : Fin 64) :
    extractStridedSlice S2048x64 ![0, 64] (k1_pay6 (F := Ideal) x2) slices_S2048x128_o0_64_S2048x64 (ix2 r d) = x2 (ix3 0 r (Cert.KSpec.bcol 1 d)) := by
  refine (slice2_axis1_apply 64 _ _ r d (Cert.KSpec.bcol 1 d) (by show 1 * 64 + d.val = 64 + d.val; omega)).trans ?_
  unfold k1_pay6
  exact shapeCast_1ab_ab_apply _ _ r _

/-! ## The probabilities -/

theorem softRow_congr {f g : Fin 2048 → EReal} (h : ∀ k, f k = g k) (k : Fin 2048) : softRow f k = softRow g k := by
  rw [funext h]

/-- Head 0's probabilities, from the columns cut at offset 0. -/
theorem head0_apply (x0 : Vec Ideal S1x256x128 .bf16) (x1 : Vec Ideal S1x2048x128 .bf16) (p : Fin 256) (k : Fin 2048) :
    k1_pay1 (F := Ideal) (extractStridedSlice S256x64 ![0, 0] (k1_pay4 (F := Ideal) x0) slices_S256x128_o0_0_S256x64)
        (extractStridedSlice S2048x64 ![0, 0] (k1_pay5 (F := Ideal) x1) slices_S2048x128_o0_0_S2048x64)
        (constant (F := Ideal) S256x2048 .f32 0x00000000#32) (ix2 p k)
      = Cert.KSpec.battn x0 x1 0 p k := by
  refine (k1_pay1_apply _ _ p k).trans ?_
  refine (softRow_congr (g := fun k' => Cert.KSpec.bscore x0 x1 0 p k') (fun k' => ?_) k).trans rfl
  unfold Cert.KSpec.bscore
  exact congrArg (· * _) (Finset.sum_congr rfl fun d _ => congrArg₂ (· * ·) (qslice0 x0 p d) (kslice0 x1 k' d))

/-- Head 1's probabilities, from the columns cut at offset 64. -/
theorem head1_apply (x0 : Vec Ideal S1x256x128 .bf16) (x1 : Vec Ideal S1x2048x128 .bf16) (p : Fin 256) (k : Fin 2048) :
    k1_pay1 (F := Ideal) (k1_pay10 (F := Ideal) x0) (k1_pay11 (F := Ideal) x1)
        (constant (F := Ideal) S256x2048 .f32 0x00000000#32) (ix2 p k)
      = Cert.KSpec.battn x0 x1 1 p k := by
  refine (k1_pay1_apply _ _ p k).trans ?_
  refine (softRow_congr (g := fun k' => Cert.KSpec.bscore x0 x1 1 p k') (fun k' => ?_) k).trans rfl
  unfold Cert.KSpec.bscore
  exact congrArg (· * _) (Finset.sum_congr rfl fun d _ => congrArg₂ (· * ·) (qslice1 x0 p d) (kslice1 x1 k' d))

/-- Head 0's probabilities as the body computes them are the shared softmax payload of the columns cut at offset 0. -/
theorem k1_pay7_eq (x0 : Vec Ideal S1x256x128 .bf16) (x1 : Vec Ideal S1x2048x128 .bf16) :
    k1_pay7 (F := Ideal) x0 x1
      = k1_pay1 (F := Ideal) (extractStridedSlice S256x64 ![0, 0] (k1_pay4 (F := Ideal) x0) slices_S256x128_o0_0_S256x64)
        (extractStridedSlice S2048x64 ![0, 0] (k1_pay5 (F := Ideal) x1) slices_S2048x128_o0_0_S2048x64)
        (constant (F := Ideal) S256x2048 .f32 0x00000000#32) := rfl

section Layout
variable {α : Type}

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

end Layout

/-- The stored probabilities of head 0. -/
theorem k1_pay8_apply (x0 : Vec Ideal S1x256x128 .bf16) (x1 : Vec Ideal S1x2048x128 .bf16) (p : Fin 256) (k : Fin 2048) :
    k1_pay8 (F := Ideal) x0 x1 (ix4 0 0 p k) = Cert.KSpec.battn x0 x1 0 p k := by
  unfold k1_pay8
  refine (shapeCast_ab_11ab_apply _ _ 0 0 p k).trans ?_
  refine (congrFun (k1_pay7_eq x0 x1) (ix2 p k)).trans ?_
  exact head0_apply x0 x1 p k

/-- The stored probabilities of head 1. -/
theorem k1_pay2_apply (x0 : Vec Ideal S1x256x128 .bf16) (x1 : Vec Ideal S1x2048x128 .bf16) (p : Fin 256) (k : Fin 2048) :
    k1_pay2 (F := Ideal) (k1_pay10 (F := Ideal) x0) (k1_pay11 (F := Ideal) x1) (constant (F := Ideal) S256x2048 .f32 0x00000000#32)
        (ix4 0 0 p k)
      = Cert.KSpec.battn x0 x1 1 p k := by
  unfold k1_pay2
  refine (shapeCast_ab_11ab_apply _ _ 0 0 p k).trans ?_
  exact head1_apply x0 x1 p k

/-! ## The attended values -/

/-- The stored attended values of a head: the probabilities times the head's value columns. -/
theorem k1_pay3_apply (q : FVec Ideal S256x64 .bf16) (kk v : FVec Ideal S2048x64 .bf16) (p : Fin 256) (d : Fin 64) :
    k1_pay3 (F := Ideal) q kk v (constant (F := Ideal) S256x2048 .f32 0x00000000#32) (ix3 0 p d)
      = ∑ k : Fin 2048, (k1_pay1 (F := Ideal) q kk (constant (F := Ideal) S256x2048 .f32 0x00000000#32) (ix2 p k) : EReal) * v (ix2 k d) := by
  unfold k1_pay3
  refine (shapeCast_ab_1ab_apply _ _ 0 p d).trans ?_
  refine (truncf_apply (ψ := .bf16) (φ := .f32) _ _ _).trans ?_
  refine (matmulC_apply _ _ p d).trans ?_
  exact Finset.sum_congr rfl fun k _ => congrArg (· * _) (truncf_apply (ψ := .bf16) (φ := .f32) _ _ _)

/-- Head 0's attended values as the body computes them are the shared payload of the columns cut at offset 0. -/
theorem k1_pay9_eq (x0 : Vec Ideal S1x256x128 .bf16) (x1 x2 : Vec Ideal S1x2048x128 .bf16) :
    k1_pay9 (F := Ideal) x0 x1 x2
      = k1_pay3 (F := Ideal) (extractStridedSlice S256x64 ![0, 0] (k1_pay4 (F := Ideal) x0) slices_S256x128_o0_0_S256x64)
        (extractStridedSlice S2048x64 ![0, 0] (k1_pay5 (F := Ideal) x1) slices_S2048x128_o0_0_S2048x64)
        (extractStridedSlice S2048x64 ![0, 0] (k1_pay6 (F := Ideal) x2) slices_S2048x128_o0_0_S2048x64)
        (constant (F := Ideal) S256x2048 .f32 0x00000000#32) := rfl

/-- The stored attended values of head 0. -/
theorem k1_pay9_apply (x0 : Vec Ideal S1x256x128 .bf16) (x1 x2 : Vec Ideal S1x2048x128 .bf16) (p : Fin 256) (d : Fin 64) :
    k1_pay9 (F := Ideal) x0 x1 x2 (ix3 0 p d)
      = ∑ k : Fin 2048, Cert.KSpec.battn x0 x1 0 p k * x2 (ix3 0 k (Cert.KSpec.bcol 0 d)) := by
  refine (congrFun (k1_pay9_eq x0 x1 x2) (ix3 0 p d)).trans ?_
  refine (k1_pay3_apply _ _ _ p d).trans ?_
  exact Finset.sum_congr rfl fun k _ => congrArg₂ (· * ·) (head0_apply x0 x1 p k) (vslice0 x2 k d)

/-- The stored attended values of head 1. -/
theorem k1_pay3_head1_apply (x0 : Vec Ideal S1x256x128 .bf16) (x1 x2 : Vec Ideal S1x2048x128 .bf16) (p : Fin 256) (d : Fin 64) :
    k1_pay3 (F := Ideal) (k1_pay10 (F := Ideal) x0) (k1_pay11 (F := Ideal) x1) (k1_pay12 (F := Ideal) x2)
        (constant (F := Ideal) S256x2048 .f32 0x00000000#32) (ix3 0 p d)
      = ∑ k : Fin 2048, Cert.KSpec.battn x0 x1 1 p k * x2 (ix3 0 k (Cert.KSpec.bcol 1 d)) := by
  refine (k1_pay3_apply _ _ _ p d).trans ?_
  exact Finset.sum_congr rfl fun k _ => congrArg₂ (· * ·) (head1_apply x0 x1 p k) (vslice1 x2 k d)

end Cert.KernelIdeal.Val

end
-- ==== Proof.IdealPayload.lean ====
import proofs.«157239_j88802743812872_2_alg».proof.Proof.IdealRegion0
import proofs.«157239_j88802743812872_2_alg».proof.Proof.IdealRegion1
import proofs.«157239_j88802743812872_2_alg».proof.Proof.IdealRegion2
import proofs.«157239_j88802743812872_2_alg».proof.Proof.KSpec
import proofs.«157239_j88802743812872_2_alg».proof.Proof.IdealPayMM
import proofs.«157239_j88802743812872_2_alg».proof.Proof.IdealPayHead
import Idealize.ShloMosaic.PureOps.Ideal.Laws
import Idealize.ShloMosaic.Lib.Pipeline.Value
import Idealize.ShloMosaic.Lib.ValueIdx
import Idealize.ShloMosaic.Lib.ValueLayout

/-! # What each region's body leaves in its output block, read at an index over the extended reals -/

noncomputable section

namespace Cert.KernelIdeal.Val

open Cert.KernelIdeal Cert.KernelIdeal.Gen Idealize.ShloMosaic Idealize.ShloMosaic.ValueIdx

/-- The zero offsets of a rank-2 rectangle, however spelt. -/
theorem zero2 : (![0, 0] : Fin 2 → ℕ) = fun _ => 0 := by
  funext a; fin_cases a <;> rfl

/-- Region 0's output block is the product of the two matrix blocks plus the bias row. -/
theorem out0_3_apply (x0 x1 : Vec Ideal S1024x1024 .bf16) (x2 : Vec Ideal S1x1024 .f32) (i : S1024x1024.Idx) :
    Fr.out0_3 (F := Ideal) x0 x1 x2 i = Cert.KSpec.mmArr x0 x1 x2 i := by
  obtain ⟨p, q, rfl⟩ : ∃ (p q : Fin 1024), i = ix2 p q := ⟨i 0, i 1, eq_ix2 i⟩
  unfold Fr.out0_3
  rw [View.canon_unit_zero zero2, View.ld_unit_zero zero2, View.ld_unit_zero zero2, View.ld_unit_zero zero2]
  exact k0_pay1_apply x0 x1 x2 p q

/-- Region 2's output block likewise. -/
theorem out2_3_apply (x0 x1 : Vec Ideal S1024x1024 .bf16) (x2 : Vec Ideal S1x1024 .f32) (i : S1024x1024.Idx) :
    Fr.out2_3 (F := Ideal) x0 x1 x2 i = Cert.KSpec.mmArr x0 x1 x2 i := by
  obtain ⟨p, q, rfl⟩ : ∃ (p q : Fin 1024), i = ix2 p q := ⟨i 0, i 1, eq_ix2 i⟩
  unfold Fr.out2_3
  rw [View.canon_unit_zero zero2, View.ld_unit_zero zero2, View.ld_unit_zero zero2, View.ld_unit_zero zero2]
  exact k2_pay1_apply x0 x1 x2 p q

/-- The zero offsets of a rank-3 rectangle, however spelt. -/
theorem zero3 : (![0, 0, 0] : Fin 3 → ℕ) = fun _ => 0 := by
  funext a; fin_cases a <;> rfl

/-- Of two stores, an index the last store misses and the first holds reads the first store's payload. -/
theorem canon_pair_first {Val : EltTy → Type} [∀ e, Nonempty (Val e)] {S : Shape} {e : EltTy} (r1 r0 : Rect S)
    (w1 : r1.shape.Idx → Val e) (w0 : r0.shape.Idx → Val e) (y : S.Idx) (x : r0.shape.Idx) (hmiss : y ∉ r1.set) (hy : y = r0.emb x) :
    View.canon [(⟨r1, w1⟩ : View.Piece Val S e), ⟨r0, w0⟩] y = w0 x := by
  rw [View.canon_cons_of_not_mem (⟨r1, w1⟩ : View.Piece Val S e) _ hmiss, hy]
  exact View.canon_cons_emb r0 w0 [] x

/-- Head 0's half of the probability block lies outside the rectangle of head 1's store: its second coordinate is 0, not 1. -/
theorem attn_head0_not_mem (p : Fin 256) (k : Fin 2048) :
    (ix4 (0 : Fin 1) (0 : Fin 2) p k : S1x2x256x2048.Idx) ∉ (Fr.r1_a1 : Rect S1x2x256x2048).set := by
  intro h
  have h0 := (Rect.mem_set_unit.mp h) (1 : Fin 4)
  have h1 : (1 : ℕ) ≤ 0 := h0.1
  omega

/-- Head 0's columns of the value block lie outside the rectangle of head 1's store: they are below 64. -/
theorem vals_head0_not_mem (p : Fin 256) (d : Fin 64) :
    (ix3 (0 : Fin 1) p (Cert.KSpec.bcol 0 d) : S1x256x128.Idx) ∉ (Fr.r1_v1 : Rect S1x256x128).set := by
  intro h
  have h0 := (Rect.mem_set_unit.mp h) (2 : Fin 3)
  have h1 : (64 : ℕ) ≤ 0 * 64 + d.val := h0.1
  have := d.isLt
  omega

/-- The probability block at head 1's half: the last store, at offset (0, 1, 0, 0), holds it. -/
theorem attn_block_head1 (x0 : Vec Ideal S1x256x128 .bf16) (x1 : Vec Ideal S1x2048x128 .bf16) (p : Fin 256) (k : Fin 2048) :
    Fr.out1_4 (F := Ideal) x0 x1 (ix4 0 1 p k) = Cert.KSpec.battn x0 x1 1 p k := by
  unfold Fr.out1_4
  rw [View.ld_unit_zero zero3, View.ld_unit_zero zero3]
  have e : (ix4 (0 : Fin 1) (1 : Fin 2) p k : S1x2x256x2048.Idx) = Fr.r1_a1.emb (ix4 (0 : Fin 1) (0 : Fin 1) p k) :=
    funext fun a => Fin.ext (by
      match a with
      | ⟨0, _⟩ => rfl
      | ⟨1, _⟩ => rfl
      | ⟨2, _⟩ => show p.val = 0 + 1 * p.val; omega
      | ⟨3, _⟩ => show k.val = 0 + 1 * k.val; omega)
  refine (congrArg _ e).trans ?_
  refine (View.canon_cons_emb _ _ _ _).trans ?_
  exact k1_pay2_apply x0 x1 p k

/-- The probability block at head 0's half: the last store misses it, the first, at offset (0, 0, 0, 0), holds it. -/
theorem attn_block_head0 (x0 : Vec Ideal S1x256x128 .bf16) (x1 : Vec Ideal S1x2048x128 .bf16) (p : Fin 256) (k : Fin 2048) :
    Fr.out1_4 (F := Ideal) x0 x1 (ix4 0 0 p k) = Cert.KSpec.battn x0 x1 0 p k := by
  unfold Fr.out1_4
  rw [View.ld_unit_zero zero3, View.ld_unit_zero zero3]
  have e : (ix4 (0 : Fin 1) (0 : Fin 2) p k : S1x2x256x2048.Idx) = Fr.r1_a0.emb (ix4 (0 : Fin 1) (0 : Fin 1) p k) :=
    funext fun a => Fin.ext (by
      match a with
      | ⟨0, _⟩ => rfl
      | ⟨1, _⟩ => rfl
      | ⟨2, _⟩ => show p.val = 0 + 1 * p.val; omega
      | ⟨3, _⟩ => show k.val = 0 + 1 * k.val; omega)
  refine (canon_pair_first Fr.r1_a1 Fr.r1_a0 _ _ _ (ix4 (0 : Fin 1) (0 : Fin 1) p k) (attn_head0_not_mem p k) e).trans ?_
  exact k1_pay8_apply x0 x1 p k

/-- The value block at head 1's columns 64 + d: the last store, at column offset 64, holds them. -/
theorem vals_block_head1 (x0 : Vec Ideal S1x256x128 .bf16) (x1 x2 : Vec Ideal S1x2048x128 .bf16) (p : Fin 256) (d : Fin 64) :
    Fr.out1_3 (F := Ideal) x0 x1 x2 (ix3 0 p (Cert.KSpec.bcol 1 d))
      = ∑ k : Fin 2048, Cert.KSpec.battn x0 x1 1 p k * x2 (ix3 0 k (Cert.KSpec.bcol 1 d)) := by
  unfold Fr.out1_3
  rw [View.ld_unit_zero zero3, View.ld_unit_zero zero3, View.ld_unit_zero zero3]
  have e : (ix3 (0 : Fin 1) p (Cert.KSpec.bcol 1 d) : S1x256x128.Idx) = Fr.r1_v1.emb (ix3 (0 : Fin 1) p d) :=
    funext fun a => Fin.ext (by
      match a with
      | ⟨0, _⟩ => rfl
      | ⟨1, _⟩ => show p.val = 0 + 1 * p.val; omega
      | ⟨2, _⟩ => show 1 * 64 + d.val = 64 + 1 * d.val; omega)
  refine (congrArg _ e).trans ?_
  refine (View.canon_cons_emb _ _ _ _).trans ?_
  exact k1_pay3_head1_apply x0 x1 x2 p d

/-- The value block at head 0's columns d: the last store misses them, the first, at column offset 0, holds them. -/
theorem vals_block_head0 (x0 : Vec Ideal S1x256x128 .bf16) (x1 x2 : Vec Ideal S1x2048x128 .bf16) (p : Fin 256) (d : Fin 64) :
    Fr.out1_3 (F := Ideal) x0 x1 x2 (ix3 0 p (Cert.KSpec.bcol 0 d))
      = ∑ k : Fin 2048, Cert.KSpec.battn x0 x1 0 p k * x2 (ix3 0 k (Cert.KSpec.bcol 0 d)) := by
  unfold Fr.out1_3
  rw [View.ld_unit_zero zero3, View.ld_unit_zero zero3, View.ld_unit_zero zero3]
  have e : (ix3 (0 : Fin 1) p (Cert.KSpec.bcol 0 d) : S1x256x128.Idx) = Fr.r1_v0.emb (ix3 (0 : Fin 1) p d) :=
    funext fun a => Fin.ext (by
      match a with
      | ⟨0, _⟩ => rfl
      | ⟨1, _⟩ => show p.val = 0 + 1 * p.val; omega
      | ⟨2, _⟩ => show 0 * 64 + d.val = 0 + 1 * d.val; omega)
  refine (canon_pair_first Fr.r1_v1 Fr.r1_v0 _ _ _ (ix3 (0 : Fin 1) p d) (vals_head0_not_mem p d) e).trans ?_
  exact k1_pay9_apply x0 x1 x2 p d

/-- Region 1's probability block: head j's half holds that head's attention probabilities. -/
theorem out1_4_apply (x0 : Vec Ideal S1x256x128 .bf16) (x1 : Vec Ideal S1x2048x128 .bf16) (j : Fin 2) (p : Fin 256) (k : Fin 2048) :
    Fr.out1_4 (F := Ideal) x0 x1 (ix4 0 j p k) = Cert.KSpec.battn x0 x1 j p k := by
  have hj : j = 0 ∨ j = 1 := by fin_cases j <;> simp
  rcases hj with rfl | rfl
  · exact attn_block_head0 x0 x1 p k
  · exact attn_block_head1 x0 x1 p k

/-- Region 1's value block: column e holds head e / 64's attended value. -/
theorem out1_3_apply (x0 : Vec Ideal S1x256x128 .bf16) (x1 x2 : Vec Ideal S1x2048x128 .bf16) (p : Fin 256) (e : Fin 128) :
    Fr.out1_3 (F := Ideal) x0 x1 x2 (ix3 0 p e) = Cert.KSpec.bvals x0 x1 x2 p e := by
  have he := e.isLt
  unfold Cert.KSpec.bvals
  by_cases hlt : e.val < 64
  · have h0 : (⟨e.val / 64, by omega⟩ : Fin 2) = 0 := Fin.ext (by show e.val / 64 = 0; omega)
    have hc : e = Cert.KSpec.bcol 0 ⟨e.val, hlt⟩ := Fin.ext (by show e.val = 0 * 64 + e.val; omega)
    rw [h0]
    rw [hc]
    exact vals_block_head0 x0 x1 x2 p ⟨e.val, hlt⟩
  · have h1 : (⟨e.val / 64, by omega⟩ : Fin 2) = 1 := Fin.ext (by show e.val / 64 = 1; omega)
    have hc : e = Cert.KSpec.bcol 1 ⟨e.val - 64, by omega⟩ := Fin.ext (by show e.val = 1 * 64 + (e.val - 64); omega)
    rw [h1]
    rw [hc]
    exact vals_block_head1 x0 x1 x2 p ⟨e.val - 64, by omega⟩

end Cert.KernelIdeal.Val

end
-- ==== Proof.ProductBlock.lean ====
import proofs.«157239_j88802743812872_2_alg».proof.Proof.KSpec

/-! # A block of a matrix product plus bias is the matching part of the whole product

If every entry of a row block of the left matrix, of a column block of the right matrix and of the matching block of
the bias row that the formula for entry (p, q) of the block product reads is the entry of the whole operand that
the formula for the matching entry of the whole product reads, the two entries are equal: the two sums run over
the same inner index and agree term by term. -/

noncomputable section

namespace Cert.KSpec

open Idealize.ShloMosaic Idealize.ShloMosaic.ValueIdx

theorem mmArr_of_block {M K N M' N' : Nat}
    (a : (⟨2, ![M, K]⟩ : Shape).Idx → EReal) (w : (⟨2, ![K, N]⟩ : Shape).Idx → EReal) (bias : (⟨2, ![1, N]⟩ : Shape).Idx → EReal)
    (a' : (⟨2, ![M', K]⟩ : Shape).Idx → EReal) (w' : (⟨2, ![K, N']⟩ : Shape).Idx → EReal) (bias' : (⟨2, ![1, N']⟩ : Shape).Idx → EReal)
    (j : (⟨2, ![M', N']⟩ : Shape).Idx) (i : (⟨2, ![M, N]⟩ : Shape).Idx)
    (ha : ∀ e : Fin K, a' (ix2 (j 0) e) = a (ix2 (i 0) e))
    (hw : ∀ e : Fin K, w' (ix2 e (j 1)) = w (ix2 e (i 1)))
    (hb : bias' (ix2 0 (j 1)) = bias (ix2 0 (i 1))) :
    mmArr a' w' bias' j = mmArr a w bias i := by
  unfold mmArr
  rw [hb]
  congr 1
  exact Finset.sum_congr rfl fun e _ => by rw [ha e, hw e]

end Cert.KSpec

end
-- ==== Proof.IdealFinal0.lean ====
import proofs.«157239_j88802743812872_2_alg».proof.Proof.IdealPayload
import proofs.«157239_j88802743812872_2_alg».proof.Proof.IdealRegion0
import proofs.«157239_j88802743812872_2_alg».proof.Proof.ProductBlock
import Idealize.ShloMosaic.Lib.Pipeline.Value
import Idealize.ShloMosaic.Lib.ValueIdx

/-! # Region 0, from blocks to the whole array

Grid point t = (r, s) of the 8 by 3 grid writes the 1024 by 1024 block at block row r and block column s of the
8192 by 3072 output. That block is the product of block row r of the left matrix (all 1024 inner columns) with
block column s of the right matrix (all 1024 inner rows) plus block s of the bias row. Entry (p, q) of the block is
therefore entry (r * 1024 + p, s * 1024 + q) of the product of the whole matrices plus the whole bias row, and the
24 blocks tile the output: the output array ends holding the whole product plus bias. -/

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps, decided over the 24 grid points: the left block follows the output's block row, the right
    block and the bias block follow its block column, and the output's block is (t / 3, t % 3). -/
theorem idx_facts0 : ∀ t : Fin cfg0.N,
    win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = 0 ∧ win0_2.index t (1 : Fin 2) = t.val % 3
    ∧ win0_3.index t (0 : Fin 2) = t.val / 3 ∧ win0_3.index t (1 : Fin 2) = t.val % 3 :=
  (by decide +kernel : ∀ t : Fin grid0.N, _)

/-- An entry of the left operand's block at a point is the entry of the whole left matrix in block row t / 3. -/
theorem left_block0_apply (c : Dev nD) (t : Fin cfg0.N) (y : S1024x1024.Idx) (i : S8192x1024.Idx)
    (h0 : (i 0).val = t.val / 3 * 1024 + (y 0).val) (h1 : (i 1).val = (y 1).val) :
    Fr.iblk0 V c 0 t y = V c main_v8 i := by
  obtain ⟨e0, e1, -⟩ := idx_facts0 t
  show V c main_v8 (((cfg0.win 0).blk t).view.emb y) = V c main_v8 i
  refine congrArg _ ?_
  funext a; apply Fin.ext
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- An entry of the right operand's block at a point is the entry of the whole right matrix in block column t % 3. -/
theorem right_block0_apply (c : Dev nD) (t : Fin cfg0.N) (y : S1024x1024.Idx) (i : S1024x3072.Idx)
    (h0 : (i 0).val = (y 0).val) (h1 : (i 1).val = t.val % 3 * 1024 + (y 1).val) :
    Fr.iblk0 V c 1 t y = V c main_v3 i := by
  obtain ⟨-, -, e0, e1, -⟩ := idx_facts0 t
  show V c main_v3 (((cfg0.win 1).blk t).view.emb y) = V c main_v3 i
  refine congrArg _ ?_
  funext a; apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- An entry of the bias block at a point is the entry of the whole bias row in block column t % 3. -/
theorem bias_block0_apply (c : Dev nD) (t : Fin cfg0.N) (y : S1x1024.Idx) (i : S1x3072.Idx)
    (h0 : (i 0).val = (y 0).val) (h1 : (i 1).val = t.val % 3 * 1024 + (y 1).val) :
    Fr.iblk0 V c 2 t y = V c main_v9 i := by
  obtain ⟨-, -, -, -, e0, e1, -⟩ := idx_facts0 t
  show V c main_v9 (((cfg0.win 2).blk t).view.emb y) = V c main_v9 i
  refine congrArg _ ?_
  funext a; apply Fin.ext
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-- The whole product plus bias of the arrays as the region finds them. -/
abbrev prod0 (c : Dev nD) : S8192x3072.Idx → EReal :=
  Cert.KSpec.mmArr (M := 8192) (K := 1024) (N := 3072) (V c main_v8) (V c main_v3) (V c main_v9)

/-- What a point writes back is its block of the whole product plus bias. -/
theorem flushed0_eq (c : Dev nD) (t : Fin cfg0.N) :
    (Fr.dat0 V c).flushed 3 t = ((cfg0.win 3).blk t).view.read (Elt Ideal) (prod0 V c) := by
  show (cfg0.win 3).cut (grid0.coords t) ((Fr.dat0 V c).after 3 t) = _
  rw [Fr.after0_3]
  obtain ⟨-, -, -, -, -, -, e0, e1⟩ := idx_facts0 t
  funext j
  show Fr.out0_3 (F := Ideal) (Fr.iblk0 V c 0 t) (Fr.iblk0 V c 1 t) (Fr.iblk0 V c 2 t) j
    = prod0 V c (((cfg0.win 3).blk t).view.emb j)
  refine (out0_3_apply (Fr.iblk0 V c 0 t) (Fr.iblk0 V c 1 t) (Fr.iblk0 V c 2 t) j).trans ?_
  have hj0 : (j 0).val < 1024 := (j 0).isLt
  have hj1 : (j 1).val < 1024 := (j 1).isLt
  have c0 : ((((cfg0.win 3).blk t).view.emb j) 0).val = t.val / 3 * 1024 + (j 0).val := by
    show win0_3.index t (0 : Fin 2) * 1024 + 1 * (j 0).val = _; omega
  have c1 : ((((cfg0.win 3).blk t).view.emb j) 1).val = t.val % 3 * 1024 + (j 1).val := by
    show win0_3.index t (1 : Fin 2) * 1024 + 1 * (j 1).val = _; omega
  exact Cert.KSpec.mmArr_of_block (V c main_v8) (V c main_v3) (V c main_v9) (Fr.iblk0 V c 0 t) (Fr.iblk0 V c 1 t) (Fr.iblk0 V c 2 t)
    j (((cfg0.win 3).blk t).view.emb j)
    (fun e => left_block0_apply V c t _ _ c0 rfl)
    (fun e => right_block0_apply V c t _ _ rfl c1)
    (bias_block0_apply V c t _ _ rfl c1)

/-- An index of the output is in a point's block iff each coordinate is in the block's range on its axis. -/
theorem mem_blk0 (t : Fin cfg0.N) (i : S8192x3072.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Every index of the output is in the block of the point (row / 1024, column / 1024). -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 24 := N_0
  obtain ⟨t, ht⟩ : ∃ t : Fin cfg0.N, t.val = (i 0).val / 1024 * 3 + (i 1).val / 1024 := ⟨⟨(i 0).val / 1024 * 3 + (i 1).val / 1024, by omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region: the whole product plus bias. -/
theorem final0 (c : Dev nD) : (Fr.dat0 V c).arrAt 3 cfg0.N
    = Cert.KSpec.mmArr (M := 8192) (K := 1024) (N := 3072) (V c main_v8) (V c main_v3) (V c main_v9) :=
  (Fr.dat0 V c).arrAt_eq_of_cover 3 (prod0 V c) (fun t _ => flushed0_eq V c t) cover0

end Cert.KernelIdeal.Val

end
-- ==== Proof.AttnBlock.lean ====
import proofs.«157239_j88802743812872_2_alg».proof.Proof.KSpec

/-! # A block of the attention computation is the matching part of the whole-array computation

The block-level functions of KSpec read three blocks: 256 query rows by 128 columns, and all 2048 key rows and
value rows by 128 columns, the 128 columns being two heads of 64 columns side by side. When head j of the blocks is
head h of batch b of the whole activation array and row p of the query block is query position q, that is when
every entry the block-level formulas read is the entry of the array the array-level formulas read, the scores agree
term by term, hence the row maxima (the same fold of the same function), the weights, the row sums, the
probabilities and the attended values. No sum or maximum is ever expanded: each is compared by congruence. -/

noncomputable section

namespace Cert.KSpec

open Idealize.ShloMosaic Idealize.ShloMosaic.ValueIdx

section
variable (Q : (⟨3, ![4, 2048, 3072]⟩ : Shape).Idx → EReal)
variable (x0 : (⟨3, ![1, 256, 128]⟩ : Shape).Idx → EReal) (x1 x2 : (⟨3, ![1, 2048, 128]⟩ : Shape).Idx → EReal)
variable (b : Fin 4) (h : Fin 16) (q : Fin 2048) (j : Fin 2) (p : Fin 256)

/-- The scores of head j of the blocks are the scores of head h of the array. -/
theorem bscore_eq_kscore
    (h0 : ∀ d : Fin 64, x0 (ix3 0 p (bcol j d)) = Q (ix3 b q (kcol 0 h d)))
    (h1 : ∀ (k : Fin 2048) (d : Fin 64), x1 (ix3 0 k (bcol j d)) = Q (ix3 b k (kcol 1 h d)))
    (k : Fin 2048) : bscore x0 x1 j p k = kscore Q b h q k := by
  unfold bscore kscore
  refine congrArg (· * ((1 / 8 : ℝ) : EReal)) ?_
  exact Finset.sum_congr rfl fun d _ => by rw [h0 d, h1 k d]

/-- Hence the row maxima agree, -/
theorem bmax_eq_kmax
    (h0 : ∀ d : Fin 64, x0 (ix3 0 p (bcol j d)) = Q (ix3 b q (kcol 0 h d)))
    (h1 : ∀ (k : Fin 2048) (d : Fin 64), x1 (ix3 0 k (bcol j d)) = Q (ix3 b k (kcol 1 h d))) :
    bmax x0 x1 j p = kmax Q b h q := by
  unfold bmax kmax
  exact congrArg (fun f => (Finset.univ : Finset (Fin 2048)).fold max ⊥ f) (funext fun k => bscore_eq_kscore Q x0 x1 b h q j p h0 h1 k)

/-- the weights, -/
theorem bweight_eq_kweight
    (h0 : ∀ d : Fin 64, x0 (ix3 0 p (bcol j d)) = Q (ix3 b q (kcol 0 h d)))
    (h1 : ∀ (k : Fin 2048) (d : Fin 64), x1 (ix3 0 k (bcol j d)) = Q (ix3 b k (kcol 1 h d)))
    (k : Fin 2048) : bweight x0 x1 j p k = kweight Q b h q k := by
  unfold bweight kweight
  rw [bscore_eq_kscore Q x0 x1 b h q j p h0 h1 k, bmax_eq_kmax Q x0 x1 b h q j p h0 h1]

/-- and the probabilities (at any spelling k' of the key position k). -/
theorem battn_eq_kattn
    (h0 : ∀ d : Fin 64, x0 (ix3 0 p (bcol j d)) = Q (ix3 b q (kcol 0 h d)))
    (h1 : ∀ (k : Fin 2048) (d : Fin 64), x1 (ix3 0 k (bcol j d)) = Q (ix3 b k (kcol 1 h d)))
    (k k' : Fin 2048) (hk : k'.val = k.val) : battn x0 x1 j p k = kattn Q b h q k' := by
  obtain rfl : k' = k := Fin.ext hk
  unfold battn kattn
  rw [bweight_eq_kweight Q x0 x1 b h q j p h0 h1 k']
  refine congrArg (Ideal.div (kweight Q b h q k')) ?_
  exact Finset.sum_congr rfl fun k'' _ => bweight_eq_kweight Q x0 x1 b h q j p h0 h1 k''

end

/-- The attended value in column e of the blocks (head e / 64 of the pair) is the attended value in column E of the
    array (head E / 64 of the sixteen) once that head's query, key and value entries match. -/
theorem bvals_eq_kvals (Q : (⟨3, ![4, 2048, 3072]⟩ : Shape).Idx → EReal)
    (x0 : (⟨3, ![1, 256, 128]⟩ : Shape).Idx → EReal) (x1 x2 : (⟨3, ![1, 2048, 128]⟩ : Shape).Idx → EReal)
    (b : Fin 4) (q : Fin 2048) (p : Fin 256) (e : Fin 128) (E : Fin 1024)
    (h0 : ∀ d : Fin 64, x0 (ix3 0 p (bcol ⟨e.val / 64, by omega⟩ d)) = Q (ix3 b q (kcol 0 ⟨E.val / 64, by omega⟩ d)))
    (h1 : ∀ (k : Fin 2048) (d : Fin 64), x1 (ix3 0 k (bcol ⟨e.val / 64, by omega⟩ d)) = Q (ix3 b k (kcol 1 ⟨E.val / 64, by omega⟩ d)))
    (h2 : ∀ k : Fin 2048, x2 (ix3 0 k e) = Q (ix3 b k (kcol 2 ⟨E.val / 64, by omega⟩ ⟨E.val % 64, by omega⟩))) :
    bvals x0 x1 x2 p e = kvals Q b q E := by
  unfold bvals kvals
  exact Finset.sum_congr rfl fun k _ => by
    rw [battn_eq_kattn Q x0 x1 b ⟨E.val / 64, by omega⟩ q ⟨e.val / 64, by omega⟩ p h0 h1 k k rfl, h2 k]

end Cert.KSpec

end
-- ==== Proof.IdealFinal1.lean ====
import proofs.«157239_j88802743812872_2_alg».proof.Proof.IdealPayload
import proofs.«157239_j88802743812872_2_alg».proof.Proof.IdealRegion1
import proofs.«157239_j88802743812872_2_alg».proof.Proof.AttnBlock
import Idealize.ShloMosaic.Lib.Pipeline.Value
import Idealize.ShloMosaic.Lib.ValueIdx

/-! # Region 1, from blocks to the whole arrays

Grid point t = (b, g, r) of the 4 by 8 by 8 grid (t = 64 b + 8 g + r) handles batch b, the pair of heads 2g and
2g + 1, and the 256 query positions 256 r .. 256 r + 255. Its three input blocks are parts of the one activation
array, whose 3072 columns are the query, key and value columns of the sixteen heads, 64 each: the query block is
rows 256 r .. of columns 128 g .. 128 g + 127; the key block is all 2048 rows of columns 1024 + 128 g ..; the value
block is all 2048 rows of columns 2048 + 128 g ... So column j * 64 + d of a block is column d of head 2g + j of its
kind. The point writes the probabilities of the two heads, 256 query rows by all 2048 keys, at (b, 2g + j, 256 r + p, k)
of the probability array, and the attended values at (b, 256 r + p, 128 g + e) of the value array. Each block entry
is therefore the array-level formula at the matching index, and the 256 blocks tile each output array. -/

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps of the three input windows, decided over the 256 grid points. -/
theorem idx_in1 : ∀ t : Fin cfg1.N,
    win1_0.index t (0 : Fin 3) = t.val / 64 ∧ win1_0.index t (1 : Fin 3) = t.val % 8 ∧ win1_0.index t (2 : Fin 3) = t.val / 8 % 8
    ∧ win1_1.index t (0 : Fin 3) = t.val / 64 ∧ win1_1.index t (1 : Fin 3) = 0 ∧ win1_1.index t (2 : Fin 3) = t.val / 8 % 8 + 8
    ∧ win1_2.index t (0 : Fin 3) = t.val / 64 ∧ win1_2.index t (1 : Fin 3) = 0 ∧ win1_2.index t (2 : Fin 3) = t.val / 8 % 8 + 16 :=
  (by decide +kernel : ∀ t : Fin grid1.N, _)

/-- The printed index map of the value output, decided over the grid. -/
theorem idx_vals1 : ∀ t : Fin cfg1.N,
    win1_3.index t (0 : Fin 3) = t.val / 64 ∧ win1_3.index t (1 : Fin 3) = t.val % 8 ∧ win1_3.index t (2 : Fin 3) = t.val / 8 % 8 :=
  (by decide +kernel : ∀ t : Fin grid1.N, _)

/-- The printed index map of the probability output, decided over the grid. -/
theorem idx_attn1 : ∀ t : Fin cfg1.N,
    win1_4.index t (0 : Fin 4) = t.val / 64 ∧ win1_4.index t (1 : Fin 4) = t.val / 8 % 8 ∧ win1_4.index t (2 : Fin 4) = t.val % 8
    ∧ win1_4.index t (3 : Fin 4) = 0 :=
  (by decide +kernel : ∀ t : Fin grid1.N, _)

/-- An entry of the query block at a point is the entry of the activation array at batch t / 64, rows 256 (t % 8) ..,
    columns 128 (t / 8 % 8) ... -/
theorem query_block_apply (c : Dev nD) (t : Fin cfg1.N) (y : S1x256x128.Idx) (i : S4x2048x3072.Idx)
    (h0 : (i 0).val = t.val / 64 + (y 0).val) (h1 : (i 1).val = t.val % 8 * 256 + (y 1).val)
    (h2 : (i 2).val = t.val / 8 % 8 * 128 + (y 2).val) :
    Fr.iblk1 V c 0 t y = V c main_v11 i := by
  obtain ⟨e0, e1, e2, -⟩ := idx_in1 t
  show V c main_v11 (((cfg1.win 0).blk t).view.emb y) = V c main_v11 i
  refine congrArg _ ?_
  funext a; apply Fin.ext
  match a with
  | ⟨0, _⟩ => show win1_0.index t (0 : Fin 3) * 1 + 1 * (y 0).val = (i 0).val; omega
  | ⟨1, _⟩ => show win1_0.index t (1 : Fin 3) * 256 + 1 * (y 1).val = (i 1).val; omega
  | ⟨2, _⟩ => show win1_0.index t (2 : Fin 3) * 128 + 1 * (y 2).val = (i 2).val; omega

/-- An entry of the key block at a point: batch t / 64, every row, columns 1024 + 128 (t / 8 % 8) ... -/
theorem key_block_apply (c : Dev nD) (t : Fin cfg1.N) (y : S1x2048x128.Idx) (i : S4x2048x3072.Idx)
    (h0 : (i 0).val = t.val / 64 + (y 0).val) (h1 : (i 1).val = (y 1).val)
    (h2 : (i 2).val = (t.val / 8 % 8 + 8) * 128 + (y 2).val) :
    Fr.iblk1 V c 1 t y = V c main_v11 i := by
  obtain ⟨-, -, -, e0, e1, e2, -⟩ := idx_in1 t
  show V c main_v11 (((cfg1.win 1).blk t).view.emb y) = V c main_v11 i
  refine congrArg _ ?_
  funext a; apply Fin.ext
  match a with
  | ⟨0, _⟩ => show win1_1.index t (0 : Fin 3) * 1 + 1 * (y 0).val = (i 0).val; omega
  | ⟨1, _⟩ => show win1_1.index t (1 : Fin 3) * 2048 + 1 * (y 1).val = (i 1).val; omega
  | ⟨2, _⟩ => show win1_1.index t (2 : Fin 3) * 128 + 1 * (y 2).val = (i 2).val; omega

/-- An entry of the value block at a point: batch t / 64, every row, columns 2048 + 128 (t / 8 % 8) ... -/
theorem value_block_apply (c : Dev nD) (t : Fin cfg1.N) (y : S1x2048x128.Idx) (i : S4x2048x3072.Idx)
    (h0 : (i 0).val = t.val / 64 + (y 0).val) (h1 : (i 1).val = (y 1).val)
    (h2 : (i 2).val = (t.val / 8 % 8 + 16) * 128 + (y 2).val) :
    Fr.iblk1 V c 2 t y = V c main_v11 i := by
  obtain ⟨-, -, -, -, -, -, e0, e1, e2⟩ := idx_in1 t
  show V c main_v11 (((cfg1.win 2).blk t).view.emb y) = V c main_v11 i
  refine congrArg _ ?_
  funext a; apply Fin.ext
  match a with
  | ⟨0, _⟩ => show win1_2.index t (0 : Fin 3) * 1 + 1 * (y 0).val = (i 0).val; omega
  | ⟨1, _⟩ => show win1_2.index t (1 : Fin 3) * 2048 + 1 * (y 1).val = (i 1).val; omega
  | ⟨2, _⟩ => show win1_2.index t (2 : Fin 3) * 128 + 1 * (y 2).val = (i 2).val; omega

/-- The probability block at any index: the index's batch coordinate can only be 0. -/
theorem out1_4_at (x0 : Vec Ideal S1x256x128 .bf16) (x1 : Vec Ideal S1x2048x128 .bf16) (y : S1x2x256x2048.Idx) :
    Fr.out1_4 (F := Ideal) x0 x1 y = Cert.KSpec.battn x0 x1 (y 1) (y 2) (y 3) := by
  have h0 : (y 0).val < 1 := (y 0).isLt
  obtain ⟨j, p, k, rfl⟩ : ∃ (j : Fin 2) (p : Fin 256) (k : Fin 2048), y = ix4 0 j p k :=
    ⟨y 1, y 2, y 3, funext fun a => match a with
      | ⟨0, _⟩ => Fin.ext (by show (y 0).val = 0; omega)
      | ⟨1, _⟩ => rfl | ⟨2, _⟩ => rfl | ⟨3, _⟩ => rfl⟩
  exact out1_4_apply x0 x1 j p k

/-- Head j, query row p, key k of a point's blocks is head 2 (t / 8 % 8) + j, query position 256 (t % 8) + p, key k of
    batch t / 64 of the array. -/
theorem attn_block_eq (c : Dev nD) (t : Fin cfg1.N) (j : Fin 2) (p : Fin 256) (k : Fin 2048) (i : S4x16x2048x2048.Idx)
    (c0 : (i 0).val = t.val / 64) (c1 : (i 1).val = t.val / 8 % 8 * 2 + j.val)
    (c2 : (i 2).val = t.val % 8 * 256 + p.val) (c3 : (i 3).val = k.val) :
    Cert.KSpec.battn (Fr.iblk1 V c 0 t) (Fr.iblk1 V c 1 t) j p k = Cert.KSpec.attnArrK (V c main_v11) i := by
  show _ = Cert.KSpec.kattn (V c main_v11) (i 0) (i 1) (i 2) (i 3)
  refine Cert.KSpec.battn_eq_kattn (V c main_v11) (Fr.iblk1 V c 0 t) (Fr.iblk1 V c 1 t) (i 0) (i 1) (i 2) j p ?_ ?_ k (i 3) c3
  · intro d
    refine query_block_apply V c t _ _ ?_ ?_ ?_
    · show (i 0).val = t.val / 64 + 0; omega
    · show (i 2).val = t.val % 8 * 256 + p.val; omega
    · show 0 * 1024 + (i 1).val * 64 + d.val = t.val / 8 % 8 * 128 + (j.val * 64 + d.val); omega
  · intro k' d
    refine key_block_apply V c t _ _ ?_ ?_ ?_
    · show (i 0).val = t.val / 64 + 0; omega
    · show k'.val = k'.val; rfl
    · show 1 * 1024 + (i 1).val * 64 + d.val = (t.val / 8 % 8 + 8) * 128 + (j.val * 64 + d.val); omega

/-- What a point writes back to the probability array is its block of the whole-array probabilities. -/
theorem flushed1_4_eq (c : Dev nD) (t : Fin cfg1.N) :
    (Fr.dat1 V c).flushed 4 t = ((cfg1.win 4).blk t).view.read (Elt Ideal) (Cert.KSpec.attnArrK (V c main_v11)) := by
  show (cfg1.win 4).cut (grid1.coords t) ((Fr.dat1 V c).after 4 t) = _
  rw [Fr.after1_4]
  obtain ⟨e0, e1, e2, e3⟩ := idx_attn1 t
  funext y
  show Fr.out1_4 (F := Ideal) (Fr.iblk1 V c 0 t) (Fr.iblk1 V c 1 t) y
    = Cert.KSpec.attnArrK (V c main_v11) (((cfg1.win 4).blk t).view.emb y)
  refine (out1_4_at (Fr.iblk1 V c 0 t) (Fr.iblk1 V c 1 t) y).trans ?_
  have hy0 : (y 0).val < 1 := (y 0).isLt
  refine attn_block_eq V c t (y 1) (y 2) (y 3) (((cfg1.win 4).blk t).view.emb y) ?_ ?_ ?_ ?_
  · show win1_4.index t (0 : Fin 4) * 1 + 1 * (y 0).val = _; omega
  · show win1_4.index t (1 : Fin 4) * 2 + 1 * (y 1).val = _; omega
  · show win1_4.index t (2 : Fin 4) * 256 + 1 * (y 2).val = _; omega
  · show win1_4.index t (3 : Fin 4) * 2048 + 1 * (y 3).val = _; omega

/-- An index of the probability array is in a point's block iff each coordinate is in the block's range on its axis. -/
theorem mem_blk1_4 (t : Fin cfg1.N) (i : S4x16x2048x2048.Idx) :
    i ∈ ((cfg1.win 4).blk t).view.set ↔ ∀ a : Fin 4, win1_4.index t a * S1x2x256x2048.size a ≤ (i a).val ∧ (i a).val < win1_4.index t a * S1x2x256x2048.size a + S1x2x256x2048.size a := by
  show i ∈ ((View.whole main_v12_1).slice (win1_4.rect t)).set ↔ _
  rw [View.set_slice_whole, Rect.mem_set_unit]
  exact Iff.rfl

/-- Every index (b, h, q, k) of the probability array is in the block of the point (b, h / 2, q / 256). -/
theorem cover1_4 (i : S4x16x2048x2048.Idx) : ∃ t : Fin cfg1.N, (cfg1.win 4).flush t = true ∧ i ∈ ((cfg1.win 4).blk t).view.set := by
  have hi0 : (i 0).val < 4 := (i 0).isLt
  have hi1 : (i 1).val < 16 := (i 1).isLt
  have hi2 : (i 2).val < 2048 := (i 2).isLt
  have hi3 : (i 3).val < 2048 := (i 3).isLt
  have hN : cfg1.N = 256 := N_1
  obtain ⟨t, ht⟩ : ∃ t : Fin cfg1.N, t.val = (i 0).val * 64 + (i 1).val / 2 * 8 + (i 2).val / 256 :=
    ⟨⟨(i 0).val * 64 + (i 1).val / 2 * 8 + (i 2).val / 256, by omega⟩, rfl⟩
  obtain ⟨e0, e1, e2, e3⟩ := idx_attn1 t
  refine ⟨t, flush1_4 t, ?_⟩
  rw [mem_blk1_4]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 2 ≤ (i 1).val ∧ (i 1).val < win1_4.index t (1 : Fin 4) * 2 + 2; omega
  | ⟨2, _⟩ => show win1_4.index t (2 : Fin 4) * 256 ≤ (i 2).val ∧ (i 2).val < win1_4.index t (2 : Fin 4) * 256 + 256; omega
  | ⟨3, _⟩ => show win1_4.index t (3 : Fin 4) * 2048 ≤ (i 3).val ∧ (i 3).val < win1_4.index t (3 : Fin 4) * 2048 + 2048; omega

/-- The probability array after the region: the whole-array attention probabilities. -/
theorem final1_attn (c : Dev nD) : (Fr.dat1 V c).arrAt 4 cfg1.N = Cert.KSpec.attnArrK (V c main_v11) :=
  (Fr.dat1 V c).arrAt_eq_of_cover 4 (Cert.KSpec.attnArrK (V c main_v11)) (fun t _ => flushed1_4_eq V c t) cover1_4

/-- The value block at any index: the index's batch coordinate can only be 0. -/
theorem out1_3_at (x0 : Vec Ideal S1x256x128 .bf16) (x1 x2 : Vec Ideal S1x2048x128 .bf16) (y : S1x256x128.Idx) :
    Fr.out1_3 (F := Ideal) x0 x1 x2 y = Cert.KSpec.bvals x0 x1 x2 (y 1) (y 2) := by
  have h0 : (y 0).val < 1 := (y 0).isLt
  obtain ⟨p, e, rfl⟩ : ∃ (p : Fin 256) (e : Fin 128), y = ix3 0 p e :=
    ⟨y 1, y 2, funext fun a => match a with
      | ⟨0, _⟩ => Fin.ext (by show (y 0).val = 0; omega)
      | ⟨1, _⟩ => rfl | ⟨2, _⟩ => rfl⟩
  exact out1_3_apply x0 x1 x2 p e

/-- Query row p, column e of a point's value block is query position 256 (t % 8) + p, column 128 (t / 8 % 8) + e of
    batch t / 64 of the array-level attended values: the column's head is 2 (t / 8 % 8) + e / 64 and its place in
    the head is e % 64. -/
theorem vals_block_eq (c : Dev nD) (t : Fin cfg1.N) (p : Fin 256) (e : Fin 128) (i : S4x2048x1024.Idx)
    (c0 : (i 0).val = t.val / 64) (c1 : (i 1).val = t.val % 8 * 256 + p.val)
    (c2 : (i 2).val = t.val / 8 % 8 * 128 + e.val) :
    Cert.KSpec.bvals (Fr.iblk1 V c 0 t) (Fr.iblk1 V c 1 t) (Fr.iblk1 V c 2 t) p e = Cert.KSpec.valsArrK (V c main_v11) i := by
  show _ = Cert.KSpec.kvals (V c main_v11) (i 0) (i 1) (i 2)
  have he : e.val < 128 := e.isLt
  have ht : t.val / 8 % 8 < 8 := Nat.mod_lt _ (by decide)
  refine Cert.KSpec.bvals_eq_kvals (V c main_v11) (Fr.iblk1 V c 0 t) (Fr.iblk1 V c 1 t) (Fr.iblk1 V c 2 t) (i 0) (i 1) p e (i 2) ?_ ?_ ?_
  · intro d
    refine query_block_apply V c t _ _ ?_ ?_ ?_
    · show (i 0).val = t.val / 64 + 0; omega
    · show (i 1).val = t.val % 8 * 256 + p.val; omega
    · show 0 * 1024 + (i 2).val / 64 * 64 + d.val = t.val / 8 % 8 * 128 + (e.val / 64 * 64 + d.val); omega
  · intro k d
    refine key_block_apply V c t _ _ ?_ ?_ ?_
    · show (i 0).val = t.val / 64 + 0; omega
    · show k.val = k.val; rfl
    · show 1 * 1024 + (i 2).val / 64 * 64 + d.val = (t.val / 8 % 8 + 8) * 128 + (e.val / 64 * 64 + d.val); omega
  · intro k
    refine value_block_apply V c t _ _ ?_ ?_ ?_
    · show (i 0).val = t.val / 64 + 0; omega
    · show k.val = k.val; rfl
    · show 2 * 1024 + (i 2).val / 64 * 64 + (i 2).val % 64 = (t.val / 8 % 8 + 16) * 128 + e.val; omega

/-- What a point writes back to the value array is its block of the whole-array attended values. -/
theorem flushed1_3_eq (c : Dev nD) (t : Fin cfg1.N) :
    (Fr.dat1 V c).flushed 3 t = ((cfg1.win 3).blk t).view.read (Elt Ideal) (Cert.KSpec.valsArrK (V c main_v11)) := by
  show (cfg1.win 3).cut (grid1.coords t) ((Fr.dat1 V c).after 3 t) = _
  rw [Fr.after1_3]
  obtain ⟨e0, e1, e2⟩ := idx_vals1 t
  funext y
  show Fr.out1_3 (F := Ideal) (Fr.iblk1 V c 0 t) (Fr.iblk1 V c 1 t) (Fr.iblk1 V c 2 t) y
    = Cert.KSpec.valsArrK (V c main_v11) (((cfg1.win 3).blk t).view.emb y)
  refine (out1_3_at (Fr.iblk1 V c 0 t) (Fr.iblk1 V c 1 t) (Fr.iblk1 V c 2 t) y).trans ?_
  have hy0 : (y 0).val < 1 := (y 0).isLt
  refine vals_block_eq V c t (y 1) (y 2) (((cfg1.win 3).blk t).view.emb y) ?_ ?_ ?_
  · show win1_3.index t (0 : Fin 3) * 1 + 1 * (y 0).val = _; omega
  · show win1_3.index t (1 : Fin 3) * 256 + 1 * (y 1).val = _; omega
  · show win1_3.index t (2 : Fin 3) * 128 + 1 * (y 2).val = _; omega

/-- An index of the value array is in a point's block iff each coordinate is in the block's range on its axis. -/
theorem mem_blk1_3 (t : Fin cfg1.N) (i : S4x2048x1024.Idx) :
    i ∈ ((cfg1.win 3).blk t).view.set ↔ ∀ a : Fin 3, win1_3.index t a * S1x256x128.size a ≤ (i a).val ∧ (i a).val < win1_3.index t a * S1x256x128.size a + S1x256x128.size a := by
  show i ∈ ((View.whole main_v12_0).slice (win1_3.rect t)).set ↔ _
  rw [View.set_slice_whole, Rect.mem_set_unit]
  exact Iff.rfl

/-- Every index (b, q, E) of the value array is in the block of the point (b, E / 128, q / 256). -/
theorem cover1_3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 256 := N_1
  obtain ⟨t, ht⟩ : ∃ t : Fin cfg1.N, t.val = (i 0).val * 64 + (i 2).val / 128 * 8 + (i 1).val / 256 :=
    ⟨⟨(i 0).val * 64 + (i 2).val / 128 * 8 + (i 1).val / 256, by omega⟩, rfl⟩
  obtain ⟨e0, e1, e2⟩ := idx_vals1 t
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 128 ≤ (i 2).val ∧ (i 2).val < win1_3.index t (2 : Fin 3) * 128 + 128; omega

/-- The value array after the region: the whole-array attended values. -/
theorem final1_vals (c : Dev nD) : (Fr.dat1 V c).arrAt 3 cfg1.N = Cert.KSpec.valsArrK (V c main_v11) :=
  (Fr.dat1 V c).arrAt_eq_of_cover 3 (Cert.KSpec.valsArrK (V c main_v11)) (fun t _ => flushed1_3_eq V c t) cover1_3

end Cert.KernelIdeal.Val

end
-- ==== Proof.IdealFinal2.lean ====
import proofs.«157239_j88802743812872_2_alg».proof.Proof.IdealPayload
import proofs.«157239_j88802743812872_2_alg».proof.Proof.IdealRegion2
import proofs.«157239_j88802743812872_2_alg».proof.Proof.ProductBlock
import Idealize.ShloMosaic.Lib.Pipeline.Value
import Idealize.ShloMosaic.Lib.ValueIdx

/-! # Region 2, from blocks to the whole array

Grid point t of the 8 by 1 grid writes the 1024 by 1024 block at block row t of the 8192 by 1024 output. That block
is the product of block row t of the left matrix (all 1024 inner columns) with the whole 1024 by 1024 right matrix
plus the whole bias row. Entry (p, q) of the block is therefore entry (t * 1024 + p, q) of the product of the whole
matrices plus the bias row, and the 8 blocks tile the output: the output array ends holding the whole product plus
bias. -/

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps, decided over the 8 grid points: the left block and the output block are block row t; the
    right matrix and the bias row are read whole. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An entry of the left operand's block at a point is the entry of the whole left matrix in block row t. -/
theorem left_block2_apply (c : Dev nD) (t : Fin cfg2.N) (y : S1024x1024.Idx) (i : S8192x1024.Idx)
    (h0 : (i 0).val = t.val * 1024 + (y 0).val) (h1 : (i 1).val = (y 1).val) :
    Fr.iblk2 V c 0 t y = V c main_v14 i := by
  obtain ⟨e0, e1, -⟩ := idx_facts2 t
  show V c main_v14 (((cfg2.win 0).blk t).view.emb y) = V c main_v14 i
  refine congrArg _ ?_
  funext a; apply Fin.ext
  match a with
  | ⟨0, _⟩ => show win2_0.index t (0 : Fin 2) * 1024 + 1 * (y 0).val = (i 0).val; omega
  | ⟨1, _⟩ => show win2_0.index t (1 : Fin 2) * 1024 + 1 * (y 1).val = (i 1).val; omega

/-- The right operand's block at every point is the whole right matrix. -/
theorem right_block2_apply (c : Dev nD) (t : Fin cfg2.N) (y : S1024x1024.Idx) (i : S1024x1024.Idx)
    (h0 : (i 0).val = (y 0).val) (h1 : (i 1).val = (y 1).val) :
    Fr.iblk2 V c 1 t y = V c main_v13 i := by
  obtain ⟨-, -, e0, e1, -⟩ := idx_facts2 t
  show V c main_v13 (((cfg2.win 1).blk t).view.emb y) = V c main_v13 i
  refine congrArg _ ?_
  funext a; apply Fin.ext
  match a with
  | ⟨0, _⟩ => show win2_1.index t (0 : Fin 2) * 1024 + 1 * (y 0).val = (i 0).val; omega
  | ⟨1, _⟩ => show win2_1.index t (1 : Fin 2) * 1024 + 1 * (y 1).val = (i 1).val; omega

/-- The bias block at every point is the whole bias row. -/
theorem bias_block2_apply (c : Dev nD) (t : Fin cfg2.N) (y : S1x1024.Idx) (i : S1x1024.Idx)
    (h0 : (i 0).val = (y 0).val) (h1 : (i 1).val = (y 1).val) :
    Fr.iblk2 V c 2 t y = V c main_v15 i := by
  obtain ⟨-, -, -, -, e0, e1, -⟩ := idx_facts2 t
  show V c main_v15 (((cfg2.win 2).blk t).view.emb y) = V c main_v15 i
  refine congrArg _ ?_
  funext a; apply Fin.ext
  match a with
  | ⟨0, _⟩ => show win2_2.index t (0 : Fin 2) * 1 + 1 * (y 0).val = (i 0).val; omega
  | ⟨1, _⟩ => show win2_2.index t (1 : Fin 2) * 1024 + 1 * (y 1).val = (i 1).val; omega

/-- The whole product plus bias of the arrays as the region finds them. -/
abbrev prod2 (c : Dev nD) : S8192x1024.Idx → EReal :=
  Cert.KSpec.mmArr (M := 8192) (K := 1024) (N := 1024) (V c main_v14) (V c main_v13) (V c main_v15)

/-- What a point writes back is its block of the whole product plus bias. -/
theorem flushed2_eq (c : Dev nD) (t : Fin cfg2.N) :
    (Fr.dat2 V c).flushed 3 t = ((cfg2.win 3).blk t).view.read (Elt Ideal) (prod2 V c) := by
  show (cfg2.win 3).cut (grid2.coords t) ((Fr.dat2 V c).after 3 t) = _
  rw [Fr.after2_3]
  obtain ⟨-, -, -, -, -, -, e0, e1⟩ := idx_facts2 t
  funext j
  show Fr.out2_3 (F := Ideal) (Fr.iblk2 V c 0 t) (Fr.iblk2 V c 1 t) (Fr.iblk2 V c 2 t) j
    = prod2 V c (((cfg2.win 3).blk t).view.emb j)
  refine (out2_3_apply (Fr.iblk2 V c 0 t) (Fr.iblk2 V c 1 t) (Fr.iblk2 V c 2 t) j).trans ?_
  have hj0 : (j 0).val < 1024 := (j 0).isLt
  have hj1 : (j 1).val < 1024 := (j 1).isLt
  have c0 : ((((cfg2.win 3).blk t).view.emb j) 0).val = t.val * 1024 + (j 0).val := by
    show win2_3.index t (0 : Fin 2) * 1024 + 1 * (j 0).val = _; omega
  have c1 : ((((cfg2.win 3).blk t).view.emb j) 1).val = (j 1).val := by
    show win2_3.index t (1 : Fin 2) * 1024 + 1 * (j 1).val = _; omega
  exact Cert.KSpec.mmArr_of_block (V c main_v14) (V c main_v13) (V c main_v15) (Fr.iblk2 V c 0 t) (Fr.iblk2 V c 1 t) (Fr.iblk2 V c 2 t)
    j (((cfg2.win 3).blk t).view.emb j)
    (fun e => left_block2_apply V c t _ _ c0 rfl)
    (fun e => right_block2_apply V c t _ _ rfl c1)
    (bias_block2_apply V c t _ _ rfl c1)

/-- An index of the output is in a point's block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v16).slice (win2_3.rect t)).set ↔ _
  rw [View.set_slice_whole, Rect.mem_set_unit]
  exact Iff.rfl

/-- Every index of the output is in the block of the point row / 1024. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region: the whole product plus bias. -/
theorem final2 (c : Dev nD) : (Fr.dat2 V c).arrAt 3 cfg2.N
    = Cert.KSpec.mmArr (M := 8192) (K := 1024) (N := 1024) (V c main_v14) (V c main_v13) (V c main_v15) :=
  (Fr.dat2 V c).arrAt_eq_of_cover 3 (prod2 V c) (fun t _ => flushed2_eq V c t) cover2

end Cert.KernelIdeal.Val

end
-- ==== Proof.IdealValue.lean ====
import proofs.«157239_j88802743812872_2_alg».proof.Proof.IdealHost
import proofs.«157239_j88802743812872_2_alg».proof.Proof.IdealFinal0
import proofs.«157239_j88802743812872_2_alg».proof.Proof.IdealFinal1
import proofs.«157239_j88802743812872_2_alg».proof.Proof.IdealFinal2

/-! # The kernel program's two results are the specification's

Region 0's result, unflattened, holds the specification's projected activations in the kind-major column order
(the host re-laid the weights' columns accordingly); so region 1's probabilities and attended values are the
specification's; so region 2's product of the flattened attended values with the output matrix, plus its bias,
unflattened, is the specification's output. -/

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Cert.Bridge (row)
open Cert.KSpec (kcol)
open Cert.Spec (col)

variable (m : (ℓ : Loc nD τ sig) → Buf (Elt Ideal) ℓ) (ρ : Dev nD → PrngReg)

/-- The activations entering region 1 hold the specification's projected activations, kind by kind. -/
theorem acts_eq (c : Dev nD) (b : Fin 4) (s : Fin 2048) (ty : Fin 3) (h : Fin 16) (d : Fin 64) :
    Fr.W3 (F := Ideal) m ρ c (Proc.devRef .tc main_v11) (ix3 b s (kcol ty h d))
      = Cert.Spec.proj (m ((c : Thread nD τ).loc main_arg0)) (m ((c : Thread nD τ).loc main_arg1)) (m ((c : Thread nD τ).loc main_arg2)) b s (col h ty d) := by
  rw [v11_apply]
  have e : Fr.W2 (F := Ideal) m ρ c (Proc.devRef .tc main_v10)
      = Cert.KSpec.mmArr (M := 8192) (K := 1024) (N := 3072) (Fr.V1 (F := Ideal) m ρ c main_v8) (Fr.V1 (F := Ideal) m ρ c main_v3) (Fr.V1 (F := Ideal) m ρ c main_v9) :=
    (Fr.W2_arr m ρ c 3).trans (final0 (Fr.V1 (F := Ideal) m ρ) c)
  rw [e]
  exact Cert.Bridge.proj_of_product _ _ _ _ _ _ (v8_apply m ρ c) (v3_apply m ρ c) (v9_apply m ρ c) b s ty h d

/-- The probabilities the program returns are the specification's. -/
theorem attn_value (c : Dev nD) :
    Fr.W7 (F := Ideal) m ρ c (Proc.devRef .tc main_v12_1)
      = Cert.Spec.attnArr (m ((c : Thread nD τ).loc main_arg0)) (m ((c : Thread nD τ).loc main_arg1)) (m ((c : Thread nD τ).loc main_arg2)) :=
  (W7_v12_1 m ρ c).trans <| (Fr.W4_out4 m ρ c).trans <| (final1_attn (Fr.V3 (F := Ideal) m ρ) c).trans <|
    Cert.Bridge.attnArr_eq _ _ _ _ (acts_eq m ρ c)

/-- The output the program returns is the specification's. -/
theorem out_value (c : Dev nD) :
    Fr.W7 (F := Ideal) m ρ c (Proc.devRef .tc main_v17)
      = Cert.Spec.outArr (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, s, f, rfl⟩ : ∃ (b : Fin 4) (s : Fin 2048) (f : Fin 1024), i = ix3 b s f := ⟨i 0, i 1, i 2, eq_ix3 i⟩
  rw [v17_apply]
  have e : Fr.W6 (F := Ideal) m ρ c (Proc.devRef .tc main_v16)
      = Cert.KSpec.mmArr (M := 8192) (K := 1024) (N := 1024) (Fr.V5 (F := Ideal) m ρ c main_v14) (Fr.V5 (F := Ideal) m ρ c main_v13) (Fr.V5 (F := Ideal) m ρ c main_v15) :=
    (Fr.W6_arr m ρ c 3).trans (final2 (Fr.V5 (F := Ideal) m ρ) c)
  rw [e]
  exact Cert.Bridge.out_of_product _ _ _ _ _ (Fr.W3 (F := Ideal) m ρ c (Proc.devRef .tc main_v11)) (acts_eq m ρ c) _ _ _
    (fun b s e => (v14_apply m ρ c b s e).trans (congrFun ((Fr.W4_out3 m ρ c).trans (final1_vals (Fr.V3 (F := Ideal) m ρ) c)) (ix3 b s e)))
    (v13_apply m ρ c) (v15_apply m ρ c) b s f

/-- THE KERNEL PROGRAM'S RUN WITH ITS VALUES: every weakly fair execution terminates, nothing faulting, with the two
    results at the specification's arrays of the arguments and the arguments unchanged. -/
theorem run_value : θ_run defs (onTc (τ := τ) (main (F := Ideal))) ⟨m, fun _ => 0, ρ⟩ (fun r => ∀ c : Dev nD,
      r.2.mem ((c.tc : Thread nD τ).loc main_v17) = Cert.Spec.outArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v12_1) = Cert.Spec.attnArr (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (Fr.mem_uc main_v17 (by decide))).trans (out_value m ρ c),
     (h c _ (Fr.mem_uc main_v12_1 (by decide))).trans (attn_value m ρ c),
     (h c _ (Fr.mem_uc main_arg0 (by decide))).trans (Fr.W7_main_arg0 m ρ c),
     (h c _ (Fr.mem_uc main_arg1 (by decide))).trans (Fr.W7_main_arg1 m ρ c),
     (h c _ (Fr.mem_uc main_arg2 (by decide))).trans (Fr.W7_main_arg2 m ρ c),
     (h c _ (Fr.mem_uc main_arg3 (by decide))).trans (Fr.W7_main_arg3 m ρ c),
     (h c _ (Fr.mem_uc main_arg4 (by decide))).trans (Fr.W7_main_arg4 m ρ c)⟩) (Fr.run_all m ρ)

end Cert.KernelIdeal.Val

end
-- ==== Proof.RefProj.lean ====
import proofs.«157239_j88802743812872_2_alg».proof.Proof.Gen.ReferenceIdeal.Read
import proofs.«157239_j88802743812872_2_alg».proof.Proof.Spec

/-! # The reference, stage by stage: projection, heads, scores

The reference program computes the projected activations by one matrix product and a broadcast bias, regroups
their 3072 columns as 16 heads of 192 (a reshape and a transpose), cuts each head's 192 columns into queries,
keys and values (three slices), and takes the scaled dot products of queries and keys. Each stage is read here at
an index built from its coordinates and identified with the specification's entry: the reshape of row-major
position ((b*2048 + s)*16 + h)*192 + c back to (b, s, h*192 + c) is integer arithmetic, the division by the
literal 8.0 is the product with the real 1/8. -/

noncomputable section

namespace Cert.RefSpec

open Idealize.ShloMosaic Idealize.ShloMosaic.ValueIdx Cert.ReferenceIdeal Cert.ReferenceIdeal.Gen Cert.ReferenceIdeal.Read

variable (x0 : (⟨S4x2048x1024, .f32⟩ : BufTy).Contents (Elt Ideal)) (x1 : (⟨S1024x3072, .f32⟩ : BufTy).Contents (Elt Ideal))
  (x2 : (⟨S3072, .f32⟩ : BufTy).Contents (Elt Ideal))

/-! ## The projection -/

theorem lidx_v0 (b : Fin 4) (s : Fin 2048) (f : Fin 3072) (k : Fin 1024) :
    lidx_main_v0 (ix3 b s f) k = ix3 b s k :=
  funext fun a => Fin.ext (by match a with | ⟨0, _⟩ => rfl | ⟨1, _⟩ => rfl | ⟨2, _⟩ => rfl)

theorem ridx_v0 (b : Fin 4) (s : Fin 2048) (f : Fin 3072) (k : Fin 1024) :
    ridx_main_v0 (ix3 b s f) k = ix2 k f :=
  funext fun a => Fin.ext (by match a with | ⟨0, _⟩ => rfl | ⟨1, _⟩ => rfl)

theorem idx_v2 (b : Fin 4) (s : Fin 2048) (f : Fin 3072) :
    idx_main_v1 (idx_main_v2 (ix3 b s f)) = ix1 f :=
  funext fun a => Fin.ext (by match a with | ⟨0, _⟩ => rfl)

/-- The sum of the matrix product and the broadcast bias is the specification's projected activation. -/
theorem proj_eq (b : Fin 4) (s : Fin 2048) (f : Fin 3072) :
    val_main_v3 (F := Ideal) x0 x1 x2 (ix3 b s f) = Cert.Spec.proj x0 x1 x2 b s f := by
  rw [val_main_v3_apply, val_main_v0_apply, val_main_v2_apply, val_main_v1_apply, idx_v2]
  simp only [lidx_v0, ridx_v0, Ideal.addf_def]
  rfl

/-! ## Queries, keys and values: the head's columns -/

/-- Row-major position of (b, s, h, c) in [4, 2048, 16, 192], read back in [4, 2048, 3072], is (b, s, h*192 + c). -/
theorem idx_head (b : Fin 4) (h : Fin 16) (s : Fin 2048) (c : Fin 192) (f : Fin 3072) (hf : f.val = h.val * 192 + c.val) :
    idx_main_v4 (idx_main_v5 (ix4 b h s c)) = ix3 b s f :=
  funext fun a => Fin.ext (by
    have hb := b.isLt; have hh := h.isLt; have hs := s.isLt; have hc := c.isLt
    match a with
    | ⟨0, _⟩ => show (((b.val * 2048 + s.val) * 16 + h.val) * 192 + c.val) / 6291456 = b.val; omega
    | ⟨1, _⟩ => show (((b.val * 2048 + s.val) * 16 + h.val) * 192 + c.val) / 3072 % 2048 = s.val; omega
    | ⟨2, _⟩ => show (((b.val * 2048 + s.val) * 16 + h.val) * 192 + c.val) % 3072 = f.val; omega)

/-- The regrouped and transposed activations at (b, h, s, c) are the projection's column h*192 + c. -/
theorem head_eq (b : Fin 4) (h : Fin 16) (s : Fin 2048) (c : Fin 192) (f : Fin 3072) (hf : f.val = h.val * 192 + c.val) :
    val_main_v5 (F := Ideal) x0 x1 x2 (ix4 b h s c) = Cert.Spec.proj x0 x1 x2 b s f := by
  rw [val_main_v5_apply, val_main_v4_apply, idx_head b h s c f hf]
  exact proj_eq x0 x1 x2 b s f

theorem idx_v6 (b : Fin 4) (h : Fin 16) (s : Fin 2048) (d : Fin 64) :
    idx_main_v6 (ix4 b h s d) = ix4 b h s (⟨d.val, by omega⟩ : Fin 192) :=
  funext fun a => Fin.ext (by match a with | ⟨0, _⟩ => rfl | ⟨1, _⟩ => rfl | ⟨2, _⟩ => rfl | ⟨3, _⟩ => rfl)

theorem idx_v7 (b : Fin 4) (h : Fin 16) (s : Fin 2048) (d : Fin 64) :
    idx_main_v7 (ix4 b h s d) = ix4 b h s (⟨64 + d.val, by omega⟩ : Fin 192) :=
  funext fun a => Fin.ext (by match a with | ⟨0, _⟩ => rfl | ⟨1, _⟩ => rfl | ⟨2, _⟩ => rfl | ⟨3, _⟩ => rfl)

theorem idx_v8 (b : Fin 4) (h : Fin 16) (s : Fin 2048) (d : Fin 64) :
    idx_main_v8 (ix4 b h s d) = ix4 b h s (⟨128 + d.val, by omega⟩ : Fin 192) :=
  funext fun a => Fin.ext (by match a with | ⟨0, _⟩ => rfl | ⟨1, _⟩ => rfl | ⟨2, _⟩ => rfl | ⟨3, _⟩ => rfl)

/-- The first slice holds the queries. -/
theorem query_eq (b : Fin 4) (h : Fin 16) (s : Fin 2048) (d : Fin 64) :
    val_main_v6 (F := Ideal) x0 x1 x2 (ix4 b h s d) = Cert.Spec.proj x0 x1 x2 b s (Cert.Spec.col h 0 d) := by
  rw [val_main_v6_apply, idx_v6]
  exact head_eq x0 x1 x2 b h s _ _ (by show h.val * 192 + 0 * 64 + d.val = h.val * 192 + d.val; omega)

/-- The second slice holds the keys. -/
theorem key_eq (b : Fin 4) (h : Fin 16) (s : Fin 2048) (d : Fin 64) :
    val_main_v7 (F := Ideal) x0 x1 x2 (ix4 b h s d) = Cert.Spec.proj x0 x1 x2 b s (Cert.Spec.col h 1 d) := by
  rw [val_main_v7_apply, idx_v7]
  exact head_eq x0 x1 x2 b h s _ _ (by show h.val * 192 + 1 * 64 + d.val = h.val * 192 + (64 + d.val); omega)

/-- The third slice holds the values. -/
theorem value_eq (b : Fin 4) (h : Fin 16) (s : Fin 2048) (d : Fin 64) :
    val_main_v8 (F := Ideal) x0 x1 x2 (ix4 b h s d) = Cert.Spec.proj x0 x1 x2 b s (Cert.Spec.col h 2 d) := by
  rw [val_main_v8_apply, idx_v8]
  exact head_eq x0 x1 x2 b h s _ _ (by show h.val * 192 + 2 * 64 + d.val = h.val * 192 + (128 + d.val); omega)

/-! ## The scores -/

theorem lidx_v9 (b : Fin 4) (h : Fin 16) (q k : Fin 2048) (d : Fin 64) :
    lidx_main_v9 (ix4 b h q k) d = ix4 b h q d :=
  funext fun a => Fin.ext (by match a with | ⟨0, _⟩ => rfl | ⟨1, _⟩ => rfl | ⟨2, _⟩ => rfl | ⟨3, _⟩ => rfl)

theorem ridx_v9 (b : Fin 4) (h : Fin 16) (q k : Fin 2048) (d : Fin 64) :
    ridx_main_v9 (ix4 b h q k) d = ix4 b h k d :=
  funext fun a => Fin.ext (by match a with | ⟨0, _⟩ => rfl | ⟨1, _⟩ => rfl | ⟨2, _⟩ => rfl | ⟨3, _⟩ => rfl)

/-- The pattern 0x41000000 denotes the real 8. -/
theorem ofBits_eight : Ideal.ofBits .f32 0x41000000#32 = ((8 : ℝ) : EReal) := by
  simp [Ideal.ofBits, Ideal.ieee, -EReal.coe_mul]; norm_num

/-- The dot product of a query and a key, divided by 8.0, is the specification's scaled score. -/
theorem score_eq (b : Fin 4) (h : Fin 16) (q k : Fin 2048) :
    val_main_v11 (F := Ideal) x0 x1 x2 (ix4 b h q k) = Cert.Spec.score x0 x1 x2 b h q k := by
  rw [val_main_v11_apply, val_main_v9_apply, val_main_v10_apply, val_main_cst_apply, Ideal.hostDivf_def, Ideal.ofBits_def,
    ofBits_eight, Ideal.div_coe (by norm_num : (8 : ℝ) ≠ 0)]
  simp only [lidx_v9, ridx_v9, query_eq, key_eq]
  rfl

end Cert.RefSpec

end
-- ==== Proof.RefSoftmax.lean ====
import proofs.«157239_j88802743812872_2_alg».proof.Proof.RefProj

/-! # The reference, stage by stage: the softmax of each row of scores

The reference takes each row's maximum by a reduction with a maximum body from minus infinity (and once more the
maximum of that with minus infinity, which changes nothing), subtracts it, exponentiates, sums the row from zero,
and divides. For a commutative and associative body the reduction over the last axis is the fold over that axis's
coordinates, which is the form the specification gives the row maximum; the sum from the initial value 0 is the
plain sum. -/

noncomputable section

namespace Cert.RefSpec

open Idealize.ShloMosaic Idealize.ShloMosaic.ValueIdx Cert.ReferenceIdeal Cert.ReferenceIdeal.Gen Cert.ReferenceIdeal.Read

variable (x0 : (⟨S4x2048x1024, .f32⟩ : BufTy).Contents (Elt Ideal)) (x1 : (⟨S1024x3072, .f32⟩ : BufTy).Contents (Elt Ideal))
  (x2 : (⟨S3072, .f32⟩ : BufTy).Contents (Elt Ideal))

/-! ## The row maximum -/

/-- The pattern 0xFF800000 denotes minus infinity. -/
theorem ofBits_neg_inf : Ideal.ofBits .f32 0xFF800000#32 = (⊥ : EReal) := by
  simp [Ideal.ofBits, Ideal.ieee]

/-- Dropping the last axis of [4, 16, 2048, 2048] leaves [4, 16, 2048]. -/
theorem red3 : S4x16x2048x2048.Reduces [3] S4x16x2048 := by decide

/-- The kept index (b, h, q) with the key position k put back on the dropped axis is (b, h, q, k). -/
theorem lift_red3 (b : Fin 4) (h : Fin 16) (q : Fin 2048) (k : Fin (S4x16x2048x2048.size 3)) :
    red3.lift (ix3 b h q) k = ix4 b h q (⟨k.val, k.isLt⟩ : Fin 2048) := by
  funext c; apply Fin.ext
  fin_cases c <;> rfl

/-- The reduction with a maximum body from minus infinity is the fold of max over the row's scores. -/
theorem rowmax_eq (b : Fin 4) (h : Fin 16) (q : Fin 2048) :
    val_main_v14 (F := Ideal) x0 x1 x2 (ix3 b h q) = Cert.Spec.rowmax x0 x1 x2 b h q := by
  rw [val_main_v14_apply, val_main_v13_apply, val_main_cst_1_apply, Ideal.maximumf_def, Ideal.ofBits_def, ofBits_neg_inf,
    max_eq_right bot_le]
  unfold val_main_v12
  rw [Host.reduce_eq_fold_single FloatOps.maximumf _ _ reducesTo_S4x16x2048x2048_S4x16x2048_d3 red3 h_S_,
    val_main_cst_0_apply, Ideal.ofBits_def, ofBits_neg_inf]
  have hf : (val_main_v11 (F := Ideal) x0 x1 x2 ∘ red3.lift (ix3 b h q))
      = fun k : Fin 2048 => Cert.Spec.score x0 x1 x2 b h q k :=
    funext fun k => (congrArg (val_main_v11 (F := Ideal) x0 x1 x2) (lift_red3 b h q k)).trans (score_eq x0 x1 x2 b h q _)
  exact congrArg (fun f => Finset.fold max (⊥ : EReal) f (Finset.univ : Finset (Fin 2048))) hf

/-! ## Weights, row sums, probabilities -/

theorem idx_v16 (b : Fin 4) (h : Fin 16) (q k : Fin 2048) :
    idx_main_v15 (idx_main_v16 (ix4 b h q k)) = ix3 b h q :=
  funext fun a => Fin.ext (by match a with | ⟨0, _⟩ => rfl | ⟨1, _⟩ => rfl | ⟨2, _⟩ => rfl)

/-- The exponential of a score less its row's maximum is the specification's weight. -/
theorem weight_eq (b : Fin 4) (h : Fin 16) (q k : Fin 2048) :
    val_main_v18 (F := Ideal) x0 x1 x2 (ix4 b h q k) = Cert.Spec.weight x0 x1 x2 b h q k := by
  rw [val_main_v18_apply, val_main_v17_apply, val_main_v16_apply, val_main_v15_apply, idx_v16, rowmax_eq, score_eq,
    Ideal.hostUnary_exp_def, Ideal.subf_def]
  rfl

theorem idx_v19 (b : Fin 4) (h : Fin 16) (q k : Fin 2048) :
    idx_main_v19 (ix3 b h q) k = ix4 b h q k :=
  funext fun a => Fin.ext (by match a with | ⟨0, _⟩ => rfl | ⟨1, _⟩ => rfl | ⟨2, _⟩ => rfl | ⟨3, _⟩ => rfl)

/-- The pattern 0x00000000 denotes zero. -/
theorem ofBits_zero : Ideal.ofBits .f32 0x00000000#32 = (0 : EReal) := by
  simp [Ideal.ofBits, Ideal.ieee]

/-- The sum of a row's weights from the initial value zero is their sum. -/
theorem rowsum_eq (b : Fin 4) (h : Fin 16) (q : Fin 2048) :
    val_main_v19 (F := Ideal) x0 x1 x2 (ix3 b h q) = ∑ k : Fin 2048, Cert.Spec.weight x0 x1 x2 b h q k := by
  rw [val_main_v19_apply, val_main_cst_2_apply, Ideal.ofBits_def, ofBits_zero, zero_add]
  simp only [idx_v19, weight_eq]

theorem idx_v21 (b : Fin 4) (h : Fin 16) (q k : Fin 2048) :
    idx_main_v20 (idx_main_v21 (ix4 b h q k)) = ix3 b h q :=
  funext fun a => Fin.ext (by match a with | ⟨0, _⟩ => rfl | ⟨1, _⟩ => rfl | ⟨2, _⟩ => rfl)

/-- A weight divided by its row's sum is the specification's attention probability. -/
theorem attn_eq (b : Fin 4) (h : Fin 16) (q k : Fin 2048) :
    val_main_v22 (F := Ideal) x0 x1 x2 (ix4 b h q k) = Cert.Spec.attn x0 x1 x2 b h q k := by
  rw [val_main_v22_apply, val_main_v21_apply, val_main_v20_apply, idx_v21, rowsum_eq, weight_eq, Ideal.hostDivf_def]
  rfl

end Cert.RefSpec

end
-- ==== Proof.RefSpec.lean ====
import proofs.«157239_j88802743812872_2_alg».proof.Proof.RefSoftmax

/-! # The reference is the specification

The last stages of the reference: the attended values (a matrix product of the probabilities with the value
vectors), their transpose and reshape back to [4, 2048, 1024] (row-major position ((b*2048 + s)*1024 + e) read in
[4, 2048, 16, 64] is (b, s, e / 64, e % 64): column e belongs to head e / 64, component e % 64), and the output
matrix product with its broadcast bias. With the earlier stages this identifies the reference's two results, entry
by entry, with the specification's two whole-array functions. -/

noncomputable section

namespace Cert.RefSpec

open Idealize.ShloMosaic Idealize.ShloMosaic.ValueIdx Cert.ReferenceIdeal Cert.ReferenceIdeal.Gen Cert.ReferenceIdeal.Read

variable (x0 : (⟨S4x2048x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The reference's attention probabilities are the specification's. -/
theorem ref_attn : val_main_v22 (F := Ideal) x0 x1 x2 = Cert.Spec.attnArr x0 x1 x2 := by
  funext i
  obtain ⟨b, h, q, k, rfl⟩ : ∃ (b : Fin 4) (h : Fin 16) (q k : Fin 2048), i = ix4 b h q k :=
    ⟨i 0, i 1, i 2, i 3, eq_ix4 i⟩
  exact attn_eq x0 x1 x2 b h q k

/-! ## The attended values -/

theorem lidx_v23 (b : Fin 4) (h : Fin 16) (q : Fin 2048) (d : Fin 64) (k : Fin 2048) :
    lidx_main_v23 (ix4 b h q d) k = ix4 b h q k :=
  funext fun a => Fin.ext (by match a with | ⟨0, _⟩ => rfl | ⟨1, _⟩ => rfl | ⟨2, _⟩ => rfl | ⟨3, _⟩ => rfl)

theorem ridx_v23 (b : Fin 4) (h : Fin 16) (q : Fin 2048) (d : Fin 64) (k : Fin 2048) :
    ridx_main_v23 (ix4 b h q d) k = ix4 b h k d :=
  funext fun a => Fin.ext (by match a with | ⟨0, _⟩ => rfl | ⟨1, _⟩ => rfl | ⟨2, _⟩ => rfl | ⟨3, _⟩ => rfl)

/-- The product of the probabilities with the value vectors is the specification's attended value. -/
theorem vals_eq (b : Fin 4) (h : Fin 16) (q : Fin 2048) (d : Fin 64) :
    val_main_v23 (F := Ideal) x0 x1 x2 (ix4 b h q d) = Cert.Spec.vals x0 x1 x2 b h q d := by
  rw [val_main_v23_apply]
  simp only [lidx_v23, ridx_v23, attn_eq, value_eq]
  rfl

/-- Row-major position of (b, s, e) in [4, 2048, 1024], read back in [4, 2048, 16, 64] and transposed, is
    (b, e / 64, s, e % 64). -/
theorem idx_merge (b : Fin 4) (s : Fin 2048) (e : Fin 1024) :
    idx_main_v24 (idx_main_v25 (ix3 b s e))
      = ix4 b (⟨e.val / 64, by omega⟩ : Fin 16) s (⟨e.val % 64, by omega⟩ : Fin 64) :=
  funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)

/-- Column e of the merged values is head e / 64's component e % 64. -/
theorem merged_eq (b : Fin 4) (s : Fin 2048) (e : Fin 1024) :
    val_main_v25 (F := Ideal) x0 x1 x2 (ix3 b s e)
      = Cert.Spec.vals x0 x1 x2 b (⟨e.val / 64, by omega⟩ : Fin 16) s (⟨e.val % 64, by omega⟩ : Fin 64) := by
  rw [val_main_v25_apply, val_main_v24_apply, idx_merge]
  exact vals_eq x0 x1 x2 b _ s _

/-! ## The output projection -/

theorem lidx_v26 (b : Fin 4) (s : Fin 2048) (f : Fin 1024) (k : Fin 1024) :
    lidx_main_v26 (ix3 b s f) k = ix3 b s k :=
  funext fun a => Fin.ext (by match a with | ⟨0, _⟩ => rfl | ⟨1, _⟩ => rfl | ⟨2, _⟩ => rfl)

theorem ridx_v26 (b : Fin 4) (s : Fin 2048) (f : Fin 1024) (k : Fin 1024) :
    ridx_main_v26 (ix3 b s f) k = ix2 k f :=
  funext fun a => Fin.ext (by match a with | ⟨0, _⟩ => rfl | ⟨1, _⟩ => rfl)

theorem idx_v28 (b : Fin 4) (s : Fin 2048) (f : Fin 1024) :
    idx_main_v27 (idx_main_v28 (ix3 b s f)) = ix1 f :=
  funext fun a => Fin.ext (by match a with | ⟨0, _⟩ => rfl)

/-- The product of the merged values with the output matrix, plus the broadcast bias, is the specification's output. -/
theorem out_eq (b : Fin 4) (s : Fin 2048) (f : Fin 1024) :
    val_main_v29 (F := Ideal) x0 x1 x2 x3 x4 (ix3 b s f) = Cert.Spec.out x0 x1 x2 x3 x4 b s f := by
  rw [val_main_v29_apply, val_main_v26_apply, val_main_v28_apply, val_main_v27_apply, idx_v28]
  simp only [lidx_v26, ridx_v26, merged_eq, Ideal.addf_def]
  rfl

/-- The reference's output is the specification's. -/
theorem ref_out : val_main_v29 (F := Ideal) x0 x1 x2 x3 x4 = Cert.Spec.outArr x0 x1 x2 x3 x4 := by
  funext i
  obtain ⟨b, s, f, rfl⟩ : ∃ (b : Fin 4) (s : Fin 2048) (f : Fin 1024), i = ix3 b s f :=
    ⟨i 0, i 1, i 2, eq_ix3 i⟩
  exact out_eq x0 x1 x2 x3 x4 b s f

end Cert.RefSpec

end
-- ==== Proof.lean ====
/- Multi-head self-attention (batch 4, sequence length 2048, width 1024, sixteen heads of width 64) as three grid
   regions — the query/key/value projection, the attention proper two heads at a time, the output projection — against
   the plain einsum-and-softmax reference, over the extended reals.

   The two programs are the same function of their arguments. The kernel permutes the projection's columns from
   head-major to kind-major order before multiplying and reads them back in that order, so it multiplies the same
   numbers; it scales the scores by the constant 1/8 where the reference divides by 8, which agree on every
   extended real; both turn a row of scores into exp(score - row maximum) over the row's sum of those; and finite
   sums of extended reals may be taken in any order and any grouping, which is all the tiling changes. No
   finiteness of the inputs is used.

   Each program's frame (it terminates, faults nowhere, leaves its arguments as launched) comes from its run: the
   kernel program's from the launch rule for a program of several grid regions, each region's body checked by
   symbolic execution; the reference's from its straight-line run. -/
import proofs.«157239_j88802743812872_2_alg».proof.Defs
import proofs.«157239_j88802743812872_2_alg».proof.Proof.Gen.Kernel
import proofs.«157239_j88802743812872_2_alg».proof.Proof.Gen.Kernel.Skeleton
import proofs.«157239_j88802743812872_2_alg».proof.Proof.Gen.Kernel.Launch
import proofs.«157239_j88802743812872_2_alg».proof.Proof.Gen.Kernel.Regions
import proofs.«157239_j88802743812872_2_alg».proof.Proof.Gen.Kernel.Points
import proofs.«157239_j88802743812872_2_alg».proof.Proof.Gen.KernelIdeal
import proofs.«157239_j88802743812872_2_alg».proof.Proof.Gen.KernelIdeal.Skeleton
import proofs.«157239_j88802743812872_2_alg».proof.Proof.Gen.KernelIdeal.Launch
import proofs.«157239_j88802743812872_2_alg».proof.Proof.Gen.KernelIdeal.Regions
import proofs.«157239_j88802743812872_2_alg».proof.Proof.Gen.KernelIdeal.Points
import proofs.«157239_j88802743812872_2_alg».proof.Proof.Gen.ReferenceIdeal
import proofs.«157239_j88802743812872_2_alg».proof.Proof.Gen.Pre_finite_inputs
import proofs.«157239_j88802743812872_2_alg».proof.Proof.BitsRun
import proofs.«157239_j88802743812872_2_alg».proof.Proof.IdealValue
import proofs.«157239_j88802743812872_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Fr.frame_all (F := Bits) m ρ

/-- The idealized kernel program likewise. -/
theorem frame_kernelIdeal : Cert.frame_KernelIdeal := fun m ρ _ => Cert.KernelIdeal.Fr.frame_all (F := Ideal) m ρ

/-- The reference likewise: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the specification's two arrays of those
    arguments: the output and the attention probabilities. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Spec.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, Cert.RefSpec.ref_out, (hagree c).1, (hagree c).2.1, (hagree c).2.2.1,
      (hagree c).2.2.2.1, (hagree c).2.2.2.2]
  · rw [Cert.ReferenceIdeal.Read.val_main_v22_eq, Cert.RefSpec.ref_attn, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
